-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S5x32 : Shape := ⟨2, ![5, 32]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x32 : S_.BroadcastsInDim S5x32 (![] : Fin 0 → Fin S5x32.rank)
  reducesTo_S5x32_S_d0_1 : S5x32.ReducesTo [0, 1] S_

variable [Facts]

def fn {F : FTy → Type} [FloatOps F] (main_arg0 : FVec F S100000x128 .f32) (main_arg1 : FVec F S5x32 .f32) (main_arg2 : IVec S1600000 32) (main_arg3 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x32 .f32 := Host.absf main_arg1
  let main_cst_0 : FVec F S_ .f32 := constant S_ .f32 0x7F800000#32
  let main_v5 : FVec F S5x32 .f32 := broadcastInDim S5x32 ![] bcast_S_S5x32 main_cst_0
  let main_v6 : IVec S5x32 1 := cmpf .olt main_v4 main_v5
  let main_c_1 : IVec S_ 1 := constantI S_ 1 1#1
  let main_v7 : IVec S_ 1 := (fun x v => Host.reduce IntOp.andi x v reducesTo_S5x32_S_d0_1 h_S_) main_v6 main_c_1
  let main_v8 : IVec S_ 1 := andi main_v3 main_v7
  main_v8
-- ==== Kernel.lean ====
abbrev S100000x128 : Shape := ⟨2, ![100000, 128]⟩
abbrev S5x32 : Shape := ⟨2, ![5, 32]⟩
abbrev S1600000 : Shape := ⟨1, ![1600000]⟩
abbrev S64 : Shape := ⟨1, ![64]⟩
abbrev S_ : Shape := ⟨0, ![]⟩
abbrev S100000x64 : Shape := ⟨2, ![100000, 64]⟩
abbrev S64x1 : Shape := ⟨2, ![64, 1]⟩
abbrev S64x2 : Shape := ⟨2, ![64, 2]⟩
abbrev S1600000x1 : Shape := ⟨2, ![1600000, 1]⟩
abbrev S1600000x64 : Shape := ⟨2, ![1600000, 64]⟩
abbrev S100000x160 : Shape := ⟨2, ![100000, 160]⟩
abbrev S5000x128 : Shape := ⟨2, ![5000, 128]⟩
abbrev S5000x64 : Shape := ⟨2, ![5000, 64]⟩
abbrev S5000x160 : Shape := ⟨2, ![5000, 160]⟩
abbrev S5000x32 : Shape := ⟨2, ![5000, 32]⟩
abbrev S5000x1 : Shape := ⟨2, ![5000, 1]⟩
abbrev S5000 : Shape := ⟨1, ![5000]⟩
abbrev S1x32 : Shape := ⟨2, ![1, 32]⟩
abbrev S32 : Shape := ⟨1, ![32]⟩

abbrev nBuf : Space → Nat
  | .hbm => 142
  | .vmem => 7
  | .smem => 0
  | _ => 0

abbrev hbmTy0_0 (i : Nat) : BufTy := match i % 128 with
  | 0 => ⟨S100000x128, .f32⟩
  | 1 => ⟨S5x32, .f32⟩
  | 2 => ⟨S1600000, .i32⟩
  | 3 => ⟨S1600000, .i32⟩
  | 4 => ⟨S64, .i32⟩
  | 5 => ⟨S_, .i1⟩
  | 6 => ⟨S100000x64, .i1⟩
  | 7 => ⟨S_, .i32⟩
  | 8 => ⟨S64, .i32⟩
  | 9 => ⟨S64, .i1⟩
  | 10 => ⟨S_, .i32⟩
  | 11 => ⟨S64, .i32⟩
  | 12 => ⟨S64, .i32⟩
  | 13 => ⟨S64, .i32⟩
  | 14 => ⟨S_, .i32⟩
  | 15 => ⟨S64, .i32⟩
  | 16 => ⟨S64, .i1⟩
  | 17 => ⟨S_, .i32⟩
  | 18 => ⟨S64, .i32⟩
  | 19 => ⟨S64, .i32⟩
  | 20 => ⟨S64, .i32⟩
  | 21 => ⟨S64x1, .i32⟩
  | 22 => ⟨S64x1, .i32⟩
  | 23 => ⟨S64x2, .i32⟩
  | 24 => ⟨S_, .i1⟩
  | 25 => ⟨S64, .i1⟩
  | 26 => ⟨S100000x64, .i1⟩
  | 27 => ⟨S_, .i32⟩
  | 28 => ⟨S100000x64, .i32⟩
  | 29 => ⟨S_, .i32⟩
  | 30 => ⟨S64, .i32⟩
  | 31 => ⟨S64, .i1⟩
  | 32 => ⟨S_, .i32⟩
  | 33 => ⟨S64, .i32⟩
  | 34 => ⟨S64, .i32⟩
  | 35 => ⟨S64, .i32⟩
  | 36 => ⟨S_, .i32⟩
  | 37 => ⟨S64, .i32⟩
  | 38 => ⟨S64, .i1⟩
  | 39 => ⟨S_, .i32⟩
  | 40 => ⟨S64, .i32⟩
  | 41 => ⟨S64, .i32⟩
  | 42 => ⟨S64, .i32⟩
  | 43 => ⟨S64x1, .i32⟩
  | 44 => ⟨S64x1, .i32⟩
  | 45 => ⟨S64x2, .i32⟩
  | 46 => ⟨S_, .i32⟩
  | 47 => ⟨S64, .i32⟩
  | 48 => ⟨S100000x64, .i32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .i1⟩
  | 58 => ⟨S1600000x64, .i32⟩
  | 59 => ⟨S_, .i32⟩
  | 60 => ⟨S100000x64, .i32⟩
  | 61 => ⟨S1600000x1, .i32⟩
  | 62 => ⟨S100000x64, .i32⟩
  | 63 => ⟨S_, .i32⟩
  | 64 => ⟨S100000x64, .i32⟩
  | 65 => ⟨S100000x64, .i1⟩
  | 66 => ⟨S100000x64, .i1⟩
  | 67 => ⟨S100000x64, .i1⟩
  | 68 => ⟨S100000x64, .i1⟩
  | 69 => ⟨S_, .i32⟩
  | 70 => ⟨S100000x64, .i32⟩
  | 71 => ⟨S100000x64, .i32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .i1⟩
  | 81 => ⟨S1600000x64, .i32⟩
  | 82 => ⟨S_, .i32⟩
  | 83 => ⟨S100000x64, .i32⟩
  | 84 => ⟨S1600000x1, .i32⟩
  | 85 => ⟨S100000x64, .i32⟩
  | 86 => ⟨S_, .i32⟩
  | 87 => ⟨S100000x64, .i32⟩
  | 88 => ⟨S100000x64, .i1⟩
  | 89 => ⟨S100000x64, .i1⟩
  | 90 => ⟨S100000x64, .i1⟩
  | 91 => ⟨S100000x64, .i1⟩
  | 92 => ⟨S_, .i32⟩
  | 93 => ⟨S100000x64, .i32⟩
  | 94 => ⟨S100000x64, .i32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .i1⟩
  | 104 => ⟨S1600000x64, .i32⟩
  | 105 => ⟨S_, .i32⟩
  | 106 => ⟨S100000x64, .i32⟩
  | 107 => ⟨S1600000x1, .i32⟩
  | 108 => ⟨S100000x64, .i32⟩
  | 109 => ⟨S_, .i32⟩
  | 110 => ⟨S100000x64, .i32⟩
  | 111 => ⟨S100000x64, .i1⟩
  | 112 => ⟨S100000x64, .i1⟩
  | 113 => ⟨S100000x64, .i1⟩
  | 114 => ⟨S100000x64, .i1⟩
  | 115 => ⟨S_, .i32⟩
  | 116 => ⟨S100000x64, .i32⟩
  | 117 => ⟨S100000x64, .i32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .i1⟩
  | 127 => ⟨S1600000x64, .i32⟩
  | _ => ⟨S100000x128, .f32⟩

abbrev hbmTy0_1 (i : Nat) : BufTy := match i % 128 with
  | 0 => ⟨S_, .i32⟩
  | 1 => ⟨S100000x64, .i32⟩
  | 2 => ⟨S1600000x1, .i32⟩
  | 3 => ⟨S100000x64, .i32⟩
  | 4 => ⟨S_, .i32⟩
  | 5 => ⟨S100000x64, .i32⟩
  | 6 => ⟨S100000x64, .i1⟩
  | 7 => ⟨S100000x64, .i1⟩
  | 8 => ⟨S100000x64, .i1⟩
  | 9 => ⟨S100000x64, .i1⟩
  | 10 => ⟨S_, .i32⟩
  | 11 => ⟨S100000x64, .i32⟩
  | 12 => ⟨S100000x64, .i32⟩
  | 13 => ⟨S100000x160, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x64, .i32⟩
  | .local _ .vmem, ⟨3, _⟩ => ⟨S5000x64, .i32⟩
  | .local _ .vmem, ⟨4, _⟩ => ⟨S5x32, .f32⟩
  | .local _ .vmem, ⟨5, _⟩ => ⟨S5000x160, .f32⟩
  | .local _ .vmem, ⟨6, _⟩ => ⟨S5000x160, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_c_6 : Ref sig .tc := ⟨.hbm, 29, rfl⟩
abbrev main_v18 : Ref sig .tc := ⟨.hbm, 30, rfl⟩
abbrev main_v19 : Ref sig .tc := ⟨.hbm, 31, rfl⟩
abbrev main_c_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_c_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_10 : Ref sig .tc := ⟨.hbm, 46, rfl⟩
abbrev main_v31 : Ref sig .tc := ⟨.hbm, 47, rfl⟩
abbrev main_v32 : Ref sig .tc := ⟨.hbm, 48, rfl⟩
abbrev main_c_11 : Ref sig .tc := ⟨.hbm, 49, rfl⟩
abbrev main_v33 : Ref sig .tc := ⟨.hbm, 50, rfl⟩
abbrev main_v34 : Ref sig .tc := ⟨.hbm, 51, rfl⟩
abbrev main_c_12 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_13 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_15 : Ref sig .tc := ⟨.hbm, 69, rfl⟩
abbrev main_call0_v0 : Ref sig .tc := ⟨.hbm, 70, rfl⟩
abbrev main_v49 : Ref sig .tc := ⟨.hbm, 71, rfl⟩
abbrev main_c_16 : Ref sig .tc := ⟨.hbm, 72, rfl⟩
abbrev main_v50 : Ref sig .tc := ⟨.hbm, 73, rfl⟩
abbrev main_v51 : Ref sig .tc := ⟨.hbm, 74, rfl⟩
abbrev main_c_17 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_18 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_19 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_20 : Ref sig .tc := ⟨.hbm, 92, rfl⟩
abbrev main_call1_v0 : Ref sig .tc := ⟨.hbm, 93, rfl⟩
abbrev main_v66 : Ref sig .tc := ⟨.hbm, 94, rfl⟩
abbrev main_c_21 : Ref sig .tc := ⟨.hbm, 95, rfl⟩
abbrev main_v67 : Ref sig .tc := ⟨.hbm, 96, rfl⟩
abbrev main_v68 : Ref sig .tc := ⟨.hbm, 97, rfl⟩
abbrev main_c_22 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_23 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_24 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_25 : Ref sig .tc := ⟨.hbm, 115, rfl⟩
abbrev main_call2_v0 : Ref sig .tc := ⟨.hbm, 116, rfl⟩
abbrev main_v83 : Ref sig .tc := ⟨.hbm, 117, rfl⟩
abbrev main_c_26 : Ref sig .tc := ⟨.hbm, 118, rfl⟩
abbrev main_v84 : Ref sig .tc := ⟨.hbm, 119, rfl⟩
abbrev main_v85 : Ref sig .tc := ⟨.hbm, 120, rfl⟩
abbrev main_c_27 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_28 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_29 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_30 : Ref sig .tc := ⟨.hbm, 138, rfl⟩
abbrev main_call3_v0 : Ref sig .tc := ⟨.hbm, 139, rfl⟩
abbrev main_v100 : Ref sig .tc := ⟨.hbm, 140, rfl⟩
abbrev main_v101 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000x64 : S_.BroadcastsInDim S100000x64 (![] : Fin 0 → Fin S100000x64.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S_S1600000 : S_.BroadcastsInDim S1600000 (![] : Fin 0 → Fin S1600000.rank)
  bcast_S1600000_S1600000x1_0 : S1600000.BroadcastsInDim S1600000x1 (![0] : Fin 1 → Fin S1600000x1.rank)
  natLt_1_32 : 1 < 32
  inb_S5000x128_S5000x128_0_0 : ∀ a, (![0, 0] : Fin 2 → Nat) a + S5000x128.size a ≤ S5000x128.size a
  h_S5000x128 : 0 < S5000x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  inb_S5x32_S1x32_0_0 : ∀ a, (![0, 0] : Fin 2 → Nat) a + S1x32.size a ≤ S5x32.size a
  h_S1x32 : 0 < S1x32.numel
  shapeCasts_S1x32_S32 : S1x32.ShapeCasts S32
  shapeCasts_S32_S1x32 : S32.ShapeCasts S1x32
  broadcasts_S5000x1_S5000x32 : S5000x1.Broadcasts S5000x32
  broadcasts_S1x32_S5000x32 : S1x32.Broadcasts S5000x32
  inb_S5x32_S1x32_1_0 : ∀ a, (![1, 0] : Fin 2 → Nat) a + S1x32.size a ≤ S5x32.size a
  inb_S5x32_S1x32_2_0 : ∀ a, (![2, 0] : Fin 2 → Nat) a + S1x32.size a ≤ S5x32.size a
  inb_S5x32_S1x32_3_0 : ∀ a, (![3, 0] : Fin 2 → Nat) a + S1x32.size a ≤ S5x32.size a
  inb_S5x32_S1x32_4_0 : ∀ a, (![4, 0] : Fin 2 → Nat) a + S1x32.size a ≤ S5x32.size a
  inb_S5000x160_S5000x128_0_0 : ∀ a, (![0, 0] : Fin 2 → Nat) a + S5000x128.size a ≤ S5000x160.size a
  inb_S5000x160_S5000x32_0_128 : ∀ a, (![0, 128] : Fin 2 → Nat) a + S5000x32.size a ≤ S5000x160.size a
  h_S5000x32 : 0 < S5000x32.numel
  scatter_S100000x64_S64x2_S64_n_01_01_1_wf : ScatterDims.WF S100000x64 S64x2 S64 [] [0, 1] [0, 1] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .i32 = 32 ∨ (Rect.block (s := S100000x64) S5000x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x32.size a ≤ S5x32.size a
  hwx0_2 : ∀ i : grid0.Coords, EltTy.bits .f32 = 32 ∨ (Rect.block (s := S5x32) S5x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x160.size a ≤ S100000x160.size a
  hwx0_3 : ∀ i : grid0.Coords, EltTy.bits .f32 = 32 ∨ (Rect.block (s := S100000x160) S5000x160.size (cc0_transform_3 i) (hinb0_3 i)).WholeWords (EltTy.packing .f32)

variable [Facts₀]

def scatter_S100000x64_S64x2_S64_n_01_01_1 : ScatterDims S100000x64 S64x2 S64 where
  updateWindowDims := []
  insertedWindowDims := [0, 1]
  scatterDimsToOperandDims := [0, 1]
  indexVectorDim := 1
  wf := scatter_S100000x64_S64x2_S64_n_01_01_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v100) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v101) S5000x160.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S5x32 : Shape := ⟨2, ![5, 32]⟩
abbrev S1600000 : Shape := ⟨1, ![1600000]⟩
abbrev S64 : Shape := ⟨1, ![64]⟩
abbrev S_ : Shape := ⟨0, ![]⟩
abbrev S64x100000 : Shape := ⟨2, ![64, 100000]⟩
abbrev S64x1 : Shape := ⟨2, ![64, 1]⟩
abbrev S64x2 : Shape := ⟨2, ![64, 2]⟩
abbrev S1600000x1 : Shape := ⟨2, ![1600000, 1]⟩
abbrev S64x1600000 : Shape := ⟨2, ![64, 1600000]⟩
abbrev S1600000x64 : Shape := ⟨2, ![1600000, 64]⟩
abbrev S100000x64 : Shape := ⟨2, ![100000, 64]⟩
abbrev S64x100000x1 : Shape := ⟨3, ![64, 100000, 1]⟩
abbrev S1x1x5 : Shape := ⟨3, ![1, 1, 5]⟩
abbrev S64x100000x5 : Shape := ⟨3, ![64, 100000, 5]⟩
abbrev S100000x5 : Shape := ⟨2, ![100000, 5]⟩
abbrev S100000x32 : Shape := ⟨2, ![100000, 32]⟩
abbrev S100000x160 : Shape := ⟨2, ![100000, 160]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S5x32, .f32⟩
  | 2 => ⟨S1600000, .i32⟩
  | 3 => ⟨S1600000, .i32⟩
  | 4 => ⟨S64, .i32⟩
  | 5 => ⟨S_, .i1⟩
  | 6 => ⟨S64x100000, .i1⟩
  | 7 => ⟨S_, .i32⟩
  | 8 => ⟨S64, .i32⟩
  | 9 => ⟨S64, .i1⟩
  | 10 => ⟨S_, .i32⟩
  | 11 => ⟨S64, .i32⟩
  | 12 => ⟨S64, .i32⟩
  | 13 => ⟨S64, .i32⟩
  | 14 => ⟨S_, .i32⟩
  | 15 => ⟨S64, .i32⟩
  | 16 => ⟨S64, .i1⟩
  | 17 => ⟨S_, .i32⟩
  | 18 => ⟨S64, .i32⟩
  | 19 => ⟨S64, .i32⟩
  | 20 => ⟨S64, .i32⟩
  | 21 => ⟨S64x1, .i32⟩
  | 22 => ⟨S64x1, .i32⟩
  | 23 => ⟨S64x2, .i32⟩
  | 24 => ⟨S_, .i1⟩
  | 25 => ⟨S64, .i1⟩
  | 26 => ⟨S64x100000, .i1⟩
  | 27 => ⟨S_, .i32⟩
  | 28 => ⟨S64x100000, .i32⟩
  | 29 => ⟨S_, .i32⟩
  | 30 => ⟨S64, .i32⟩
  | 31 => ⟨S64, .i1⟩
  | 32 => ⟨S_, .i32⟩
  | 33 => ⟨S64, .i32⟩
  | 34 => ⟨S64, .i32⟩
  | 35 => ⟨S64, .i32⟩
  | 36 => ⟨S_, .i32⟩
  | 37 => ⟨S64, .i32⟩
  | 38 => ⟨S64, .i1⟩
  | 39 => ⟨S_, .i32⟩
  | 40 => ⟨S64, .i32⟩
  | 41 => ⟨S64, .i32⟩
  | 42 => ⟨S64, .i32⟩
  | 43 => ⟨S64x1, .i32⟩
  | 44 => ⟨S64x1, .i32⟩
  | 45 => ⟨S64x2, .i32⟩
  | 46 => ⟨S_, .i32⟩
  | 47 => ⟨S64, .i32⟩
  | 48 => ⟨S64x100000, .i32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S64x1600000, .i1⟩
  | 58 => ⟨S64x1600000, .i32⟩
  | 59 => ⟨S1600000x64, .i32⟩
  | 60 => ⟨S_, .i32⟩
  | 61 => ⟨S100000x64, .i32⟩
  | 62 => ⟨S1600000x1, .i32⟩
  | 63 => ⟨S100000x64, .i32⟩
  | 64 => ⟨S64x100000, .i32⟩
  | 65 => ⟨S_, .i32⟩
  | 66 => ⟨S64x100000, .i32⟩
  | 67 => ⟨S64x100000, .i1⟩
  | 68 => ⟨S64x100000, .i1⟩
  | 69 => ⟨S64x100000, .i1⟩
  | 70 => ⟨S64x100000, .i1⟩
  | 71 => ⟨S_, .i32⟩
  | 72 => ⟨S64x100000, .i32⟩
  | 73 => ⟨S64x100000, .i32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S64x1600000, .i1⟩
  | 83 => ⟨S64x1600000, .i32⟩
  | 84 => ⟨S1600000x64, .i32⟩
  | 85 => ⟨S_, .i32⟩
  | 86 => ⟨S100000x64, .i32⟩
  | 87 => ⟨S1600000x1, .i32⟩
  | 88 => ⟨S100000x64, .i32⟩
  | 89 => ⟨S64x100000, .i32⟩
  | 90 => ⟨S_, .i32⟩
  | 91 => ⟨S64x100000, .i32⟩
  | 92 => ⟨S64x100000, .i1⟩
  | 93 => ⟨S64x100000, .i1⟩
  | 94 => ⟨S64x100000, .i1⟩
  | 95 => ⟨S64x100000, .i1⟩
  | 96 => ⟨S_, .i32⟩
  | 97 => ⟨S64x100000, .i32⟩
  | 98 => ⟨S64x100000, .i32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S64x1600000, .i1⟩
  | 108 => ⟨S64x1600000, .i32⟩
  | 109 => ⟨S1600000x64, .i32⟩
  | 110 => ⟨S_, .i32⟩
  | 111 => ⟨S100000x64, .i32⟩
  | 112 => ⟨S1600000x1, .i32⟩
  | 113 => ⟨S100000x64, .i32⟩
  | 114 => ⟨S64x100000, .i32⟩
  | 115 => ⟨S_, .i32⟩
  | 116 => ⟨S64x100000, .i32⟩
  | 117 => ⟨S64x100000, .i1⟩
  | 118 => ⟨S64x100000, .i1⟩
  | 119 => ⟨S64x100000, .i1⟩
  | 120 => ⟨S64x100000, .i1⟩
  | 121 => ⟨S_, .i32⟩
  | 122 => ⟨S64x100000, .i32⟩
  | 123 => ⟨S64x100000, .i32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S64x1600000, .i1⟩
  | 5 => ⟨S64x1600000, .i32⟩
  | 6 => ⟨S1600000x64, .i32⟩
  | 7 => ⟨S_, .i32⟩
  | 8 => ⟨S100000x64, .i32⟩
  | 9 => ⟨S1600000x1, .i32⟩
  | 10 => ⟨S100000x64, .i32⟩
  | 11 => ⟨S64x100000, .i32⟩
  | 12 => ⟨S_, .i32⟩
  | 13 => ⟨S64x100000, .i32⟩
  | 14 => ⟨S64x100000, .i1⟩
  | 15 => ⟨S64x100000, .i1⟩
  | 16 => ⟨S64x100000, .i1⟩
  | 17 => ⟨S64x100000, .i1⟩
  | 18 => ⟨S_, .i32⟩
  | 19 => ⟨S64x100000, .i32⟩
  | 20 => ⟨S64x100000, .i32⟩
  | 21 => ⟨S64x100000x1, .i32⟩
  | 22 => ⟨S1x1x5, .i32⟩
  | 23 => ⟨S64x100000x5, .i32⟩
  | 24 => ⟨S64x100000x5, .i32⟩
  | 25 => ⟨S64x100000x5, .i1⟩
  | 26 => ⟨S64x100000x5, .f32⟩
  | 27 => ⟨S_, .f32⟩
  | 28 => ⟨S100000x5, .f32⟩
  | 29 => ⟨S100000x32, .f32⟩
  | 30 => ⟨S100000x160, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_c_6 : Ref sig .tc := ⟨.hbm, 29, rfl⟩
abbrev main_v18 : Ref sig .tc := ⟨.hbm, 30, rfl⟩
abbrev main_v19 : Ref sig .tc := ⟨.hbm, 31, rfl⟩
abbrev main_c_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_c_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_10 : Ref sig .tc := ⟨.hbm, 46, rfl⟩
abbrev main_v31 : Ref sig .tc := ⟨.hbm, 47, rfl⟩
abbrev main_v32 : Ref sig .tc := ⟨.hbm, 48, rfl⟩
abbrev main_c_11 : Ref sig .tc := ⟨.hbm, 49, rfl⟩
abbrev main_v33 : Ref sig .tc := ⟨.hbm, 50, rfl⟩
abbrev main_v34 : Ref sig .tc := ⟨.hbm, 51, rfl⟩
abbrev main_c_12 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_14 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_15 : Ref sig .tc := ⟨.hbm, 71, rfl⟩
abbrev main_call0_v0 : Ref sig .tc := ⟨.hbm, 72, rfl⟩
abbrev main_v51 : Ref sig .tc := ⟨.hbm, 73, rfl⟩
abbrev main_c_16 : Ref sig .tc := ⟨.hbm, 74, rfl⟩
abbrev main_v52 : Ref sig .tc := ⟨.hbm, 75, rfl⟩
abbrev main_v53 : Ref sig .tc := ⟨.hbm, 76, rfl⟩
abbrev main_c_17 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_18 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_19 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_20 : Ref sig .tc := ⟨.hbm, 96, rfl⟩
abbrev main_call1_v0 : Ref sig .tc := ⟨.hbm, 97, rfl⟩
abbrev main_v70 : Ref sig .tc := ⟨.hbm, 98, rfl⟩
abbrev main_c_21 : Ref sig .tc := ⟨.hbm, 99, rfl⟩
abbrev main_v71 : Ref sig .tc := ⟨.hbm, 100, rfl⟩
abbrev main_v72 : Ref sig .tc := ⟨.hbm, 101, rfl⟩
abbrev main_c_22 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_23 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_24 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_25 : Ref sig .tc := ⟨.hbm, 121, rfl⟩
abbrev main_call2_v0 : Ref sig .tc := ⟨.hbm, 122, rfl⟩
abbrev main_v89 : Ref sig .tc := ⟨.hbm, 123, rfl⟩
abbrev main_c_26 : Ref sig .tc := ⟨.hbm, 124, rfl⟩
abbrev main_v90 : Ref sig .tc := ⟨.hbm, 125, rfl⟩
abbrev main_v91 : Ref sig .tc := ⟨.hbm, 126, rfl⟩
abbrev main_c_27 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_28 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_29 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_30 : Ref sig .tc := ⟨.hbm, 146, rfl⟩
abbrev main_call3_v0 : Ref sig .tc := ⟨.hbm, 147, rfl⟩
abbrev main_v108 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v109 : Ref sig .tc := ⟨.hbm, 154, rfl⟩
abbrev main_cst : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩

abbrev nD : Nat := 1
abbrev τ : Topo := Topo.v7x

variable {F : FTy → Type} [FloatOps F]

class Facts₀ : Prop where
  bcast_S_S64x100000 : S_.BroadcastsInDim S64x100000 (![] : Fin 0 → Fin S64x100000.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S_S1600000 : S_.BroadcastsInDim S1600000 (![] : Fin 0 → Fin S1600000.rank)
  bcast_S1600000_S1600000x1_0 : S1600000.BroadcastsInDim S1600000x1 (![0] : Fin 1 → Fin S1600000x1.rank)
  natLt_1_32 : 1 < 32
  transposes_S64x1600000_S1600000x64_1_0 : S64x1600000.Transposes [1, 0] S1600000x64
  bcast_S_S100000x64 : S_.BroadcastsInDim S100000x64 (![] : Fin 0 → Fin S100000x64.rank)
  transposes_S100000x64_S64x100000_1_0 : S100000x64.Transposes [1, 0] S64x100000
  bcast_S64x100000_S64x100000x1_0_1 : S64x100000.BroadcastsInDim S64x100000x1 (![0, 1] : Fin 2 → Fin S64x100000x1.rank)
  bcast_S64x100000x1_S64x100000x5_0_1_2 : S64x100000x1.BroadcastsInDim S64x100000x5 (![0, 1, 2] : Fin 3 → Fin S64x100000x5.rank)
  bcast_S1x1x5_S64x100000x5_0_1_2 : S1x1x5.BroadcastsInDim S64x100000x5 (![0, 1, 2] : Fin 3 → Fin S64x100000x5.rank)
  reducesTo_S64x100000x5_S100000x5_d0 : S64x100000x5.ReducesTo [0] S100000x5
  h_S_ : 0 < S_.numel
  concatenates_S100000x128_S100000x32_S100000x160_d1 : Shape.Concatenates [S100000x128, S100000x32] S100000x160 1
  scatter_S64x100000_S64x2_S64_n_01_01_1_wf : ScatterDims.WF S64x100000 S64x2 S64 [] [0, 1] [0, 1] 1
  gather_S64x100000_S1600000x1_S64x1600000_0_1_n_n_1_1_641_wf : GatherDims.WF S64x100000 S1600000x1 S64x1600000 [0] [1] [] [1] [] 1 ![64, 1]
  scatter_S100000x64_S1600000x1_S1600000x64_1_0_0_1_wf : ScatterDims.WF S100000x64 S1600000x1 S1600000x64 [1] [0] [0] 1
  dot_S100000x5_S5x32_S100000x32_1_0_0_1_n_n_wf : DotDims.WF S100000x5 S5x32 S100000x32 [1] [0] [0] [1] [] []

variable [Facts₀]

def scatter_S64x100000_S64x2_S64_n_01_01_1 : ScatterDims S64x100000 S64x2 S64 where
  updateWindowDims := []
  insertedWindowDims := [0, 1]
  scatterDimsToOperandDims := [0, 1]
  indexVectorDim := 1
  wf := scatter_S64x100000_S64x2_S64_n_01_01_1_wf
def gather_S64x100000_S1600000x1_S64x1600000_0_1_n_n_1_1_641 : GatherDims S64x100000 S1600000x1 S64x1600000 where
  offsetDims := [0]
  collapsedSliceDims := [1]
  operandBatchingDims := []
  startIndicesBatchingDims := []
  startIndexMap := [1]
  indexVectorDim := 1
  sliceSizes := ![64, 1]
  wf := gather_S64x100000_S1600000x1_S64x1600000_0_1_n_n_1_1_641_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x5_S5x32_S100000x32_1_0_0_1_n_n : DotDims S100000x5 S5x32 S100000x32 where
  lhsContracting := [1]
  rhsContracting := [0]
  lhsNonContracting := [0]
  rhsNonContracting := [1]
  lhsBatch := []
  rhsBatch := []
  wf := dot_S100000x5_S5x32_S100000x32_1_0_0_1_n_n_wf

class Facts : Prop extends Facts₀ where

variable [Facts]
-- ==== Proof.KernelSpec.lean ====
/-
  The pure specification of the kernel's output array, index by index, over the extended reals.

  The output has 160 columns. Columns 0 … 127 of row n copy row n of the first argument. Columns 128 … 159 of row n hold,
  at column 128 + q, a combination of the five rows of the table e weighted by how often each of the words 0, 1, 2, 3
  occurs among the 64 entries of row n of the integer array d: with c_k the number of entries equal to k (a sum of
  indicators, each the signed reading of the zero-extended one-bit comparison),

      ((((0 + c_0 * e 0 q) + c_1 * e 1 q) + c_2 * e 2 q) + c_3 * e 3 q) + (64 - ((((0 + c_0) + c_1) + c_2) + c_3)) * e 4 q,

  in exactly this association: the sums and the zero terms are kept where the body's operations put them.
-/
import Idealize.ShloMosaic.PureOps.Ideal
import Idealize.ShloMosaic.Lib.ValueIdx

noncomputable section

open scoped BigOperators

namespace Cert.KernelIdeal.KValue

open Idealize.ShloMosaic Idealize.ShloMosaic.ValueIdx

/-- The indicator of "the word w is k", as an extended real: the one-bit comparison, zero-extended to 32 bits, read as a
    signed integer. -/
def ind (k w : BitVec 32) : EReal :=
  FloatOps.sitofp (F := Ideal) .f32 ((IntOp.cmpi .eq w k).setWidth 32)

/-- How many of the 64 entries of a row are the word k: the sum of the indicators. -/
def cnt (row : Fin 64 → BitVec 32) (k : BitVec 32) : EReal := ∑ b : Fin 64, ind k (row b)

/-- One element of the computed columns, from a row of d (64 words) and a column of e (5 extended reals). -/
def rowPos (row : Fin 64 → BitVec 32) (col : Fin 5 → EReal) : EReal :=
  ((((Ideal.ofBits .f32 0x00000000#32 + cnt row 0#32 * col 0) + cnt row 1#32 * col 1) + cnt row 2#32 * col 2)
      + cnt row 3#32 * col 3)
    + (Ideal.ofBits .f32 0x42800000#32
        - ((((Ideal.ofBits .f32 0x00000000#32 + cnt row 0#32) + cnt row 1#32) + cnt row 2#32) + cnt row 3#32)) * col 4

/-- The output at row n, column j: the copied column for j < 128, the computed one at j - 128 otherwise. -/
def KOutAt (x : (⟨2, ![100000, 128]⟩ : Shape).Idx → EReal) (d : (⟨2, ![100000, 64]⟩ : Shape).Idx → BitVec 32)
    (e : (⟨2, ![5, 32]⟩ : Shape).Idx → EReal) (n : Fin 100000) (j : Fin 160) : EReal :=
  if h : j.val < 128 then x (ix2 n ⟨j.val, h⟩)
  else rowPos (fun b => d (ix2 n b)) (fun k => e (ix2 k ⟨j.val - 128, by omega⟩))

/-- The whole output array as one function of the three arrays the kernel reads. -/
def KOut (x : (⟨2, ![100000, 128]⟩ : Shape).Idx → EReal) (d : (⟨2, ![100000, 64]⟩ : Shape).Idx → BitVec 32)
    (e : (⟨2, ![5, 32]⟩ : Shape).Idx → EReal) : (⟨2, ![100000, 160]⟩ : Shape).Idx → EReal :=
  fun i => KOutAt x d e (i 0) (i 1)

variable (x : (⟨2, ![100000, 128]⟩ : Shape).Idx → EReal) (d : (⟨2, ![100000, 64]⟩ : Shape).Idx → BitVec 32)
  (e : (⟨2, ![5, 32]⟩ : Shape).Idx → EReal)

/-- The array at coordinates (n, j). -/
theorem KOut_apply (n : Fin 100000) (j : Fin 160) :
    KOut x d e (ix2 n j) =
      if h : j.val < 128 then x (ix2 n ⟨j.val, h⟩)
      else rowPos (fun b => d (ix2 n b)) (fun k => e (ix2 k ⟨j.val - 128, by omega⟩)) := rfl

/-- A copied column. -/
theorem KOut_left (n : Fin 100000) (j : Fin 128) :
    KOut x d e (ix2 n ⟨j.val, by omega⟩) = x (ix2 n j) := by
  rw [KOut_apply, dif_pos (show (⟨j.val, by omega⟩ : Fin 160).val < 128 from j.isLt)]

/-- A computed column. -/
theorem KOut_right (n : Fin 100000) (q : Fin 32) :
    KOut x d e (ix2 n ⟨128 + q.val, by omega⟩) = rowPos (fun b => d (ix2 n b)) (fun k => e (ix2 k q)) := by
  rw [KOut_apply, dif_neg (show ¬(⟨128 + q.val, by omega⟩ : Fin 160).val < 128 from by dsimp only; omega)]
  congr 1
  funext k
  congr 2
  apply Fin.ext
  dsimp only
  omega

end Cert.KernelIdeal.KValue

end
-- ==== Proof.KernelPoint.lean ====
/-
  The kernel body's result, read as values.

  First for any float values: the body's two stores into the 5000 × 160 output block — the loaded x block into columns
  0 … 127, then its arithmetic on the loaded d block and the five loaded rows of the table into columns 128 … 159 —
  leave the block made of these two payloads (`out_eq`). Then over the extended reals: row r, column q of the
  arithmetic is `rowPos` of row r of the d block and column q of the table (`bodyPos_apply`): the lane sums are sums
  over the 64 entries of the row, the one-column and one-row broadcasts read their row and their column, and the
  pointwise operations are the extended reals' own.
-/
import proofs.«153181_j23888608100655_2_alg».proof.Proof.KernelSpec
import proofs.«153181_j23888608100655_2_alg».proof.Proof.Gen.KernelIdeal.Frame
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

open scoped BigOperators
open Idealize.ShloMosaic Idealize.ShloMosaic.TcCoe Idealize.SL.Sem Idealize.ShloMosaic.Tactic Idealize.ShloMosaic.ValueIdx

namespace Cert.KernelIdeal.KValue

open Cert.KernelIdeal Cert.KernelIdeal.Gen

section AnyValues

variable {F : FTy → Type} [FloatOps F]

theorem hz : (![0, 0] : Fin 2 → Nat) = fun _ => 0 := funext fun a => by fin_cases a <;> rfl

/-- Two stores whose payloads are the restrictions of one function G to their rectangles, the rectangles covering the
    block, leave G. -/
theorem canon_pair {S : Shape} {e : EltTy} (r1 r0 : Rect S) (w1 : r1.shape.Idx → Elt F e) (w0 : r0.shape.Idx → Elt F e)
    (G : S.Idx → Elt F e) (h1 : ∀ x, w1 x = G (r1.emb x)) (h0 : ∀ x, w0 x = G (r0.emb x))
    (hcov : ∀ y : S.Idx, y ∈ r1.set ∨ y ∈ r0.set) :
    View.canon [(⟨r1, w1⟩ : View.Piece (Elt F) S e), ⟨r0, w0⟩] = G := by
  funext y
  refine View.canon_apply_of_pieces G _ (fun p hp => ?_) y ?_
  · rcases List.mem_cons.mp hp with rfl | hp
    · exact h1
    · rcases List.mem_cons.mp hp with rfl | hp
      · exact h0
      · exact absurd hp List.not_mem_nil
  · rcases hcov y with h | h
    · exact ⟨_, List.mem_cons_self, h⟩
    · exact ⟨_, List.mem_cons_of_mem _ List.mem_cons_self, h⟩

/-- A block of the output from its two column ranges: columns 0 … 127 from the first, columns 128 … 159 from the second. -/
def blockOut (w0 : S5000x128.Idx → Elt F .f32) (w1 : S5000x32.Idx → Elt F .f32) : S5000x160.Idx → Elt F .f32 :=
  fun y => if h : (y 1).val < 128 then w0 (ix2 (y 0) ⟨(y 1).val, h⟩)
    else w1 (ix2 (y 0) ⟨(y 1).val - 128, by have := idx2_lt1 y; omega⟩)

theorem blockOut_apply (w0 : S5000x128.Idx → Elt F .f32) (w1 : S5000x32.Idx → Elt F .f32) (r : Fin 5000) (j : Fin 160) :
    blockOut w0 w1 (ix2 r j) = if h : j.val < 128 then w0 (ix2 r ⟨j.val, h⟩) else w1 (ix2 r ⟨j.val - 128, by omega⟩) := rfl

/-- Two stores, the later into columns 128 … 159 and the earlier into columns 0 … 127, leave the block made of the two payloads. -/
theorem canon_two (w1 : S5000x32.Idx → Elt F .f32) (w0 : S5000x128.Idx → Elt F .f32) :
    View.canon [(⟨Rect.unit (s := S5000x160) ![0, 128] ![5000, 32] inb_S5000x160_S5000x32_0_128, w1⟩ : View.Piece (Elt F) S5000x160 .f32),
        ⟨Rect.unit (s := S5000x160) ![0, 0] ![5000, 128] inb_S5000x160_S5000x128_0_0, w0⟩] = blockOut w0 w1 := by
  refine canon_pair (Rect.unit (s := S5000x160) ![0, 128] ![5000, 32] inb_S5000x160_S5000x32_0_128)
    (Rect.unit (s := S5000x160) ![0, 0] ![5000, 128] inb_S5000x160_S5000x128_0_0) w1 w0 (blockOut w0 w1) (fun x => ?_) (fun x => ?_) (fun y => ?_)
  · have hx0 : (x 0).val < 5000 := (x 0).isLt
    have hx1 : (x 1).val < 32 := (x 1).isLt
    have e0 : (((Rect.unit (s := S5000x160) ![0, 128] ![5000, 32] inb_S5000x160_S5000x32_0_128).emb x) 0).val = 0 + 1 * (x 0).val := rfl
    have e1 : (((Rect.unit (s := S5000x160) ![0, 128] ![5000, 32] inb_S5000x160_S5000x32_0_128).emb x) 1).val = 128 + 1 * (x 1).val := rfl
    rw [blockOut, dif_neg (by omega)]
    refine congrArg w1 (funext fun a => Fin.ext ?_)
    match a with
    | ⟨0, _⟩ => show (x 0).val = _; rw [e0]; omega
    | ⟨1, _⟩ => show (x 1).val = _ - 128; rw [e1]; omega
  · have hx0 : (x 0).val < 5000 := (x 0).isLt
    have hx1 : (x 1).val < 128 := (x 1).isLt
    have e0 : (((Rect.unit (s := S5000x160) ![0, 0] ![5000, 128] inb_S5000x160_S5000x128_0_0).emb x) 0).val = 0 + 1 * (x 0).val := rfl
    have e1 : (((Rect.unit (s := S5000x160) ![0, 0] ![5000, 128] inb_S5000x160_S5000x128_0_0).emb x) 1).val = 0 + 1 * (x 1).val := rfl
    rw [blockOut, dif_pos (by omega)]
    refine congrArg w0 (funext fun a => Fin.ext ?_)
    match a with
    | ⟨0, _⟩ => show (x 0).val = _; rw [e0]; omega
    | ⟨1, _⟩ => show (x 1).val = _; rw [e1]; omega
  · have hy0 : (y 0).val < 5000 := idx2_lt0 y
    have hy1 : (y 1).val < 160 := idx2_lt1 y
    by_cases h : (y 1).val < 128
    · refine Or.inr (Rect.mem_set_unit.mpr fun a => ?_)
      match a with
      | ⟨0, _⟩ => show 0 ≤ (y 0).val ∧ (y 0).val < 0 + 5000; omega
      | ⟨1, _⟩ => show 0 ≤ (y 1).val ∧ (y 1).val < 0 + 128; omega
    · refine Or.inl (Rect.mem_set_unit.mpr fun a => ?_)
      match a with
      | ⟨0, _⟩ => show 0 ≤ (y 0).val ∧ (y 0).val < 0 + 5000; omega
      | ⟨1, _⟩ => show 128 ≤ (y 1).val ∧ (y 1).val < 128 + 32; omega

/-- Row k of the table, as a one-row block. -/
def erow (x2 : Vec F S5x32 .f32) (k : Fin 5) : Vec F S1x32 .f32 := fun j => x2 (ix2 k (j 1))

/-- A load of one row of the table reads that row. -/
theorem ld_row (x2 : Vec F S5x32 .f32) (k : Nat) (hk : k < 5) (inb : ∀ a, (![k, 0] : Fin 2 → Nat) a + S1x32.size a ≤ S5x32.size a) :
    View.ld x2 (Rect.unit (s := S5x32) ![k, 0] S1x32.size inb) = erow x2 ⟨k, hk⟩ := by
  funext j
  show x2 _ = x2 _
  congr 1
  funext a; apply Fin.ext
  have hj : (j 0).val < 1 := idx2_lt0 j
  match a with
  | ⟨0, _⟩ => show k + 1 * (j 0).val = k; omega
  | ⟨1, _⟩ => show 0 + 1 * (j 1).val = (j 1).val; omega

/-- The computed columns of a block, from the block of d and the table: the body's arithmetic on what it loads. -/
def bodyPos (x1 : Vec F S5000x64 .i32) (x2 : Vec F S5x32 .f32) : FVec F S5000x32 .f32 :=
  k0_pay1 (k0_pay2 x1) (k0_pay5 x1 (erow x2 0) (erow x2 1)) (k0_pay6 x1) (k0_pay7 x1) (erow x2 2) (erow x2 3) (erow x2 4)

/-- What the body leaves in the output's staging buffer: the x block in columns 0 … 127, the computed columns after it. -/
theorem out_eq (c : Dev nD) (i : grid0.Coords) (a1 : Memref sig .tc .vmem S5000x128 .f32) (h1 : a1.IsWhole)
    (a2 : Memref sig .tc .vmem S5000x64 .i32) (h2 : a2.IsWhole) (a3 : Memref sig .tc .vmem S5x32 .f32) (h3 : a3.IsWhole)
    (a4 : Memref sig .tc .vmem S5000x160 .f32) (h4 : a4.IsWhole)
    (x0 : Vec F S5000x128 .f32) (x1 : Vec F S5000x64 .i32) (x2 : Vec F S5x32 .f32) :
    out0_A_3 c i a1 h1 a2 h2 a3 h3 a4 h4 x0 x1 x2 = blockOut x0 (bodyPos x1 x2) := by
  unfold out0_A_3
  rw [View.read_writes_eq_canon _ _ _ (cover0_A_3 c i a1 h1 a2 h2 a3 h3 a4 h4 x0 x1 x2)]
  unfold kernelRun0_A
  dsimp only
  sl_unfold_words
  simp only [View.readAt_eq_ld, h1.read_unread, h2.read_unread, h3.read_unread,
    View.ld_unit_zero (S := S5000x128) hz, View.ld_unit_zero (S := S5000x64) hz]
  rw [ld_row x2 0 (by omega), ld_row x2 1 (by omega), ld_row x2 2 (by omega), ld_row x2 3 (by omega), ld_row x2 4 (by omega)]
  exact canon_two _ _

end AnyValues

section AtIdeal

/-- The index a row's lane sum reads at lane b is (r, b). -/
theorem lift_eq (r : Fin 5000) (b : Fin 64) : reduces_S5000x64_S5000.lift (ix1 r) b = ix2 r b := by
  funext a; apply Fin.ext
  match a with
  | ⟨0, _⟩ => rfl
  | ⟨1, _⟩ => rfl

/-- One lane sum of the body, kept as a one-column block, read at row r: the number of entries of row r equal to k. -/
theorem lane_apply (v : IVec S5000x64 32) (k : BitVec 32) (r : Fin 5000) :
    (shapeCast S5000x1 (multiReduction (F := Ideal) .add [1] S5000 (sitofp .f32 (extui 32 (cmpi .eq v (broadcast S5000x64 k)) natLt_1_32))
        0x00000000#32 reduces_S5000x64_S5000 (.inl rfl) rfl) shapeCasts_S5000_S5000x1 : FVec Ideal S5000x1 .f32) (ix2 r (0 : Fin 1))
      = cnt (fun b => v (ix2 r b)) k := by
  refine (shapeCast_apply _ shapeCasts_S5000_S5000x1 (ix2 r (0 : Fin 1)) (ix1 r) ?_).trans ?_
  · rw [Shape.rowMajor_val_one, Shape.rowMajor_val_two]
    show r.val = r.val * 1 + 0
    omega
  · refine (Ideal.multiReduction_add_single _ _ reduces_S5000x64_S5000 (.inl rfl) rfl (ix1 r)).trans ?_
    unfold cnt
    refine Finset.sum_congr rfl fun b _ => ?_
    exact congrArg (fun i => ind k (v i)) (lift_eq r b)

/-- A one-column block broadcast along the columns reads its row. -/
theorem colB_apply (v : FVec Ideal S5000x1 .f32) (r : Fin 5000) (q : Fin 32) :
    broadcastTo S5000x32 v broadcasts_S5000x1_S5000x32 (ix2 r q) = v (ix2 r (0 : Fin 1)) := by
  refine broadcastTo_apply v broadcasts_S5000x1_S5000x32 (ix2 r q) (ix2 r (0 : Fin 1)) fun a => ?_
  match a with
  | ⟨0, _⟩ => rfl
  | ⟨1, _⟩ => rfl

/-- A one-row block broadcast along the rows reads its column. -/
theorem rowB_apply (v : FVec Ideal S1x32 .f32) (r : Fin 5000) (q : Fin 32) :
    broadcastTo S5000x32 v broadcasts_S1x32_S5000x32 (ix2 r q) = v (ix2 (0 : Fin 1) q) :=
  broadcastTo_1b_ab_apply v broadcasts_S1x32_S5000x32 r q

/-- The body's expression with its nine non-pointwise pieces replaced by equal ones. -/
theorem assemble (z c a0 a1 a2 a3 b0 b1 b2 b3 b4 a0' a1' a2' a3' b0' b1' b2' b3' b4' : EReal)
    (h0 : a0 = a0') (h1 : a1 = a1') (h2 : a2 = a2') (h3 : a3 = a3')
    (g0 : b0 = b0') (g1 : b1 = b1') (g2 : b2 = b2') (g3 : b3 = b3') (g4 : b4 = b4') :
    ((((z + a0 * b0) + a1 * b1) + a2 * b2) + a3 * b3) + (c - ((((z + a0) + a1) + a2) + a3)) * b4
      = ((((z + a0' * b0') + a1' * b1') + a2' * b2') + a3' * b3') + (c - ((((z + a0') + a1') + a2') + a3')) * b4' := by
  subst h0 h1 h2 h3 g0 g1 g2 g3 g4; rfl

/-- THE COMPUTED COLUMNS AT AN INDEX: row r, column q of the body's arithmetic is rowPos of row r of d and column q of the table. -/
theorem bodyPos_apply (x1 : Vec Ideal S5000x64 .i32) (x2 : Vec Ideal S5x32 .f32) (r : Fin 5000) (q : Fin 32) :
    bodyPos (F := Ideal) x1 x2 (ix2 r q) = rowPos (fun b => x1 (ix2 r b)) (fun k => x2 (ix2 k q)) := by
  unfold bodyPos k0_pay1 k0_pay5 k0_pay7 k0_pay3 k0_pay4 k0_pay6 k0_pay2
  simp only [shapeCast_self, shapeCast_shapeCast, addf_apply, mulf_apply, subf_apply, broadcast_apply, colB_apply]
  exact assemble _ _ _ _ _ _ _ _ _ _ _ _ _ _ _ _ _ _ _ _
    (lane_apply x1 0#32 r) (lane_apply x1 1#32 r) (lane_apply x1 2#32 r) (lane_apply x1 3#32 r)
    (rowB_apply (erow x2 0) r q) (rowB_apply (erow x2 1) r q) (rowB_apply (erow x2 2) r q) (rowB_apply (erow x2 3) r q)
    (rowB_apply (erow x2 4) r q)

end AtIdeal

end Cert.KernelIdeal.KValue

end
-- ==== Proof.KernelArray.lean ====
/-
  From the blocks to the array. At grid point t the kernel reads rows 5000 t … 5000 t + 4999 of x and of d and the whole
  table, and writes back the same rows of the output. What point t writes back is therefore block t of the whole-array
  function `KOut` of the three arrays as the region finds them (`flushed_eq`); row n of the output lies in the block
  of point n / 5000 (`cover`); so the output array ends holding `KOut` (`kernel_final`), and the run's post is restated
  with it (`kernel_run`).
-/
import proofs.«153181_j23888608100655_2_alg».proof.Proof.KernelPoint
import proofs.«153181_j23888608100655_2_alg».proof.Proof.Gen.KernelIdeal.Value
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

section Array

variable (m : (ℓ : Loc nD τ sig) → Buf (Elt Ideal) ℓ) (ρ : Dev nD → PrngReg)

/-- The printed index maps, decided over the 20 grid points: the blocks of x, of d and of the output are the row blocks
    t, the table is its one block at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block of the output, made of a row block of x and the body's arithmetic on the same row block of d and the table,
    is the same row block of the whole-array function: stated over variables of the literal types. -/
theorem block_eq_KOut (X : S100000x128.Idx → EReal) (D : S100000x64.Idx → BitVec 32) (E : S5x32.Idx → EReal)
    (x0 : Vec Ideal S5000x128 .f32) (x1 : Vec Ideal S5000x64 .i32) (x2 : Vec Ideal S5x32 .f32) (tv : Nat) (ht : tv < 20)
    (h0 : ∀ (r : Fin 5000) (j : Fin 128), x0 (ix2 r j) = X (ix2 ⟨tv * 5000 + r.val, by omega⟩ j))
    (h1 : ∀ (r : Fin 5000) (b : Fin 64), x1 (ix2 r b) = D (ix2 ⟨tv * 5000 + r.val, by omega⟩ b))
    (h2 : ∀ (k : Fin 5) (q : Fin 32), x2 (ix2 k q) = E (ix2 k q))
    (r : Fin 5000) (j : Fin 160) :
    blockOut x0 (bodyPos x1 x2) (ix2 r j) = KOut X D E (ix2 ⟨tv * 5000 + r.val, by omega⟩ j) := by
  rw [blockOut_apply, KOut_apply]
  by_cases h : j.val < 128
  · rw [dif_pos h, dif_pos h]
    exact h0 r ⟨j.val, h⟩
  · rw [dif_neg h, dif_neg h, bodyPos_apply]
    congr 1
    · funext b; exact h1 r b
    · funext k; exact h2 k _

/-- WHAT POINT t WRITES BACK is block t of the whole-array function of the arrays as the region finds them. -/
theorem flushed_eq (c : Dev nD) (t : Fin cfg0.N) :
    (dats m 0 c).flushed 3 t
      = ((cfg0.win 3).blk t).view.read (Elt Ideal) (KOut (V m c main_arg0) (V m c main_v100) (V m c main_arg1)) := by
  refine (Value.flushed3_A m c t).trans ?_
  refine (congrArg ((cfg0.win 3).cut (grid0.coords t)) (out_eq (F := Ideal) c (grid0.coords t) (ms0_0 t) (hs0_0 t) (ms0_1 t) (hs0_1 t)
    (ms0_2 t) (hs0_2 t) (ms0_3 t) (hs0_3 t) (iblk m c 0 t) (iblk m c 1 t) (iblk m c 2 t))).trans ?_
  obtain ⟨e00, e01, e10, e11, e20, e21, e30, e31⟩ := idx_facts t
  have hN : cfg0.N = 20 := N_0
  have ht : t.val < 20 := hN ▸ t.isLt
  funext y
  have hy0 : (y 0).val < 5000 := (y 0).isLt
  have hy1 : (y 1).val < 160 := (y 1).isLt
  have hemb : ((cfg0.win 3).blk t).view.emb y = ix2 (⟨t.val * 5000 + (y 0).val, by omega⟩ : Fin 100000) (⟨(y 1).val, hy1⟩ : Fin 160) := by
    funext a; apply Fin.ext
    match a with
    | ⟨0, _⟩ => show win0_3.index t (0 : Fin 2) * 5000 + 1 * (y 0).val = t.val * 5000 + (y 0).val; rw [e30]; omega
    | ⟨1, _⟩ => show win0_3.index t (1 : Fin 2) * 160 + 1 * (y 1).val = (y 1).val; rw [e31]; omega
  show blockOut (iblk m c 0 t) (bodyPos (iblk m c 1 t) (iblk m c 2 t)) (ix2 (⟨(y 0).val, hy0⟩ : Fin 5000) (⟨(y 1).val, hy1⟩ : Fin 160))
    = KOut (V m c main_arg0) (V m c main_v100) (V m c main_arg1) (((cfg0.win 3).blk t).view.emb y)
  refine (block_eq_KOut (V m c main_arg0) (V m c main_v100) (V m c main_arg1) (iblk m c 0 t) (iblk m c 1 t) (iblk m c 2 t) t.val ht
    (fun r j => ?_) (fun r b => ?_) (fun k q => ?_) ⟨(y 0).val, hy0⟩ ⟨(y 1).val, hy1⟩).trans
    (congrArg (KOut (V m c main_arg0) (V m c main_v100) (V m c main_arg1)) hemb.symm)
  · show V m c main_arg0 (((cfg0.win 0).blk t).view.emb (ix2 r j)) = V m c main_arg0 _
    refine congrArg (V m c main_arg0) (funext fun a => Fin.ext ?_)
    match a with
    | ⟨0, _⟩ => show win0_0.index t (0 : Fin 2) * 5000 + 1 * r.val = t.val * 5000 + r.val; rw [e00]; omega
    | ⟨1, _⟩ => show win0_0.index t (1 : Fin 2) * 128 + 1 * j.val = j.val; rw [e01]; omega
  · show V m c main_v100 (((cfg0.win 1).blk t).view.emb (ix2 r b)) = V m c main_v100 _
    refine congrArg (V m c main_v100) (funext fun a => Fin.ext ?_)
    match a with
    | ⟨0, _⟩ => show win0_1.index t (0 : Fin 2) * 5000 + 1 * r.val = t.val * 5000 + r.val; rw [e10]; omega
    | ⟨1, _⟩ => show win0_1.index t (1 : Fin 2) * 64 + 1 * b.val = b.val; rw [e11]; omega
  · show V m c main_arg1 (((cfg0.win 2).blk t).view.emb (ix2 k q)) = V m c main_arg1 _
    refine congrArg (V m c main_arg1) (funext fun a => Fin.ext ?_)
    match a with
    | ⟨0, _⟩ => show win0_2.index t (0 : Fin 2) * 5 + 1 * k.val = k.val; rw [e20]; omega
    | ⟨1, _⟩ => show win0_2.index t (1 : Fin 2) * 32 + 1 * q.val = q.val; rw [e21]; omega

/-- An index of the array is in point t's block iff each coordinate is in the block's range on its axis. -/
theorem mem_blk (t : Fin cfg0.N) (i : S100000x160.Idx) :
    i ∈ ((cfg0.win 3).blk t).view.set ↔ ∀ a : Fin 2, win0_3.index t a * S5000x160.size a ≤ (i a).val
      ∧ (i a).val < win0_3.index t a * S5000x160.size a + S5000x160.size a := by
  show i ∈ ((View.whole main_v101).slice (win0_3.rect t)).set ↔ _
  rw [View.set_slice_whole, Rect.mem_set_unit]
  exact Iff.rfl

/-- Row n of the array is in the block of point n / 5000, which writes back. -/
theorem cover (i : S100000x160.Idx) :
    ∃ t : Fin cfg0.N, (cfg0.win 3).flush t = true ∧ i ∈ ((cfg0.win 3).blk t).view.set := by
  have hi0 : (i 0).val < 100000 := idx2_lt0 i
  have hi1 : (i 1).val < 160 := idx2_lt1 i
  have hN : cfg0.N = 20 := N_0
  have ht : (i 0).val / 5000 < cfg0.N := by rw [hN]; omega
  obtain ⟨-, -, -, -, -, -, e30, e31⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 160 ≤ (i 1).val
      ∧ (i 1).val < win0_3.index ⟨(i 0).val / 5000, ht⟩ (1 : Fin 2) * 160 + 160
    rw [e31]; omega

/-- THE ARRAY after the run is the whole-array function of the arrays as the region finds them. -/
theorem kernel_final (c : Dev nD) :
    (dats (F := Ideal) m 0 c).arrAt 3 cfg0.N = KOut (V m c main_arg0) (V m c main_v100) (V m c main_arg1) :=
  (dats m 0 c).arrAt_eq_of_cover 3 (KOut (V m c main_arg0) (V m c main_v100) (V m c main_arg1))
    (fun t _ => flushed_eq m c t) cover

/-- The run, read: the result array at the whole-array function, the arguments unchanged. -/
theorem kernel_run : θ_run defs (onTc (τ := τ) (main (F := Ideal))) ⟨m, fun _ => 0, ρ⟩ fun r => ∀ c : Dev nD,
      r.2.mem ((c : Thread nD τ).loc main_v101) = KOut (V m c main_arg0) (V m c main_v100) (V m c main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (kernel_final m c), (h c).2⟩) (Value.run_blocks m ρ)

end Array

end Cert.KernelIdeal.KValue

end
-- ==== Proof.LibAfterAppend.lean ====
/-
  Buffer contents after two lists of host operations run one after the other.
-/
import Idealize.ShloMosaic.Lib.StableHlo.Run

namespace Idealize.ShloMosaic.StableHlo

variable {τ : Topo} {sig : RefSig} {Val : EltTy → Type}

/-- The contents after a concatenation of two operation lists are the contents after the second list, started from the
    contents after the first: the fold over the operations splits at the seam. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.KHost.lean ====
/-
  The kernel's host operations before the region, read back as the breadth-first distances.

  The host prefix computes, for the 64 sources b = 0 … 63 and every node n, the hop count from b to n capped at 4,
  node-major: an array [100000, 64]. It starts from the diagonal (node b is reached from source b at distance 0,
  every other pair is unreached at the cap 4) and makes four rounds. A round gathers, for every edge, the
  row of its tail node in the reached mask, takes for every head node the maximum over its incoming edges
  (a scatter with an integer maximum), and marks with the round's number the pairs reached now for the first time.
  Here each stretch of host operations is read over an arbitrary valuation of the buffers, and the stretches are
  then chained, so that the array the kernel stages as its second window is `dist src dst` below.
-/
import proofs.«153181_j23888608100655_2_alg».proof.Proof.Gen.KernelIdeal.Frame
import proofs.«153181_j23888608100655_2_alg».proof.Proof.LibAfterAppend

noncomputable section

namespace Cert.KernelIdeal.KHost

open Cert.KernelIdeal Cert.KernelIdeal.Gen Idealize.ShloMosaic Idealize.ShloMosaic.TcCoe Idealize.SL.Sem
open Idealize.ShloMosaic.StableHlo

/-! ## The stages, as functions of the edge lists -/

/-- The 64 index pairs (i, i): the row component first, each component with the wrap of a negative index. -/
def diagIdx : IVec S64x2 32 :=
  concatenate S64x2 1
    [⟨S64x1, broadcastInDim S64x1 ![0] bcast_S64_S64x1_0
        (select (cmpi .slt (iotaInDim S64 32 0) (broadcastInDim S64 ![] bcast_S_S64 (constantI S_ 32 0#32)))
          (addi (iotaInDim S64 32 0) (broadcastInDim S64 ![] bcast_S_S64 (constantI S_ 32 100000#32))) (iotaInDim S64 32 0))⟩,
     ⟨S64x1, broadcastInDim S64x1 ![0] bcast_S64_S64x1_0
        (select (cmpi .slt (iotaInDim S64 32 0) (broadcastInDim S64 ![] bcast_S_S64 (constantI S_ 32 0#32)))
          (addi (iotaInDim S64 32 0) (broadcastInDim S64 ![] bcast_S_S64 (constantI S_ 32 64#32))) (iotaInDim S64 32 0))⟩]
    concatenates_S64x1_S64x1_S64x2_d1

/-- Reached before any round: exactly the diagonal pairs. -/
def reached0 : IVec S100000x64 1 :=
  Host.scatter scatter_S100000x64_S64x2_S64_n_01_01_1 (fun _ b => b)
    (broadcastInDim S100000x64 ![] bcast_S_S100000x64 (constantI S_ 1 0#1)) diagIdx
    (broadcastInDim S64 ![] bcast_S_S64 (constantI S_ 1 1#1))

/-- Distances before any round: 0 on the diagonal, the cap 4 elsewhere. -/
def dist0 : IVec S100000x64 32 :=
  Host.scatter scatter_S100000x64_S64x2_S64_n_01_01_1 (fun _ b => b)
    (broadcastInDim S100000x64 ![] bcast_S_S100000x64 (constantI S_ 32 4#32)) diagIdx
    (broadcastInDim S64 ![] bcast_S_S64 (constantI S_ 32 0#32))

/-- The tail nodes as start indices of a gather, a negative index wrapped once. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The head nodes as scatter indices. -/
def dstIdx (dst : IVec S1600000 32) : IVec S1600000x1 32 :=
  broadcastInDim S1600000x1 ![0] bcast_S1600000_S1600000x1_0 dst

/-- One message per edge and source: whether the edge's tail is reached from the source, as 0 or 1. -/
def msgs (r : IVec S100000x64 1) (src : IVec S1600000 32) : IVec S1600000x64 32 :=
  extui 32 (Host.gather gather_S100000x64_S1600000x1_S1600000x64_1_0_n_n_0_1_164 r (srcIdx src)) natLt_1_32

/-- Per node and source, the maximum message over the node's incoming edges (the least integer where it has none). -/
def agg (r : IVec S100000x64 1) (src dst : IVec S1600000 32) : IVec S100000x64 32 :=
  Host.scatter scatter_S100000x64_S1600000x1_S1600000x64_1_0_0_1 IntOp.maxsi
    (broadcastInDim S100000x64 ![] bcast_S_S100000x64 (constantI S_ 32 2147483648#32)) (dstIdx dst) (msgs r src)

/-- Reached after one more round. -/
def step (r : IVec S100000x64 1) (src dst : IVec S1600000 32) : IVec S100000x64 1 :=
  ori r (cmpi .sgt (agg r src dst) (broadcastInDim S100000x64 ![] bcast_S_S100000x64 (constantI S_ 32 0#32)))

/-- Reached in this round for the first time. -/
def fresh (r : IVec S100000x64 1) (src dst : IVec S1600000 32) : IVec S100000x64 1 :=
  andi (step r src dst) (noti r)

/-- The distances with the round's number `k` written where `cond` holds. -/
def mark (cond : IVec S100000x64 1) (k : IVec S_ 32) (dist : IVec S100000x64 32) : IVec S100000x64 32 :=
  select cond (broadcastInDim S100000x64 ![] bcast_S_S100000x64 k) dist

/-- Reached after `k` rounds. -/
def reached (src dst : IVec S1600000 32) : Nat → IVec S100000x64 1
  | 0 => reached0
  | k + 1 => step (reached src dst k) src dst

/-- The capped hop counts after the four rounds. -/
def dist (src dst : IVec S1600000 32) : IVec S100000x64 32 :=
  mark (fresh (reached src dst 3) src dst) (constantI S_ 32 4#32)
    (mark (fresh (reached src dst 2) src dst) (constantI S_ 32 3#32)
      (mark (fresh (reached src dst 1) src dst) (constantI S_ 32 2#32)
        (mark (fresh (reached src dst 0) src dst) (constantI S_ 32 1#32) dist0)))

/-! ## Each stretch over an arbitrary valuation -/

variable {F : FTy → Type} [FloatOps F]
variable (W : Valuation τ sig (Elt F))

theorem s0_v46 : after (hostOps0 (F := F)) W (Proc.devRef .tc main_v46)
    = step reached0 (W (Proc.devRef .tc main_arg2)) (W (Proc.devRef .tc main_arg3)) := by
  after_results_simp
  rfl
theorem s0_v48 : after (hostOps0 (F := F)) W (Proc.devRef .tc main_v48)
    = fresh reached0 (W (Proc.devRef .tc main_arg2)) (W (Proc.devRef .tc main_arg3)) := by
  after_results_simp
  rfl
theorem s0_v32 : after (hostOps0 (F := F)) W (Proc.devRef .tc main_v32) = dist0 := by
  after_results_simp
  rfl
theorem s0_c15 : after (hostOps0 (F := F)) W (Proc.devRef .tc main_c_15) = constantI S_ 32 1#32 := by
  after_results_simp
theorem s0_arg2 : after (hostOps0 (F := F)) W (Proc.devRef .tc main_arg2) = W (Proc.devRef .tc main_arg2) := by
  after_results_simp
theorem s0_arg3 : after (hostOps0 (F := F)) W (Proc.devRef .tc main_arg3) = W (Proc.devRef .tc main_arg3) := by
  after_results_simp

theorem s1_dist : after (hostOps0_1 (F := F)) W (Proc.devRef .tc main_v49)
    = mark (W (Proc.devRef .tc main_v48)) (W (Proc.devRef .tc main_c_15)) (W (Proc.devRef .tc main_v32)) := by
  after_results
  rfl
theorem s1_v46 : after (hostOps0_1 (F := F)) W (Proc.devRef .tc main_v46) = W (Proc.devRef .tc main_v46) := by
  after_results
theorem s1_arg2 : after (hostOps0_1 (F := F)) W (Proc.devRef .tc main_arg2) = W (Proc.devRef .tc main_arg2) := by
  after_results
theorem s1_arg3 : after (hostOps0_1 (F := F)) W (Proc.devRef .tc main_arg3) = W (Proc.devRef .tc main_arg3) := by
  after_results

theorem s3_dist : after (hostOps0_3 (F := F)) W (Proc.devRef .tc main_v66)
    = mark (W (Proc.devRef .tc main_v65)) (W (Proc.devRef .tc main_c_20)) (W (Proc.devRef .tc main_v49)) := by
  after_results
  rfl
theorem s3_v63 : after (hostOps0_3 (F := F)) W (Proc.devRef .tc main_v63) = W (Proc.devRef .tc main_v63) := by
  after_results
theorem s3_arg2 : after (hostOps0_3 (F := F)) W (Proc.devRef .tc main_arg2) = W (Proc.devRef .tc main_arg2) := by
  after_results
theorem s3_arg3 : after (hostOps0_3 (F := F)) W (Proc.devRef .tc main_arg3) = W (Proc.devRef .tc main_arg3) := by
  after_results

theorem s5_dist : after (hostOps0_5 (F := F)) W (Proc.devRef .tc main_v83)
    = mark (W (Proc.devRef .tc main_v82)) (W (Proc.devRef .tc main_c_25)) (W (Proc.devRef .tc main_v66)) := by
  after_results
  rfl
theorem s5_v80 : after (hostOps0_5 (F := F)) W (Proc.devRef .tc main_v80) = W (Proc.devRef .tc main_v80) := by
  after_results
theorem s5_arg2 : after (hostOps0_5 (F := F)) W (Proc.devRef .tc main_arg2) = W (Proc.devRef .tc main_arg2) := by
  after_results
theorem s5_arg3 : after (hostOps0_5 (F := F)) W (Proc.devRef .tc main_arg3) = W (Proc.devRef .tc main_arg3) := by
  after_results

theorem s7_dist : after (hostOps0_7 (F := F)) W (Proc.devRef .tc main_v100)
    = mark (W (Proc.devRef .tc main_v99)) (W (Proc.devRef .tc main_c_30)) (W (Proc.devRef .tc main_v83)) := by
  after_results
  rfl
theorem s7_arg2 : after (hostOps0_7 (F := F)) W (Proc.devRef .tc main_arg2) = W (Proc.devRef .tc main_arg2) := by
  after_results
theorem s7_arg3 : after (hostOps0_7 (F := F)) W (Proc.devRef .tc main_arg3) = W (Proc.devRef .tc main_arg3) := by
  after_results

theorem s2_reached : after (hostOps0_2 (F := F)) W (Proc.devRef .tc main_v63)
    = step (W (Proc.devRef .tc main_v46)) (W (Proc.devRef .tc main_arg2)) (W (Proc.devRef .tc main_arg3)) := by
  after_results_simp
  rfl
theorem s2_fresh : after (hostOps0_2 (F := F)) W (Proc.devRef .tc main_v65)
    = fresh (W (Proc.devRef .tc main_v46)) (W (Proc.devRef .tc main_arg2)) (W (Proc.devRef .tc main_arg3)) := by
  after_results_simp
  rfl
theorem s2_const : after (hostOps0_2 (F := F)) W (Proc.devRef .tc main_c_20) = constantI S_ 32 2#32 := by
  after_results_simp
theorem s2_v49 : after (hostOps0_2 (F := F)) W (Proc.devRef .tc main_v49) = W (Proc.devRef .tc main_v49) := by
  after_results_simp
theorem s2_arg2 : after (hostOps0_2 (F := F)) W (Proc.devRef .tc main_arg2) = W (Proc.devRef .tc main_arg2) := by
  after_results_simp
theorem s2_arg3 : after (hostOps0_2 (F := F)) W (Proc.devRef .tc main_arg3) = W (Proc.devRef .tc main_arg3) := by
  after_results_simp

theorem s4_reached : after (hostOps0_4 (F := F)) W (Proc.devRef .tc main_v80)
    = step (W (Proc.devRef .tc main_v63)) (W (Proc.devRef .tc main_arg2)) (W (Proc.devRef .tc main_arg3)) := by
  after_results_simp
  rfl
theorem s4_fresh : after (hostOps0_4 (F := F)) W (Proc.devRef .tc main_v82)
    = fresh (W (Proc.devRef .tc main_v63)) (W (Proc.devRef .tc main_arg2)) (W (Proc.devRef .tc main_arg3)) := by
  after_results_simp
  rfl
theorem s4_const : after (hostOps0_4 (F := F)) W (Proc.devRef .tc main_c_25) = constantI S_ 32 3#32 := by
  after_results_simp
theorem s4_v66 : after (hostOps0_4 (F := F)) W (Proc.devRef .tc main_v66) = W (Proc.devRef .tc main_v66) := by
  after_results_simp
theorem s4_arg2 : after (hostOps0_4 (F := F)) W (Proc.devRef .tc main_arg2) = W (Proc.devRef .tc main_arg2) := by
  after_results_simp
theorem s4_arg3 : after (hostOps0_4 (F := F)) W (Proc.devRef .tc main_arg3) = W (Proc.devRef .tc main_arg3) := by
  after_results_simp

theorem s6_reached : after (hostOps0_6 (F := F)) W (Proc.devRef .tc main_v97)
    = step (W (Proc.devRef .tc main_v80)) (W (Proc.devRef .tc main_arg2)) (W (Proc.devRef .tc main_arg3)) := by
  after_results_simp
  rfl
theorem s6_fresh : after (hostOps0_6 (F := F)) W (Proc.devRef .tc main_v99)
    = fresh (W (Proc.devRef .tc main_v80)) (W (Proc.devRef .tc main_arg2)) (W (Proc.devRef .tc main_arg3)) := by
  after_results_simp
  rfl
theorem s6_const : after (hostOps0_6 (F := F)) W (Proc.devRef .tc main_c_30) = constantI S_ 32 4#32 := by
  after_results_simp
theorem s6_v83 : after (hostOps0_6 (F := F)) W (Proc.devRef .tc main_v83) = W (Proc.devRef .tc main_v83) := by
  after_results_simp
theorem s6_arg2 : after (hostOps0_6 (F := F)) W (Proc.devRef .tc main_arg2) = W (Proc.devRef .tc main_arg2) := by
  after_results_simp
theorem s6_arg3 : after (hostOps0_6 (F := F)) W (Proc.devRef .tc main_arg3) = W (Proc.devRef .tc main_arg3) := by
  after_results_simp

/-! ## The stretches chained -/

/-- The second window's array as the region finds it: the capped hop counts of the launch's edge lists. -/
theorem V_dist (m : (ℓ : Loc nD τ sig) → Buf (Elt F) ℓ) (c : Dev nD) :
    V m c main_v100 = dist (m ((c : Thread nD τ).loc main_arg2)) (m ((c : Thread nD τ).loc main_arg3)) := by
  show after (List.flatten [hostOps0, hostOps0_1, hostOps0_2, hostOps0_3, hostOps0_4, hostOps0_5, hostOps0_6, hostOps0_7])
    (fun b => m (c, b)) (Proc.devRef .tc main_v100) = _
  rw [show List.flatten [hostOps0 (F := F), hostOps0_1, hostOps0_2, hostOps0_3, hostOps0_4, hostOps0_5, hostOps0_6, hostOps0_7]
      = hostOps0 ++ (hostOps0_1 ++ (hostOps0_2 ++ (hostOps0_3 ++ (hostOps0_4 ++ (hostOps0_5 ++ (hostOps0_6 ++ hostOps0_7)))))) from by
        simp only [List.flatten_cons, List.flatten_nil, List.append_nil]]
  rw [after_append, after_append, after_append, after_append, after_append, after_append, after_append]
  rw [s7_dist, s6_fresh, s6_const, s6_v83]
  rw [s5_v80, s5_arg2, s5_arg3, s5_dist]
  rw [s4_reached, s4_fresh, s4_const, s4_v66, s4_arg2, s4_arg3]
  rw [s3_v63, s3_arg2, s3_arg3, s3_dist]
  rw [s2_reached, s2_fresh, s2_const, s2_v49, s2_arg2, s2_arg3]
  rw [s1_v46, s1_arg2, s1_arg3, s1_dist]
  rw [s0_v46, s0_v48, s0_v32, s0_c15, s0_arg2, s0_arg3]
  rfl

end Cert.KernelIdeal.KHost

end
-- ==== Proof.RHost.lean ====
/-
  The reference's breadth-first rounds, in its own layout.

  The reference keeps the reached mask and the distances source-major, [64, 100000], and transposes twice per round:
  the gathered columns (one per edge) are transposed to one row per edge before the maximum over incoming edges,
  and the result is transposed back. The round is named here as a function of the previous mask, and each stage the
  reference computes is identified with it.
-/
import proofs.«153181_j23888608100655_2_alg».proof.Proof.RefRead

noncomputable section

namespace Cert.ReferenceIdeal.RHost

open Cert.ReferenceIdeal Cert.ReferenceIdeal.Gen Cert.ReferenceIdeal.Read Idealize.ShloMosaic Idealize.ShloMosaic.TcCoe Idealize.SL.Sem

/-- The tail nodes as start indices of a gather, a negative index wrapped once. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The head nodes as scatter indices. -/
def dstIdx (dst : IVec S1600000 32) : IVec S1600000x1 32 :=
  broadcastInDim S1600000x1 ![0] bcast_S1600000_S1600000x1_0 dst

/-- One message per edge and source, one row per edge: the gathered columns, widened and transposed. -/
def msgsT (r : IVec S64x100000 1) (src : IVec S1600000 32) : IVec S1600000x64 32 :=
  transpose S1600000x64 [1, 0]
    (extui 32 (Host.gather gather_S64x100000_S1600000x1_S64x1600000_0_1_n_n_1_1_641 r (srcIdx src)) natLt_1_32)
    transposes_S64x1600000_S1600000x64_1_0

/-- Per node and source, the maximum message over the node's incoming edges, node-major. -/
def aggN (r : IVec S64x100000 1) (src dst : IVec S1600000 32) : IVec S100000x64 32 :=
  Host.scatter scatter_S100000x64_S1600000x1_S1600000x64_1_0_0_1 IntOp.maxsi
    (broadcastInDim S100000x64 ![] bcast_S_S100000x64 (constantI S_ 32 2147483648#32)) (dstIdx dst) (msgsT r src)

/-- Reached after one more round. -/
def step (r : IVec S64x100000 1) (src dst : IVec S1600000 32) : IVec S64x100000 1 :=
  ori r (cmpi .sgt (transpose S64x100000 [1, 0] (aggN r src dst) transposes_S100000x64_S64x100000_1_0)
    (broadcastInDim S64x100000 ![] bcast_S_S64x100000 (constantI S_ 32 0#32)))

/-- Reached in this round for the first time. -/
def fresh (r : IVec S64x100000 1) (src dst : IVec S1600000 32) : IVec S64x100000 1 :=
  andi (step r src dst) (noti r)

/-- The distances with the round's number `k` written where `cond` holds. -/
def mark (cond : IVec S64x100000 1) (k : IVec S_ 32) (dist : IVec S64x100000 32) : IVec S64x100000 32 :=
  select cond (broadcastInDim S64x100000 ![] bcast_S_S64x100000 k) dist

variable {F : FTy → Type} [FloatOps F]
variable (x2 x3 : IVec S1600000 32)

/-! The reference's stages are these rounds. -/

theorem v48_eq : val_main_v48 (F := F) x2 x3 = step (val_main_v16 (F := F)) x2 x3 := rfl
theorem v50_eq : val_main_v50 (F := F) x2 x3 = fresh (val_main_v16 (F := F)) x2 x3 := rfl
theorem v51_eq : val_main_v51 (F := F) x2 x3
    = mark (val_main_v50 (F := F) x2 x3) (constantI S_ 32 1#32) (val_main_v32 (F := F)) := rfl
theorem v67_eq : val_main_v67 (F := F) x2 x3 = step (val_main_v48 (F := F) x2 x3) x2 x3 := rfl
theorem v69_eq : val_main_v69 (F := F) x2 x3 = fresh (val_main_v48 (F := F) x2 x3) x2 x3 := rfl
theorem v70_eq : val_main_v70 (F := F) x2 x3
    = mark (val_main_v69 (F := F) x2 x3) (constantI S_ 32 2#32) (val_main_v51 (F := F) x2 x3) := rfl
theorem v86_eq : val_main_v86 (F := F) x2 x3 = step (val_main_v67 (F := F) x2 x3) x2 x3 := rfl
theorem v88_eq : val_main_v88 (F := F) x2 x3 = fresh (val_main_v67 (F := F) x2 x3) x2 x3 := rfl
theorem v89_eq : val_main_v89 (F := F) x2 x3
    = mark (val_main_v88 (F := F) x2 x3) (constantI S_ 32 3#32) (val_main_v70 (F := F) x2 x3) := rfl
theorem v107_eq : val_main_v107 (F := F) x2 x3 = fresh (val_main_v86 (F := F) x2 x3) x2 x3 := rfl
theorem v108_eq : val_main_v108 (F := F) x2 x3
    = mark (val_main_v107 (F := F) x2 x3) (constantI S_ 32 4#32) (val_main_v89 (F := F) x2 x3) := rfl

end Cert.ReferenceIdeal.RHost

end
-- ==== Proof.RefChain.lean ====
/-
  The reference's operations run in stretches.

  The reference's whole operation list is cut at the calls of its outlined functions: four rounds of the breadth-first
  search, each followed by the two operations that write the round's number into the distances, then the six operations
  of the one-hot expansion and the last four (the sum over the sources, the product with the table, the join with x).
  Each stretch is read over an arbitrary valuation of the buffers; chained, they give the contents of the result buffer
  after the whole list as the last stage of the reference, a function of the four arguments.
-/
import proofs.«153181_j23888608100655_2_alg».proof.Proof.RHost
import proofs.«153181_j23888608100655_2_alg».proof.Proof.LibAfterAppend

noncomputable section

namespace Cert.ReferenceIdeal.RChain

open Cert.ReferenceIdeal Cert.ReferenceIdeal.Gen Cert.ReferenceIdeal.Read Cert.ReferenceIdeal.Value Idealize.ShloMosaic
  Idealize.ShloMosaic.TcCoe Idealize.SL.Sem Idealize.ShloMosaic.StableHlo

variable {F : FTy → Type} [FloatOps F]

/-- The one-hot expansion of the distances: element (b, n, k) is 1 when the distance from source b to node n is k. -/
def oneHot (d : IVec S64x100000 32) : FVec F S64x100000x5 .f32 :=
  uitofp .f32 (cmpi .eq
    (broadcastInDim S64x100000x5 ![0, 1, 2] bcast_S64x100000x1_S64x100000x5_0_1_2
      (broadcastInDim S64x100000x1 ![0, 1] bcast_S64x100000_S64x100000x1_0_1 d))
    (broadcastInDim S64x100000x5 ![0, 1, 2] bcast_S1x1x5_S64x100000x5_0_1_2 (iotaInDim S1x1x5 32 2)))

/-- The last four operations: the histogram over the sources, its product with the table, joined to the right of x. -/
def tailOut (x0 : FVec F S100000x128 .f32) (x1 : FVec F S5x32 .f32) (h : FVec F S64x100000x5 .f32) : FVec F S100000x160 .f32 :=
  concatenate S100000x160 1
    [⟨S100000x128, x0⟩,
     ⟨S100000x32, Host.dotGeneral dot_S100000x5_S5x32_S100000x32_1_0_0_1_n_n none
        (Host.reduceAdd h (constant S_ .f32 0x00000000#32) reducesTo_S64x100000x5_S100000x5_d0 h_S_) x1⟩]
    concatenates_S100000x128_S100000x32_S100000x160_d1

theorem v112_eq (x0 : FVec F S100000x128 .f32) (x1 : FVec F S5x32 .f32) (x2 x3 : IVec S1600000 32) :
    val_main_v112 (F := F) x0 x1 x2 x3 = tailOut x0 x1 (oneHot (val_main_v108 (F := F) x2 x3)) := rfl

/-! ## The stretches -/

abbrev seg0 : List (HloOp τ sig (Elt F)) :=
  [ nullary main_v0 (iotaInDim S64 32 0),
    nullary main_c (constantI S_ 1 0#1),
    unary main_c main_v1 (broadcastInDim S64x100000 ![] bcast_S_S64x100000 : (⟨S_, .i1⟩ : BufTy).Contents (Elt F) → (⟨S64x100000, .i1⟩ : BufTy).Contents (Elt F)),
    nullary main_c_0 (constantI S_ 32 0#32),
    unary main_c_0 main_v2 (broadcastInDim S64 ![] bcast_S_S64 : (⟨S_, .i32⟩ : BufTy).Contents (Elt F) → (⟨S64, .i32⟩ : BufTy).Contents (Elt F)),
    binary main_v0 main_v2 main_v3 (cmpi .slt : (⟨S64, .i32⟩ : BufTy).Contents (Elt F) → (⟨S64, .i32⟩ : BufTy).Contents (Elt F) → (⟨S64, .i1⟩ : BufTy).Contents (Elt F)),
    nullary main_c_1 (constantI S_ 32 64#32),
    unary main_c_1 main_v4 (broadcastInDim S64 ![] bcast_S_S64 : (⟨S_, .i32⟩ : BufTy).Contents (Elt F) → (⟨S64, .i32⟩ : BufTy).Contents (Elt F)),
    binary main_v0 main_v4 main_v5 (addi : (⟨S64, .i32⟩ : BufTy).Contents (Elt F) → (⟨S64, .i32⟩ : BufTy).Contents (Elt F) → (⟨S64, .i32⟩ : BufTy).Contents (Elt F)),
    ternary main_v3 main_v5 main_v0 main_v6 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_2 (constantI S_ 32 0#32),
    unary main_c_2 main_v7 (broadcastInDim S64 ![] bcast_S_S64 : (⟨S_, .i32⟩ : BufTy).Contents (Elt F) → (⟨S64, .i32⟩ : BufTy).Contents (Elt F)),
    binary main_v0 main_v7 main_v8 (cmpi .slt : (⟨S64, .i32⟩ : BufTy).Contents (Elt F) → (⟨S64, .i32⟩ : BufTy).Contents (Elt F) → (⟨S64, .i1⟩ : BufTy).Contents (Elt F)),
    nullary main_c_3 (constantI S_ 32 100000#32),
    unary main_c_3 main_v9 (broadcastInDim S64 ![] bcast_S_S64 : (⟨S_, .i32⟩ : BufTy).Contents (Elt F) → (⟨S64, .i32⟩ : BufTy).Contents (Elt F)),
    binary main_v0 main_v9 main_v10 (addi : (⟨S64, .i32⟩ : BufTy).Contents (Elt F) → (⟨S64, .i32⟩ : BufTy).Contents (Elt F) → (⟨S64, .i32⟩ : BufTy).Contents (Elt F)),
    ternary main_v8 main_v10 main_v0 main_v11 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v6 main_v12 (broadcastInDim S64x1 ![0] bcast_S64_S64x1_0 : (⟨S64, .i32⟩ : BufTy).Contents (Elt F) → (⟨S64x1, .i32⟩ : BufTy).Contents (Elt F)),
    unary main_v11 main_v13 (broadcastInDim S64x1 ![0] bcast_S64_S64x1_0 : (⟨S64, .i32⟩ : BufTy).Contents (Elt F) → (⟨S64x1, .i32⟩ : BufTy).Contents (Elt F)),
    binary main_v12 main_v13 main_v14 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    nullary main_c_4 (constantI S_ 1 1#1),
    unary main_c_4 main_v15 (broadcastInDim S64 ![] bcast_S_S64 : (⟨S_, .i1⟩ : BufTy).Contents (Elt F) → (⟨S64, .i1⟩ : BufTy).Contents (Elt F)),
    ternary main_v1 main_v14 main_v15 main_v16 ((fun x i u => Host.scatter scatter_S64x100000_S64x2_S64_n_01_01_1 (fun _ b => b) x i u) : (⟨S64x100000, .i1⟩ : BufTy).Contents (Elt F) → (⟨S64x2, .i32⟩ : BufTy).Contents (Elt F) → (⟨S64, .i1⟩ : BufTy).Contents (Elt F) → (⟨S64x100000, .i1⟩ : BufTy).Contents (Elt F)),
    nullary main_c_5 (constantI S_ 32 4#32),
    unary main_c_5 main_v17 (broadcastInDim S64x100000 ![] bcast_S_S64x100000 : (⟨S_, .i32⟩ : BufTy).Contents (Elt F) → (⟨S64x100000, .i32⟩ : BufTy).Contents (Elt F)),
    nullary main_c_6 (constantI S_ 32 0#32),
    unary main_c_6 main_v18 (broadcastInDim S64 ![] bcast_S_S64 : (⟨S_, .i32⟩ : BufTy).Contents (Elt F) → (⟨S64, .i32⟩ : BufTy).Contents (Elt F)),
    binary main_v0 main_v18 main_v19 (cmpi .slt : (⟨S64, .i32⟩ : BufTy).Contents (Elt F) → (⟨S64, .i32⟩ : BufTy).Contents (Elt F) → (⟨S64, .i1⟩ : BufTy).Contents (Elt F)),
    nullary main_c_7 (constantI S_ 32 64#32),
    unary main_c_7 main_v20 (broadcastInDim S64 ![] bcast_S_S64 : (⟨S_, .i32⟩ : BufTy).Contents (Elt F) → (⟨S64, .i32⟩ : BufTy).Contents (Elt F)),
    binary main_v0 main_v20 main_v21 (addi : (⟨S64, .i32⟩ : BufTy).Contents (Elt F) → (⟨S64, .i32⟩ : BufTy).Contents (Elt F) → (⟨S64, .i32⟩ : BufTy).Contents (Elt F)),
    ternary main_v19 main_v21 main_v0 main_v22 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_8 (constantI S_ 32 0#32),
    unary main_c_8 main_v23 (broadcastInDim S64 ![] bcast_S_S64 : (⟨S_, .i32⟩ : BufTy).Contents (Elt F) → (⟨S64, .i32⟩ : BufTy).Contents (Elt F)),
    binary main_v0 main_v23 main_v24 (cmpi .slt : (⟨S64, .i32⟩ : BufTy).Contents (Elt F) → (⟨S64, .i32⟩ : BufTy).Contents (Elt F) → (⟨S64, .i1⟩ : BufTy).Contents (Elt F)),
    nullary main_c_9 (constantI S_ 32 100000#32),
    unary main_c_9 main_v25 (broadcastInDim S64 ![] bcast_S_S64 : (⟨S_, .i32⟩ : BufTy).Contents (Elt F) → (⟨S64, .i32⟩ : BufTy).Contents (Elt F)),
    binary main_v0 main_v25 main_v26 (addi : (⟨S64, .i32⟩ : BufTy).Contents (Elt F) → (⟨S64, .i32⟩ : BufTy).Contents (Elt F) → (⟨S64, .i32⟩ : BufTy).Contents (Elt F)),
    ternary main_v24 main_v26 main_v0 main_v27 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v22 main_v28 (broadcastInDim S64x1 ![0] bcast_S64_S64x1_0 : (⟨S64, .i32⟩ : BufTy).Contents (Elt F) → (⟨S64x1, .i32⟩ : BufTy).Contents (Elt F)),
    unary main_v27 main_v29 (broadcastInDim S64x1 ![0] bcast_S64_S64x1_0 : (⟨S64, .i32⟩ : BufTy).Contents (Elt F) → (⟨S64x1, .i32⟩ : BufTy).Contents (Elt F)),
    binary main_v28 main_v29 main_v30 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    nullary main_c_10 (constantI S_ 32 0#32),
    unary main_c_10 main_v31 (broadcastInDim S64 ![] bcast_S_S64 : (⟨S_, .i32⟩ : BufTy).Contents (Elt F) → (⟨S64, .i32⟩ : BufTy).Contents (Elt F)),
    ternary main_v17 main_v30 main_v31 main_v32 ((fun x i u => Host.scatter scatter_S64x100000_S64x2_S64_n_01_01_1 (fun _ b => b) x i u) : (⟨S64x100000, .i32⟩ : BufTy).Contents (Elt F) → (⟨S64x2, .i32⟩ : BufTy).Contents (Elt F) → (⟨S64, .i32⟩ : BufTy).Contents (Elt F) → (⟨S64x100000, .i32⟩ : BufTy).Contents (Elt F)),
    nullary main_c_11 (constantI S_ 32 0#32),
    unary main_c_11 main_v33 (broadcastInDim S1600000 ![] bcast_S_S1600000 : (⟨S_, .i32⟩ : BufTy).Contents (Elt F) → (⟨S1600000, .i32⟩ : BufTy).Contents (Elt F)),
    binary main_arg2 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v35 (broadcastInDim S1600000 ![] bcast_S_S1600000 : (⟨S_, .i32⟩ : BufTy).Contents (Elt F) → (⟨S1600000, .i32⟩ : BufTy).Contents (Elt F)),
    binary main_arg2 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_arg2 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v16 main_v38 main_v39 ((fun x i => Host.gather gather_S64x100000_S1600000x1_S64x1600000_0_1_n_n_1_1_641 x i) : (⟨S64x100000, .i1⟩ : BufTy).Contents (Elt F) → (⟨S1600000x1, .i32⟩ : BufTy).Contents (Elt F) → (⟨S64x1600000, .i1⟩ : BufTy).Contents (Elt F)),
    unary main_v39 main_v40 ((extui 32 · natLt_1_32) : (⟨S64x1600000, .i1⟩ : BufTy).Contents (Elt F) → (⟨S64x1600000, .i32⟩ : BufTy).Contents (Elt F)),
    unary main_v40 main_v41 ((transpose S1600000x64 [1, 0] · transposes_S64x1600000_S1600000x64_1_0) : (⟨S64x1600000, .i32⟩ : BufTy).Contents (Elt F) → (⟨S1600000x64, .i32⟩ : BufTy).Contents (Elt F)),
    nullary main_c_13 (constantI S_ 32 2147483648#32),
    unary main_c_13 main_v42 (broadcastInDim S100000x64 ![] bcast_S_S100000x64 : (⟨S_, .i32⟩ : BufTy).Contents (Elt F) → (⟨S100000x64, .i32⟩ : BufTy).Contents (Elt F)),
    unary main_arg3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatter scatter_S100000x64_S1600000x1_S1600000x64_1_0_0_1 IntOp.maxsi x i u) : (⟨S100000x64, .i32⟩ : BufTy).Contents (Elt F) → (⟨S1600000x1, .i32⟩ : BufTy).Contents (Elt F) → (⟨S1600000x64, .i32⟩ : BufTy).Contents (Elt F) → (⟨S100000x64, .i32⟩ : BufTy).Contents (Elt F)),
    unary main_v44 main_v45 ((transpose S64x100000 [1, 0] · transposes_S100000x64_S64x100000_1_0) : (⟨S100000x64, .i32⟩ : BufTy).Contents (Elt F) → (⟨S64x100000, .i32⟩ : BufTy).Contents (Elt F)),
    nullary main_c_14 (constantI S_ 32 0#32),
    unary main_c_14 main_v46 (broadcastInDim S64x100000 ![] bcast_S_S64x100000 : (⟨S_, .i32⟩ : BufTy).Contents (Elt F) → (⟨S64x100000, .i32⟩ : BufTy).Contents (Elt F)),
    binary main_v45 main_v46 main_v47 (cmpi .sgt : (⟨S64x100000, .i32⟩ : BufTy).Contents (Elt F) → (⟨S64x100000, .i32⟩ : BufTy).Contents (Elt F) → (⟨S64x100000, .i1⟩ : BufTy).Contents (Elt F)),
    binary main_v16 main_v47 main_v48 (ori : (⟨S64x100000, .i1⟩ : BufTy).Contents (Elt F) → (⟨S64x100000, .i1⟩ : BufTy).Contents (Elt F) → (⟨S64x100000, .i1⟩ : BufTy).Contents (Elt F)),
    unary main_v16 main_v49 (noti : (⟨S64x100000, .i1⟩ : BufTy).Contents (Elt F) → (⟨S64x100000, .i1⟩ : BufTy).Contents (Elt F)),
    binary main_v48 main_v49 main_v50 (andi : (⟨S64x100000, .i1⟩ : BufTy).Contents (Elt F) → (⟨S64x100000, .i1⟩ : BufTy).Contents (Elt F) → (⟨S64x100000, .i1⟩ : BufTy).Contents (Elt F)),
    nullary main_c_15 (constantI S_ 32 1#32) ]

abbrev wh0 : List (HloOp τ sig (Elt F)) :=
  [ TRef.unary (TRef.of (T := ⟨S_, .i32⟩) main_c_15) (TRef.of (T := ⟨S64x100000, .i32⟩) main_call0_v0) (broadcastInDim S64x100000 ![] bcast_S_S64x100000),
    TRef.ternary (TRef.of (T := ⟨S64x100000, .i1⟩) main_v50) (TRef.of (T := ⟨S64x100000, .i32⟩) main_call0_v0) (TRef.of (T := ⟨S64x100000, .i32⟩) main_v32) (TRef.of (T := ⟨S64x100000, .i32⟩) main_v51) select ]

abbrev seg1 : List (HloOp τ sig (Elt F)) :=
  [ nullary main_c_16 (constantI S_ 32 0#32),
    unary main_c_16 main_v52 (broadcastInDim S1600000 ![] bcast_S_S1600000 : (⟨S_, .i32⟩ : BufTy).Contents (Elt F) → (⟨S1600000, .i32⟩ : BufTy).Contents (Elt F)),
    binary main_arg2 main_v52 main_v53 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v54 (broadcastInDim S1600000 ![] bcast_S_S1600000 : (⟨S_, .i32⟩ : BufTy).Contents (Elt F) → (⟨S1600000, .i32⟩ : BufTy).Contents (Elt F)),
    binary main_arg2 main_v54 main_v55 (addi : (⟨S1600000, .i32⟩ : BufTy).Contents (Elt F) → (⟨S1600000, .i32⟩ : BufTy).Contents (Elt F) → (⟨S1600000, .i32⟩ : BufTy).Contents (Elt F)),
    ternary main_v53 main_v55 main_arg2 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v56 main_v57 (broadcastInDim S1600000x1 ![0] bcast_S1600000_S1600000x1_0 : (⟨S1600000, .i32⟩ : BufTy).Contents (Elt F) → (⟨S1600000x1, .i32⟩ : BufTy).Contents (Elt F)),
    binary main_v48 main_v57 main_v58 ((fun x i => Host.gather gather_S64x100000_S1600000x1_S64x1600000_0_1_n_n_1_1_641 x i) : (⟨S64x100000, .i1⟩ : BufTy).Contents (Elt F) → (⟨S1600000x1, .i32⟩ : BufTy).Contents (Elt F) → (⟨S64x1600000, .i1⟩ : BufTy).Contents (Elt F)),
    unary main_v58 main_v59 ((extui 32 · natLt_1_32) : (⟨S64x1600000, .i1⟩ : BufTy).Contents (Elt F) → (⟨S64x1600000, .i32⟩ : BufTy).Contents (Elt F)),
    unary main_v59 main_v60 ((transpose S1600000x64 [1, 0] · transposes_S64x1600000_S1600000x64_1_0) : (⟨S64x1600000, .i32⟩ : BufTy).Contents (Elt F) → (⟨S1600000x64, .i32⟩ : BufTy).Contents (Elt F)),
    nullary main_c_18 (constantI S_ 32 2147483648#32),
    unary main_c_18 main_v61 (broadcastInDim S100000x64 ![] bcast_S_S100000x64 : (⟨S_, .i32⟩ : BufTy).Contents (Elt F) → (⟨S100000x64, .i32⟩ : BufTy).Contents (Elt F)),
    unary main_arg3 main_v62 (broadcastInDim S1600000x1 ![0] bcast_S1600000_S1600000x1_0 : (⟨S1600000, .i32⟩ : BufTy).Contents (Elt F) → (⟨S1600000x1, .i32⟩ : BufTy).Contents (Elt F)),
    ternary main_v61 main_v62 main_v60 main_v63 ((fun x i u => Host.scatter scatter_S100000x64_S1600000x1_S1600000x64_1_0_0_1 IntOp.maxsi x i u) : (⟨S100000x64, .i32⟩ : BufTy).Contents (Elt F) → (⟨S1600000x1, .i32⟩ : BufTy).Contents (Elt F) → (⟨S1600000x64, .i32⟩ : BufTy).Contents (Elt F) → (⟨S100000x64, .i32⟩ : BufTy).Contents (Elt F)),
    unary main_v63 main_v64 ((transpose S64x100000 [1, 0] · transposes_S100000x64_S64x100000_1_0) : (⟨S100000x64, .i32⟩ : BufTy).Contents (Elt F) → (⟨S64x100000, .i32⟩ : BufTy).Contents (Elt F)),
    nullary main_c_19 (constantI S_ 32 0#32),
    unary main_c_19 main_v65 (broadcastInDim S64x100000 ![] bcast_S_S64x100000 : (⟨S_, .i32⟩ : BufTy).Contents (Elt F) → (⟨S64x100000, .i32⟩ : BufTy).Contents (Elt F)),
    binary main_v64 main_v65 main_v66 (cmpi .sgt : (⟨S64x100000, .i32⟩ : BufTy).Contents (Elt F) → (⟨S64x100000, .i32⟩ : BufTy).Contents (Elt F) → (⟨S64x100000, .i1⟩ : BufTy).Contents (Elt F)),
    binary main_v48 main_v66 main_v67 (ori : (⟨S64x100000, .i1⟩ : BufTy).Contents (Elt F) → (⟨S64x100000, .i1⟩ : BufTy).Contents (Elt F) → (⟨S64x100000, .i1⟩ : BufTy).Contents (Elt F)),
    unary main_v48 main_v68 (noti : (⟨S64x100000, .i1⟩ : BufTy).Contents (Elt F) → (⟨S64x100000, .i1⟩ : BufTy).Contents (Elt F)),
    binary main_v67 main_v68 main_v69 (andi : (⟨S64x100000, .i1⟩ : BufTy).Contents (Elt F) → (⟨S64x100000, .i1⟩ : BufTy).Contents (Elt F) → (⟨S64x100000, .i1⟩ : BufTy).Contents (Elt F)),
    nullary main_c_20 (constantI S_ 32 2#32) ]

abbrev wh1 : List (HloOp τ sig (Elt F)) :=
  [ TRef.unary (TRef.of (T := ⟨S_, .i32⟩) main_c_20) (TRef.of (T := ⟨S64x100000, .i32⟩) main_call1_v0) (broadcastInDim S64x100000 ![] bcast_S_S64x100000),
    TRef.ternary (TRef.of (T := ⟨S64x100000, .i1⟩) main_v69) (TRef.of (T := ⟨S64x100000, .i32⟩) main_call1_v0) (TRef.of (T := ⟨S64x100000, .i32⟩) main_v51) (TRef.of (T := ⟨S64x100000, .i32⟩) main_v70) select ]

abbrev seg2 : List (HloOp τ sig (Elt F)) :=
  [ nullary main_c_21 (constantI S_ 32 0#32),
    unary main_c_21 main_v71 (broadcastInDim S1600000 ![] bcast_S_S1600000 : (⟨S_, .i32⟩ : BufTy).Contents (Elt F) → (⟨S1600000, .i32⟩ : BufTy).Contents (Elt F)),
    binary main_arg2 main_v71 main_v72 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v73 (broadcastInDim S1600000 ![] bcast_S_S1600000 : (⟨S_, .i32⟩ : BufTy).Contents (Elt F) → (⟨S1600000, .i32⟩ : BufTy).Contents (Elt F)),
    binary main_arg2 main_v73 main_v74 (addi : (⟨S1600000, .i32⟩ : BufTy).Contents (Elt F) → (⟨S1600000, .i32⟩ : BufTy).Contents (Elt F) → (⟨S1600000, .i32⟩ : BufTy).Contents (Elt F)),
    ternary main_v72 main_v74 main_arg2 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v75 main_v76 (broadcastInDim S1600000x1 ![0] bcast_S1600000_S1600000x1_0 : (⟨S1600000, .i32⟩ : BufTy).Contents (Elt F) → (⟨S1600000x1, .i32⟩ : BufTy).Contents (Elt F)),
    binary main_v67 main_v76 main_v77 ((fun x i => Host.gather gather_S64x100000_S1600000x1_S64x1600000_0_1_n_n_1_1_641 x i) : (⟨S64x100000, .i1⟩ : BufTy).Contents (Elt F) → (⟨S1600000x1, .i32⟩ : BufTy).Contents (Elt F) → (⟨S64x1600000, .i1⟩ : BufTy).Contents (Elt F)),
    unary main_v77 main_v78 ((extui 32 · natLt_1_32) : (⟨S64x1600000, .i1⟩ : BufTy).Contents (Elt F) → (⟨S64x1600000, .i32⟩ : BufTy).Contents (Elt F)),
    unary main_v78 main_v79 ((transpose S1600000x64 [1, 0] · transposes_S64x1600000_S1600000x64_1_0) : (⟨S64x1600000, .i32⟩ : BufTy).Contents (Elt F) → (⟨S1600000x64, .i32⟩ : BufTy).Contents (Elt F)),
    nullary main_c_23 (constantI S_ 32 2147483648#32),
    unary main_c_23 main_v80 (broadcastInDim S100000x64 ![] bcast_S_S100000x64 : (⟨S_, .i32⟩ : BufTy).Contents (Elt F) → (⟨S100000x64, .i32⟩ : BufTy).Contents (Elt F)),
    unary main_arg3 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatter scatter_S100000x64_S1600000x1_S1600000x64_1_0_0_1 IntOp.maxsi x i u) : (⟨S100000x64, .i32⟩ : BufTy).Contents (Elt F) → (⟨S1600000x1, .i32⟩ : BufTy).Contents (Elt F) → (⟨S1600000x64, .i32⟩ : BufTy).Contents (Elt F) → (⟨S100000x64, .i32⟩ : BufTy).Contents (Elt F)),
    unary main_v82 main_v83 ((transpose S64x100000 [1, 0] · transposes_S100000x64_S64x100000_1_0) : (⟨S100000x64, .i32⟩ : BufTy).Contents (Elt F) → (⟨S64x100000, .i32⟩ : BufTy).Contents (Elt F)),
    nullary main_c_24 (constantI S_ 32 0#32),
    unary main_c_24 main_v84 (broadcastInDim S64x100000 ![] bcast_S_S64x100000 : (⟨S_, .i32⟩ : BufTy).Contents (Elt F) → (⟨S64x100000, .i32⟩ : BufTy).Contents (Elt F)),
    binary main_v83 main_v84 main_v85 (cmpi .sgt : (⟨S64x100000, .i32⟩ : BufTy).Contents (Elt F) → (⟨S64x100000, .i32⟩ : BufTy).Contents (Elt F) → (⟨S64x100000, .i1⟩ : BufTy).Contents (Elt F)),
    binary main_v67 main_v85 main_v86 (ori : (⟨S64x100000, .i1⟩ : BufTy).Contents (Elt F) → (⟨S64x100000, .i1⟩ : BufTy).Contents (Elt F) → (⟨S64x100000, .i1⟩ : BufTy).Contents (Elt F)),
    unary main_v67 main_v87 (noti : (⟨S64x100000, .i1⟩ : BufTy).Contents (Elt F) → (⟨S64x100000, .i1⟩ : BufTy).Contents (Elt F)),
    binary main_v86 main_v87 main_v88 (andi : (⟨S64x100000, .i1⟩ : BufTy).Contents (Elt F) → (⟨S64x100000, .i1⟩ : BufTy).Contents (Elt F) → (⟨S64x100000, .i1⟩ : BufTy).Contents (Elt F)),
    nullary main_c_25 (constantI S_ 32 3#32) ]

abbrev wh2 : List (HloOp τ sig (Elt F)) :=
  [ TRef.unary (TRef.of (T := ⟨S_, .i32⟩) main_c_25) (TRef.of (T := ⟨S64x100000, .i32⟩) main_call2_v0) (broadcastInDim S64x100000 ![] bcast_S_S64x100000),
    TRef.ternary (TRef.of (T := ⟨S64x100000, .i1⟩) main_v88) (TRef.of (T := ⟨S64x100000, .i32⟩) main_call2_v0) (TRef.of (T := ⟨S64x100000, .i32⟩) main_v70) (TRef.of (T := ⟨S64x100000, .i32⟩) main_v89) select ]

abbrev seg3 : List (HloOp τ sig (Elt F)) :=
  [ nullary main_c_26 (constantI S_ 32 0#32),
    unary main_c_26 main_v90 (broadcastInDim S1600000 ![] bcast_S_S1600000 : (⟨S_, .i32⟩ : BufTy).Contents (Elt F) → (⟨S1600000, .i32⟩ : BufTy).Contents (Elt F)),
    binary main_arg2 main_v90 main_v91 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 100000#32),
    unary main_c_27 main_v92 (broadcastInDim S1600000 ![] bcast_S_S1600000 : (⟨S_, .i32⟩ : BufTy).Contents (Elt F) → (⟨S1600000, .i32⟩ : BufTy).Contents (Elt F)),
    binary main_arg2 main_v92 main_v93 (addi : (⟨S1600000, .i32⟩ : BufTy).Contents (Elt F) → (⟨S1600000, .i32⟩ : BufTy).Contents (Elt F) → (⟨S1600000, .i32⟩ : BufTy).Contents (Elt F)),
    ternary main_v91 main_v93 main_arg2 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v94 main_v95 (broadcastInDim S1600000x1 ![0] bcast_S1600000_S1600000x1_0 : (⟨S1600000, .i32⟩ : BufTy).Contents (Elt F) → (⟨S1600000x1, .i32⟩ : BufTy).Contents (Elt F)),
    binary main_v86 main_v95 main_v96 ((fun x i => Host.gather gather_S64x100000_S1600000x1_S64x1600000_0_1_n_n_1_1_641 x i) : (⟨S64x100000, .i1⟩ : BufTy).Contents (Elt F) → (⟨S1600000x1, .i32⟩ : BufTy).Contents (Elt F) → (⟨S64x1600000, .i1⟩ : BufTy).Contents (Elt F)),
    unary main_v96 main_v97 ((extui 32 · natLt_1_32) : (⟨S64x1600000, .i1⟩ : BufTy).Contents (Elt F) → (⟨S64x1600000, .i32⟩ : BufTy).Contents (Elt F)),
    unary main_v97 main_v98 ((transpose S1600000x64 [1, 0] · transposes_S64x1600000_S1600000x64_1_0) : (⟨S64x1600000, .i32⟩ : BufTy).Contents (Elt F) → (⟨S1600000x64, .i32⟩ : BufTy).Contents (Elt F)),
    nullary main_c_28 (constantI S_ 32 2147483648#32),
    unary main_c_28 main_v99 (broadcastInDim S100000x64 ![] bcast_S_S100000x64 : (⟨S_, .i32⟩ : BufTy).Contents (Elt F) → (⟨S100000x64, .i32⟩ : BufTy).Contents (Elt F)),
    unary main_arg3 main_v100 (broadcastInDim S1600000x1 ![0] bcast_S1600000_S1600000x1_0 : (⟨S1600000, .i32⟩ : BufTy).Contents (Elt F) → (⟨S1600000x1, .i32⟩ : BufTy).Contents (Elt F)),
    ternary main_v99 main_v100 main_v98 main_v101 ((fun x i u => Host.scatter scatter_S100000x64_S1600000x1_S1600000x64_1_0_0_1 IntOp.maxsi x i u) : (⟨S100000x64, .i32⟩ : BufTy).Contents (Elt F) → (⟨S1600000x1, .i32⟩ : BufTy).Contents (Elt F) → (⟨S1600000x64, .i32⟩ : BufTy).Contents (Elt F) → (⟨S100000x64, .i32⟩ : BufTy).Contents (Elt F)),
    unary main_v101 main_v102 ((transpose S64x100000 [1, 0] · transposes_S100000x64_S64x100000_1_0) : (⟨S100000x64, .i32⟩ : BufTy).Contents (Elt F) → (⟨S64x100000, .i32⟩ : BufTy).Contents (Elt F)),
    nullary main_c_29 (constantI S_ 32 0#32),
    unary main_c_29 main_v103 (broadcastInDim S64x100000 ![] bcast_S_S64x100000 : (⟨S_, .i32⟩ : BufTy).Contents (Elt F) → (⟨S64x100000, .i32⟩ : BufTy).Contents (Elt F)),
    binary main_v102 main_v103 main_v104 (cmpi .sgt : (⟨S64x100000, .i32⟩ : BufTy).Contents (Elt F) → (⟨S64x100000, .i32⟩ : BufTy).Contents (Elt F) → (⟨S64x100000, .i1⟩ : BufTy).Contents (Elt F)),
    binary main_v86 main_v104 main_v105 (ori : (⟨S64x100000, .i1⟩ : BufTy).Contents (Elt F) → (⟨S64x100000, .i1⟩ : BufTy).Contents (Elt F) → (⟨S64x100000, .i1⟩ : BufTy).Contents (Elt F)),
    unary main_v86 main_v106 (noti : (⟨S64x100000, .i1⟩ : BufTy).Contents (Elt F) → (⟨S64x100000, .i1⟩ : BufTy).Contents (Elt F)),
    binary main_v105 main_v106 main_v107 (andi : (⟨S64x100000, .i1⟩ : BufTy).Contents (Elt F) → (⟨S64x100000, .i1⟩ : BufTy).Contents (Elt F) → (⟨S64x100000, .i1⟩ : BufTy).Contents (Elt F)),
    nullary main_c_30 (constantI S_ 32 4#32) ]

abbrev wh3 : List (HloOp τ sig (Elt F)) :=
  [ TRef.unary (TRef.of (T := ⟨S_, .i32⟩) main_c_30) (TRef.of (T := ⟨S64x100000, .i32⟩) main_call3_v0) (broadcastInDim S64x100000 ![] bcast_S_S64x100000),
    TRef.ternary (TRef.of (T := ⟨S64x100000, .i1⟩) main_v107) (TRef.of (T := ⟨S64x100000, .i32⟩) main_call3_v0) (TRef.of (T := ⟨S64x100000, .i32⟩) main_v89) (TRef.of (T := ⟨S64x100000, .i32⟩) main_v108) select ]

abbrev hot : List (HloOp τ sig (Elt F)) :=
  [ TRef.unary (TRef.of (T := ⟨S64x100000, .i32⟩) main_v108) (TRef.of (T := ⟨S64x100000x1, .i32⟩) main_call4_v0) (broadcastInDim S64x100000x1 ![0, 1] bcast_S64x100000_S64x100000x1_0_1),
    TRef.nullary (TRef.of (T := ⟨S1x1x5, .i32⟩) main_call4_v1) (iotaInDim S1x1x5 32 2),
    TRef.unary (TRef.of (T := ⟨S64x100000x1, .i32⟩) main_call4_v0) (TRef.of (T := ⟨S64x100000x5, .i32⟩) main_call4_v2) (broadcastInDim S64x100000x5 ![0, 1, 2] bcast_S64x100000x1_S64x100000x5_0_1_2),
    TRef.unary (TRef.of (T := ⟨S1x1x5, .i32⟩) main_call4_v1) (TRef.of (T := ⟨S64x100000x5, .i32⟩) main_call4_v3) (broadcastInDim S64x100000x5 ![0, 1, 2] bcast_S1x1x5_S64x100000x5_0_1_2),
    TRef.binary (TRef.of (T := ⟨S64x100000x5, .i32⟩) main_call4_v2) (TRef.of (T := ⟨S64x100000x5, .i32⟩) main_call4_v3) (TRef.of (T := ⟨S64x100000x5, .i1⟩) main_call4_v4) (cmpi .eq),
    TRef.unary (TRef.of (T := ⟨S64x100000x5, .i1⟩) main_call4_v4) (TRef.of (T := ⟨S64x100000x5, .f32⟩) main_v109) (uitofp .f32) ]

abbrev tail : List (HloOp τ sig (Elt F)) :=
  [ nullary main_cst (constant S_ .f32 0x00000000#32),
    binary main_v109 main_cst main_v110 ((fun x v => Host.reduceAdd x v reducesTo_S64x100000x5_S100000x5_d0 h_S_) : (⟨S64x100000x5, .f32⟩ : BufTy).Contents (Elt F) → (⟨S_, .f32⟩ : BufTy).Contents (Elt F) → (⟨S100000x5, .f32⟩ : BufTy).Contents (Elt F)),
    binary main_v110 main_arg1 main_v111 ((fun l r => Host.dotGeneral dot_S100000x5_S5x32_S100000x32_1_0_0_1_n_n none l r) : (⟨S100000x5, .f32⟩ : BufTy).Contents (Elt F) → (⟨S5x32, .f32⟩ : BufTy).Contents (Elt F) → (⟨S100000x32, .f32⟩ : BufTy).Contents (Elt F)),
    binary main_arg0 main_v111 main_v112 ((fun a b => concatenate S100000x160 1 [⟨S100000x128, a⟩, ⟨S100000x32, b⟩] concatenates_S100000x128_S100000x32_S100000x160_d1) : (⟨S100000x128, .f32⟩ : BufTy).Contents (Elt F) → (⟨S100000x32, .f32⟩ : BufTy).Contents (Elt F) → (⟨S100000x160, .f32⟩ : BufTy).Contents (Elt F)) ]

set_option maxRecDepth 65536 in
/-- The whole list is the stretches in order. -/
theorem ops_eq : (ops : List (HloOp τ sig (Elt F)))
    = seg0 ++ (wh0 ++ (seg1 ++ (wh1 ++ (seg2 ++ (wh2 ++ (seg3 ++ (wh3 ++ (hot ++ tail)))))))) := rfl

variable (W : Valuation τ sig (Elt F))

theorem seg0_v48 : after (seg0 (F := F)) W (Proc.devRef .tc main_v48)
    = RHost.step (val_main_v16 (F := F)) (W (Proc.devRef .tc main_arg2)) (W (Proc.devRef .tc main_arg3)) := by
  after_results_simp
  rfl
theorem seg0_v50 : after (seg0 (F := F)) W (Proc.devRef .tc main_v50)
    = RHost.fresh (val_main_v16 (F := F)) (W (Proc.devRef .tc main_arg2)) (W (Proc.devRef .tc main_arg3)) := by
  after_results_simp
  rfl
theorem seg0_v32 : after (seg0 (F := F)) W (Proc.devRef .tc main_v32) = val_main_v32 (F := F) := by
  after_results_simp
  rfl
theorem seg0_c_15 : after (seg0 (F := F)) W (Proc.devRef .tc main_c_15) = constantI S_ 32 1#32 := by
  after_results_simp
theorem seg0_arg0 : after (seg0 (F := F)) W (Proc.devRef .tc main_arg0) = W (Proc.devRef .tc main_arg0) := by
  after_results_simp
theorem seg0_arg1 : after (seg0 (F := F)) W (Proc.devRef .tc main_arg1) = W (Proc.devRef .tc main_arg1) := by
  after_results_simp
theorem seg0_arg2 : after (seg0 (F := F)) W (Proc.devRef .tc main_arg2) = W (Proc.devRef .tc main_arg2) := by
  after_results_simp
theorem seg0_arg3 : after (seg0 (F := F)) W (Proc.devRef .tc main_arg3) = W (Proc.devRef .tc main_arg3) := by
  after_results_simp
theorem wh0_v51 : after (wh0 (F := F)) W (Proc.devRef .tc main_v51)
    = RHost.mark (W (Proc.devRef .tc main_v50)) (W (Proc.devRef .tc main_c_15)) (W (Proc.devRef .tc main_v32)) := by
  after_results
  rfl
theorem wh0_v48 : after (wh0 (F := F)) W (Proc.devRef .tc main_v48) = W (Proc.devRef .tc main_v48) := by
  after_results
theorem wh0_arg0 : after (wh0 (F := F)) W (Proc.devRef .tc main_arg0) = W (Proc.devRef .tc main_arg0) := by
  after_results
theorem wh0_arg1 : after (wh0 (F := F)) W (Proc.devRef .tc main_arg1) = W (Proc.devRef .tc main_arg1) := by
  after_results
theorem wh0_arg2 : after (wh0 (F := F)) W (Proc.devRef .tc main_arg2) = W (Proc.devRef .tc main_arg2) := by
  after_results
theorem wh0_arg3 : after (wh0 (F := F)) W (Proc.devRef .tc main_arg3) = W (Proc.devRef .tc main_arg3) := by
  after_results
theorem seg1_v67 : after (seg1 (F := F)) W (Proc.devRef .tc main_v67)
    = RHost.step (W (Proc.devRef .tc main_v48)) (W (Proc.devRef .tc main_arg2)) (W (Proc.devRef .tc main_arg3)) := by
  after_results_simp
  rfl
theorem seg1_v69 : after (seg1 (F := F)) W (Proc.devRef .tc main_v69)
    = RHost.fresh (W (Proc.devRef .tc main_v48)) (W (Proc.devRef .tc main_arg2)) (W (Proc.devRef .tc main_arg3)) := by
  after_results_simp
  rfl
theorem seg1_c_20 : after (seg1 (F := F)) W (Proc.devRef .tc main_c_20) = constantI S_ 32 2#32 := by
  after_results_simp
theorem seg1_v51 : after (seg1 (F := F)) W (Proc.devRef .tc main_v51) = W (Proc.devRef .tc main_v51) := by
  after_results_simp
theorem seg1_arg0 : after (seg1 (F := F)) W (Proc.devRef .tc main_arg0) = W (Proc.devRef .tc main_arg0) := by
  after_results_simp
theorem seg1_arg1 : after (seg1 (F := F)) W (Proc.devRef .tc main_arg1) = W (Proc.devRef .tc main_arg1) := by
  after_results_simp
theorem seg1_arg2 : after (seg1 (F := F)) W (Proc.devRef .tc main_arg2) = W (Proc.devRef .tc main_arg2) := by
  after_results_simp
theorem seg1_arg3 : after (seg1 (F := F)) W (Proc.devRef .tc main_arg3) = W (Proc.devRef .tc main_arg3) := by
  after_results_simp
theorem wh1_v70 : after (wh1 (F := F)) W (Proc.devRef .tc main_v70)
    = RHost.mark (W (Proc.devRef .tc main_v69)) (W (Proc.devRef .tc main_c_20)) (W (Proc.devRef .tc main_v51)) := by
  after_results
  rfl
theorem wh1_v67 : after (wh1 (F := F)) W (Proc.devRef .tc main_v67) = W (Proc.devRef .tc main_v67) := by
  after_results
theorem wh1_arg0 : after (wh1 (F := F)) W (Proc.devRef .tc main_arg0) = W (Proc.devRef .tc main_arg0) := by
  after_results
theorem wh1_arg1 : after (wh1 (F := F)) W (Proc.devRef .tc main_arg1) = W (Proc.devRef .tc main_arg1) := by
  after_results
theorem wh1_arg2 : after (wh1 (F := F)) W (Proc.devRef .tc main_arg2) = W (Proc.devRef .tc main_arg2) := by
  after_results
theorem wh1_arg3 : after (wh1 (F := F)) W (Proc.devRef .tc main_arg3) = W (Proc.devRef .tc main_arg3) := by
  after_results
theorem seg2_v86 : after (seg2 (F := F)) W (Proc.devRef .tc main_v86)
    = RHost.step (W (Proc.devRef .tc main_v67)) (W (Proc.devRef .tc main_arg2)) (W (Proc.devRef .tc main_arg3)) := by
  after_results_simp
  rfl
theorem seg2_v88 : after (seg2 (F := F)) W (Proc.devRef .tc main_v88)
    = RHost.fresh (W (Proc.devRef .tc main_v67)) (W (Proc.devRef .tc main_arg2)) (W (Proc.devRef .tc main_arg3)) := by
  after_results_simp
  rfl
theorem seg2_c_25 : after (seg2 (F := F)) W (Proc.devRef .tc main_c_25) = constantI S_ 32 3#32 := by
  after_results_simp
theorem seg2_v70 : after (seg2 (F := F)) W (Proc.devRef .tc main_v70) = W (Proc.devRef .tc main_v70) := by
  after_results_simp
theorem seg2_arg0 : after (seg2 (F := F)) W (Proc.devRef .tc main_arg0) = W (Proc.devRef .tc main_arg0) := by
  after_results_simp
theorem seg2_arg1 : after (seg2 (F := F)) W (Proc.devRef .tc main_arg1) = W (Proc.devRef .tc main_arg1) := by
  after_results_simp
theorem seg2_arg2 : after (seg2 (F := F)) W (Proc.devRef .tc main_arg2) = W (Proc.devRef .tc main_arg2) := by
  after_results_simp
theorem seg2_arg3 : after (seg2 (F := F)) W (Proc.devRef .tc main_arg3) = W (Proc.devRef .tc main_arg3) := by
  after_results_simp
theorem wh2_v89 : after (wh2 (F := F)) W (Proc.devRef .tc main_v89)
    = RHost.mark (W (Proc.devRef .tc main_v88)) (W (Proc.devRef .tc main_c_25)) (W (Proc.devRef .tc main_v70)) := by
  after_results
  rfl
theorem wh2_v86 : after (wh2 (F := F)) W (Proc.devRef .tc main_v86) = W (Proc.devRef .tc main_v86) := by
  after_results
theorem wh2_arg0 : after (wh2 (F := F)) W (Proc.devRef .tc main_arg0) = W (Proc.devRef .tc main_arg0) := by
  after_results
theorem wh2_arg1 : after (wh2 (F := F)) W (Proc.devRef .tc main_arg1) = W (Proc.devRef .tc main_arg1) := by
  after_results
theorem wh2_arg2 : after (wh2 (F := F)) W (Proc.devRef .tc main_arg2) = W (Proc.devRef .tc main_arg2) := by
  after_results
theorem wh2_arg3 : after (wh2 (F := F)) W (Proc.devRef .tc main_arg3) = W (Proc.devRef .tc main_arg3) := by
  after_results
theorem seg3_v107 : after (seg3 (F := F)) W (Proc.devRef .tc main_v107)
    = RHost.fresh (W (Proc.devRef .tc main_v86)) (W (Proc.devRef .tc main_arg2)) (W (Proc.devRef .tc main_arg3)) := by
  after_results_simp
  rfl
theorem seg3_c_30 : after (seg3 (F := F)) W (Proc.devRef .tc main_c_30) = constantI S_ 32 4#32 := by
  after_results_simp
theorem seg3_v89 : after (seg3 (F := F)) W (Proc.devRef .tc main_v89) = W (Proc.devRef .tc main_v89) := by
  after_results_simp
theorem seg3_arg0 : after (seg3 (F := F)) W (Proc.devRef .tc main_arg0) = W (Proc.devRef .tc main_arg0) := by
  after_results_simp
theorem seg3_arg1 : after (seg3 (F := F)) W (Proc.devRef .tc main_arg1) = W (Proc.devRef .tc main_arg1) := by
  after_results_simp
theorem seg3_arg2 : after (seg3 (F := F)) W (Proc.devRef .tc main_arg2) = W (Proc.devRef .tc main_arg2) := by
  after_results_simp
theorem seg3_arg3 : after (seg3 (F := F)) W (Proc.devRef .tc main_arg3) = W (Proc.devRef .tc main_arg3) := by
  after_results_simp
theorem wh3_v108 : after (wh3 (F := F)) W (Proc.devRef .tc main_v108)
    = RHost.mark (W (Proc.devRef .tc main_v107)) (W (Proc.devRef .tc main_c_30)) (W (Proc.devRef .tc main_v89)) := by
  after_results
  rfl
theorem wh3_arg0 : after (wh3 (F := F)) W (Proc.devRef .tc main_arg0) = W (Proc.devRef .tc main_arg0) := by
  after_results
theorem wh3_arg1 : after (wh3 (F := F)) W (Proc.devRef .tc main_arg1) = W (Proc.devRef .tc main_arg1) := by
  after_results
theorem wh3_arg2 : after (wh3 (F := F)) W (Proc.devRef .tc main_arg2) = W (Proc.devRef .tc main_arg2) := by
  after_results
theorem wh3_arg3 : after (wh3 (F := F)) W (Proc.devRef .tc main_arg3) = W (Proc.devRef .tc main_arg3) := by
  after_results
theorem hot_v109 : after (hot (F := F)) W (Proc.devRef .tc main_v109) = oneHot (W (Proc.devRef .tc main_v108)) := by
  after_results
  rfl
theorem hot_arg0 : after (hot (F := F)) W (Proc.devRef .tc main_arg0) = W (Proc.devRef .tc main_arg0) := by
  after_results
theorem hot_arg1 : after (hot (F := F)) W (Proc.devRef .tc main_arg1) = W (Proc.devRef .tc main_arg1) := by
  after_results
theorem tail_v112 : after (tail (F := F)) W (Proc.devRef .tc main_v112)
    = tailOut (W (Proc.devRef .tc main_arg0)) (W (Proc.devRef .tc main_arg1)) (W (Proc.devRef .tc main_v109)) := by
  after_results
  rfl

theorem hot_arg2 : after (hot (F := F)) W (Proc.devRef .tc main_arg2) = W (Proc.devRef .tc main_arg2) := by
  after_results
theorem hot_arg3 : after (hot (F := F)) W (Proc.devRef .tc main_arg3) = W (Proc.devRef .tc main_arg3) := by
  after_results
theorem tail_arg0 : after (tail (F := F)) W (Proc.devRef .tc main_arg0) = W (Proc.devRef .tc main_arg0) := by
  after_results
theorem tail_arg1 : after (tail (F := F)) W (Proc.devRef .tc main_arg1) = W (Proc.devRef .tc main_arg1) := by
  after_results
theorem tail_arg2 : after (tail (F := F)) W (Proc.devRef .tc main_arg2) = W (Proc.devRef .tc main_arg2) := by
  after_results
theorem tail_arg3 : after (tail (F := F)) W (Proc.devRef .tc main_arg3) = W (Proc.devRef .tc main_arg3) := by
  after_results

/-! ## The stretches chained -/

/-- The result buffer after the whole list, from any contents: the reference's last stage of the four arguments. -/
theorem after_ops_v112 : after (ops (F := F)) W (Proc.devRef .tc main_v112)
    = val_main_v112 (F := F) (W (Proc.devRef .tc main_arg0)) (W (Proc.devRef .tc main_arg1)) (W (Proc.devRef .tc main_arg2)) (W (Proc.devRef .tc main_arg3)) := by
  rw [ops_eq, v112_eq, RHost.v108_eq, RHost.v107_eq, RHost.v89_eq, RHost.v88_eq, RHost.v86_eq, RHost.v70_eq, RHost.v69_eq,
    RHost.v67_eq, RHost.v51_eq, RHost.v50_eq, RHost.v48_eq]
  rw [after_append, after_append, after_append, after_append, after_append, after_append, after_append, after_append, after_append]
  rw [tail_v112]
  rw [hot_v109, hot_arg0, hot_arg1]
  rw [wh3_v108, wh3_arg0, wh3_arg1]
  rw [seg3_v107, seg3_c_30, seg3_v89, seg3_arg0, seg3_arg1]
  rw [wh2_v89, wh2_v86, wh2_arg0, wh2_arg1, wh2_arg2, wh2_arg3]
  rw [seg2_v86, seg2_v88, seg2_c_25, seg2_v70, seg2_arg0, seg2_arg1, seg2_arg2, seg2_arg3]
  rw [wh1_v70, wh1_v67, wh1_arg0, wh1_arg1, wh1_arg2, wh1_arg3]
  rw [seg1_v67, seg1_v69, seg1_c_20, seg1_v51, seg1_arg0, seg1_arg1, seg1_arg2, seg1_arg3]
  rw [wh0_v51, wh0_v48, wh0_arg0, wh0_arg1, wh0_arg2, wh0_arg3]
  rw [seg0_v48, seg0_v50, seg0_v32, seg0_c_15, seg0_arg0, seg0_arg1, seg0_arg2, seg0_arg3]

/-- No operation of the list writes the argument `main_arg0`. -/
theorem after_ops_arg0 : after (ops (F := F)) W (Proc.devRef .tc main_arg0) = W (Proc.devRef .tc main_arg0) := by
  rw [ops_eq]
  rw [after_append, after_append, after_append, after_append, after_append, after_append, after_append, after_append, after_append]
  rw [tail_arg0, hot_arg0, wh3_arg0, seg3_arg0, wh2_arg0, seg2_arg0, wh1_arg0, seg1_arg0, wh0_arg0, seg0_arg0]

/-- No operation of the list writes the argument `main_arg1`. -/
theorem after_ops_arg1 : after (ops (F := F)) W (Proc.devRef .tc main_arg1) = W (Proc.devRef .tc main_arg1) := by
  rw [ops_eq]
  rw [after_append, after_append, after_append, after_append, after_append, after_append, after_append, after_append, after_append]
  rw [tail_arg1, hot_arg1, wh3_arg1, seg3_arg1, wh2_arg1, seg2_arg1, wh1_arg1, seg1_arg1, wh0_arg1, seg0_arg1]

/-- No operation of the list writes the argument `main_arg2`. -/
theorem after_ops_arg2 : after (ops (F := F)) W (Proc.devRef .tc main_arg2) = W (Proc.devRef .tc main_arg2) := by
  rw [ops_eq]
  rw [after_append, after_append, after_append, after_append, after_append, after_append, after_append, after_append, after_append]
  rw [tail_arg2, hot_arg2, wh3_arg2, seg3_arg2, wh2_arg2, seg2_arg2, wh1_arg2, seg1_arg2, wh0_arg2, seg0_arg2]

/-- No operation of the list writes the argument `main_arg3`. -/
theorem after_ops_arg3 : after (ops (F := F)) W (Proc.devRef .tc main_arg3) = W (Proc.devRef .tc main_arg3) := by
  rw [ops_eq]
  rw [after_append, after_append, after_append, after_append, after_append, after_append, after_append, after_append, after_append]
  rw [tail_arg3, hot_arg3, wh3_arg3, seg3_arg3, wh2_arg3, seg2_arg3, wh1_arg3, seg1_arg3, wh0_arg3, seg0_arg3]

end Cert.ReferenceIdeal.RChain

end
-- ==== Proof.Histogram.lean ====
/- The histogram law on the extended reals, one float literal, and the two spellings of a class indicator.

   A row of 64 labels, each one of five classes, is weighted by a table of five extended reals (which may be
   infinite). One program counts four of the classes and obtains the fifth count as 64 minus the other four; the other
   counts all five. Every count is a natural number, the five counts add to 64 because every label falls in exactly
   one class, so the "complement" count IS the fifth count, as real numbers, before any product with a table entry is
   taken. Nothing here distributes a product over a sum on the extended reals (false at the infinities): the subtraction
   happens between finite reals. -/
import Idealize.ShloMosaic.PureOps.Ideal
import Idealize.ShloMosaic.PureOps.Ideal.Laws
import Idealize.ShloMosaic.Lib.ValueIdx

noncomputable section

namespace Cert.Histogram

open Idealize.ShloMosaic
open scoped BigOperators

/-! ## Counting -/

/-- A sum of indicators over a finite set is the number of members that satisfy the predicate, as a (finite) real. -/
theorem sum_indicator_eq_card {ι : Type} (s : Finset ι) (p : ι → Prop) [DecidablePred p] :
    (∑ b ∈ s, (if p b then (1 : EReal) else 0)) = (((s.filter p).card : ℝ) : EReal) := by
  classical
  induction s using Finset.induction_on with
  | empty => simp
  | insert a s ha ih =>
    rw [Finset.sum_insert ha, ih, Finset.filter_insert]
    by_cases h : p a
    · rw [if_pos h, if_pos h, Finset.card_insert_of_notMem (by simp [ha])]
      rw [Nat.cast_add, Nat.cast_one, EReal.coe_add, EReal.coe_one, add_comm]
    · rw [if_neg h, if_neg h, zero_add]

/-- The number of labels of a row of 64 that fall in class \`k\`. -/
def countN (κ : Fin 64 → Fin 5) (k : Fin 5) : ℕ := (Finset.univ.filter fun b => κ b = k).card

/-- The same count as the sum of indicators a program computes, an extended real. -/
def count (κ : Fin 64 → Fin 5) (k : Fin 5) : EReal := ∑ b : Fin 64, (if κ b = k then (1 : EReal) else 0)

theorem count_def (κ : Fin 64 → Fin 5) (k : Fin 5) :
    count κ k = ∑ b : Fin 64, (if κ b = k then (1 : EReal) else 0) := rfl

/-- The indicator sum is the (finite) count. -/
theorem count_eq_coe (κ : Fin 64 → Fin 5) (k : Fin 5) : count κ k = ((countN κ k : ℝ) : EReal) :=
  sum_indicator_eq_card Finset.univ fun b => κ b = k

/-- Every label falls in exactly one class: the five counts add to 64. -/
theorem countN_sum (κ : Fin 64 → Fin 5) :
    countN κ 0 + countN κ 1 + countN κ 2 + countN κ 3 + countN κ 4 = 64 := by
  have h := Finset.card_eq_sum_card_fiberwise (f := κ) (s := Finset.univ) (t := Finset.univ)
    (fun _ _ => Finset.mem_coe.2 (Finset.mem_univ _))
  rw [Fin.sum_univ_five, Finset.card_univ, Fintype.card_fin] at h
  exact h.symm

/-- The count of the last class is 64 less the other four counts, already on the extended reals: both sides are
    coercions of reals, and the reals agree by \`countN_sum\`. -/
theorem count_complement (κ : Fin 64 → Fin 5) :
    ((64 : ℝ) : EReal) - (((count κ 0 + count κ 1) + count κ 2) + count κ 3) = count κ 4 := by
  simp only [count_eq_coe]
  rw [← EReal.coe_add, ← EReal.coe_add, ← EReal.coe_add, ← EReal.coe_sub]
  congr 1
  have h : ((countN κ 0 + countN κ 1 + countN κ 2 + countN κ 3 + countN κ 4 : ℕ) : ℝ) = 64 := by
    rw [countN_sum]; norm_num
  push_cast at h
  linarith

/-- THE HISTOGRAM LAW: the weighted sum with the last count computed as a complement is the plain weighted sum over
    the five classes. -/
theorem hist_law (κ : Fin 64 → Fin 5) (e : Fin 5 → EReal) :
    ((((count κ 0 * e 0) + count κ 1 * e 1) + count κ 2 * e 2) + count κ 3 * e 3)
        + (((64 : ℝ) : EReal) - (((count κ 0 + count κ 1) + count κ 2) + count κ 3)) * e 4
      = ∑ k : Fin 5, count κ k * e k := by
  rw [count_complement, Fin.sum_univ_five]

/-- The same with the counts spelled as the indicator sums. -/
theorem hist_law' (κ : Fin 64 → Fin 5) (e : Fin 5 → EReal) :
    let c : Fin 5 → EReal := fun k => ∑ b : Fin 64, (if κ b = k then (1 : EReal) else 0)
    ((((c 0 * e 0) + c 1 * e 1) + c 2 * e 2) + c 3 * e 3)
        + (((64 : ℝ) : EReal) - (((c 0 + c 1) + c 2) + c 3)) * e 4
      = ∑ k : Fin 5, c k * e k :=
  hist_law κ e

/-! ## The literal 64.0 -/

/-- The pattern \`0x42800000\` of \`64.0\` denotes the real \`64\`. (The zero word: \`Ideal.ofBits_zero_f32\`.) -/
theorem ofBits_64 : Ideal.ofBits .f32 0x42800000#32 = ((64 : ℝ) : EReal) := by
  simp [Ideal.ofBits, Ideal.ieee, -EReal.coe_mul]; norm_num

/-- The same literal as a scalar constant of a program read at the ideal values. -/
theorem scalar_ofBits_64 : (Scalar.ofBits .f32 0x42800000#32 : Ideal .f32) = ((64 : ℝ) : EReal) := ofBits_64

/-! ## A class indicator, spelled two ways -/

/-- A bit widened to 32 bits and read signed is the bit read unsigned. -/
theorem toInt_setWidth_bit : ∀ b : BitVec 1, (b.setWidth 32).toInt = (b.toNat : ℤ) := by decide

/-- An equality test's bit, read unsigned, is 1 or 0. -/
theorem toNat_cmpi_eq (x k : BitVec 32) : (IntOp.cmpi .eq x k).toNat = if x = k then 1 else 0 := by
  show (BitVec.ofBool (x == k)).toNat = _
  by_cases h : x = k
  · simp [h]
  · simp [h]

/-- The host's spelling: the comparison bit converted unsigned. -/
theorem uitofp_cmpi_eq (x k : BitVec 32) :
    FloatOps.uitofp (F := Ideal) .f32 (IntOp.cmpi .eq x k) = if x = k then (1 : EReal) else 0 := by
  show ((((IntOp.cmpi .eq x k).toNat : ℕ) : ℝ) : EReal) = _
  rw [toNat_cmpi_eq]
  by_cases h : x = k
  · simp [h]
  · simp [h]

/-- The kernel's spelling: the comparison bit widened to a word and converted signed. -/
theorem sitofp_setWidth_cmpi_eq (x k : BitVec 32) :
    FloatOps.sitofp (F := Ideal) .f32 ((IntOp.cmpi .eq x k).setWidth 32) = if x = k then (1 : EReal) else 0 := by
  show (((((IntOp.cmpi .eq x k).setWidth 32).toInt : ℤ) : ℝ) : EReal) = _
  rw [toInt_setWidth_bit, toNat_cmpi_eq]
  by_cases h : x = k
  · simp [h]
  · simp [h]

section Vectors
variable {S : Shape}

/-- The kernel's indicator vector at an index. -/
theorem sitofp_extui_cmpi_eq_apply (v w : IVec S 32) (h : 1 < 32) (i : S.Idx) :
    (sitofp .f32 (extui 32 (cmpi .eq v w) h) : FVec Ideal S .f32) i = if v i = w i then (1 : EReal) else 0 :=
  sitofp_setWidth_cmpi_eq (v i) (w i)

/-- The reference's indicator vector at an index. -/
theorem uitofp_cmpi_eq_apply (v w : IVec S 32) (i : S.Idx) :
    (uitofp .f32 (cmpi .eq v w) : FVec Ideal S .f32) i = if v i = w i then (1 : EReal) else 0 :=
  uitofp_cmpi_eq (v i) (w i)

/-- The kernel's indicator against a splat constant. -/
theorem sitofp_extui_cmpi_eq_broadcast_apply (v : IVec S 32) (k : BitVec 32) (h : 1 < 32) (i : S.Idx) :
    (sitofp .f32 (extui 32 (cmpi .eq v (broadcast S k)) h) : FVec Ideal S .f32) i
      = if v i = k then (1 : EReal) else 0 :=
  sitofp_setWidth_cmpi_eq (v i) k

/-- The reference's indicator against a splat constant. -/
theorem uitofp_cmpi_eq_broadcast_apply (v : IVec S 32) (k : BitVec 32) (i : S.Idx) :
    (uitofp .f32 (cmpi .eq v (broadcast S k)) : FVec Ideal S .f32) i = if v i = k then (1 : EReal) else 0 :=
  uitofp_cmpi_eq (v i) k

/-- As whole vectors. -/
theorem sitofp_extui_cmpi_eq_fun (v w : IVec S 32) (h : 1 < 32) :
    (sitofp .f32 (extui 32 (cmpi .eq v w) h) : FVec Ideal S .f32) = fun i => if v i = w i then (1 : EReal) else 0 :=
  funext fun i => sitofp_extui_cmpi_eq_apply v w h i

theorem uitofp_cmpi_eq_fun (v w : IVec S 32) :
    (uitofp .f32 (cmpi .eq v w) : FVec Ideal S .f32) = fun i => if v i = w i then (1 : EReal) else 0 :=
  funext fun i => uitofp_cmpi_eq_apply v w i

/-- What unfolding the vector operations at an index leaves is the scalar statement: the pointwise lemmas above are in
    the form that reading produces. -/
example (v w : IVec S 32) (h : 1 < 32) (i : S.Idx) :
    (sitofp .f32 (extui 32 (cmpi .eq v w) h) : FVec Ideal S .f32) i = if v i = w i then (1 : EReal) else 0 := by
  simp only [ValueIdx.sitofp_apply, ValueIdx.extui_apply, cmpi]
  exact sitofp_setWidth_cmpi_eq (v i) (w i)

/-- Likewise for the reference's spelling, against a splat constant. -/
example (v : IVec S 32) (k : BitVec 32) (i : S.Idx) :
    (uitofp .f32 (cmpi .eq v (broadcast S k)) : FVec Ideal S .f32) i = if v i = k then (1 : EReal) else 0 := by
  simp only [uitofp, cmpi, ValueIdx.broadcast_apply]
  exact uitofp_cmpi_eq (v i) k

end Vectors

end Cert.Histogram

end
-- ==== Proof.RowLaw.lean ====
/-
  The kernel's per-row formula on a row of labels among 0 … 4.

  The kernel counts how often each of the words 0, 1, 2, 3 occurs among the 64 entries of a row, weights the four
  counts by the first four entries of a column of the table, and weights the fifth entry by 64 minus the four counts.
  When every entry of the row is one of the five words 0 … 4, each entry is the word of exactly one class
  `κ b : Fin 5`; the indicator "the entry is the word k" is the indicator "κ b = k" because the five words are distinct;
  so the kernel's counts are the class counts of `κ`, the literals are `0` and `64`, and the histogram law (the
  complement count is the fifth count, a statement about finite reals) turns the formula into the plain weighted sum
  over the five classes. No product is distributed over a sum on the extended reals.
-/
import proofs.«153181_j23888608100655_2_alg».proof.Proof.Histogram
import proofs.«153181_j23888608100655_2_alg».proof.Proof.KernelSpec

noncomputable section

open scoped BigOperators

namespace Cert.RowLaw

open Idealize.ShloMosaic Cert.Histogram Cert.KernelIdeal.KValue

/-- The five label words are distinct: two of them are equal exactly when their class numbers are. -/
theorem ofNat_eq_iff : ∀ a b : Fin 5, BitVec.ofNat 32 a.val = BitVec.ofNat 32 b.val ↔ a = b := by decide

/-- A word among 0 … 4 is the word of a class. -/
theorem exists_class (x : BitVec 32) (h : x = 0#32 ∨ x = 1#32 ∨ x = 2#32 ∨ x = 3#32 ∨ x = 4#32) :
    ∃ c : Fin 5, x = BitVec.ofNat 32 c.val := by
  rcases h with h | h | h | h | h
  · exact ⟨0, h⟩
  · exact ⟨1, h⟩
  · exact ⟨2, h⟩
  · exact ⟨3, h⟩
  · exact ⟨4, h⟩

/-- On a row whose entries are the words of the classes `κ`, the indicator of the word of class `k` is the indicator
    of the class. -/
theorem indicator_word (row : Fin 64 → BitVec 32) (κ : Fin 64 → Fin 5)
    (hκ : ∀ b, row b = BitVec.ofNat 32 (κ b).val) (k : Fin 5) (b : Fin 64) :
    (if row b = BitVec.ofNat 32 k.val then (1 : EReal) else 0) = if κ b = k then (1 : EReal) else 0 := by
  rw [hκ b]
  exact if_congr (ofNat_eq_iff (κ b) k) rfl rfl

/-- The kernel's count of the word of class `k` is the class count. -/
theorem cnt_eq_count (row : Fin 64 → BitVec 32) (κ : Fin 64 → Fin 5)
    (hκ : ∀ b, row b = BitVec.ofNat 32 (κ b).val) (k : Fin 5) :
    cnt row (BitVec.ofNat 32 k.val) = count κ k := by
  unfold cnt count
  refine Finset.sum_congr rfl (fun b _ => ?_)
  unfold ind
  rw [sitofp_setWidth_cmpi_eq]
  exact indicator_word row κ hκ k b

/-- THE ROW LAW: on a row of 64 labels each among 0 … 4 the kernel's formula is the five-term weighted sum of the
    per-label counts. -/
theorem rowPos_eq (row : Fin 64 → BitVec 32)
    (hrow : ∀ b, row b = 0#32 ∨ row b = 1#32 ∨ row b = 2#32 ∨ row b = 3#32 ∨ row b = 4#32)
    (col : Fin 5 → EReal) :
    rowPos row col
      = ∑ k : Fin 5, (∑ b : Fin 64, (if row b = BitVec.ofNat 32 k.val then (1 : EReal) else 0)) * col k := by
  choose κ hκ using fun b => exists_class (row b) (hrow b)
  have h0 : cnt row 0#32 = count κ 0 := cnt_eq_count row κ hκ 0
  have h1 : cnt row 1#32 = count κ 1 := cnt_eq_count row κ hκ 1
  have h2 : cnt row 2#32 = count κ 2 := cnt_eq_count row κ hκ 2
  have h3 : cnt row 3#32 = count κ 3 := cnt_eq_count row κ hκ 3
  have hR : (∑ k : Fin 5, (∑ b : Fin 64, (if row b = BitVec.ofNat 32 k.val then (1 : EReal) else 0)) * col k)
      = ∑ k : Fin 5, count κ k * col k := by
    refine Finset.sum_congr rfl (fun k _ => ?_)
    refine congrArg (· * col k) ?_
    exact Finset.sum_congr rfl (fun b _ => indicator_word row κ hκ k b)
  rw [hR, ← hist_law κ col]
  unfold rowPos
  rw [h0, h1, h2, h3, Ideal.ofBits_zero_f32, zero_add, zero_add, ofBits_64]

/-- The same with the five sums written out and the words spelled as literals. -/
theorem rowPos_eq_five (row : Fin 64 → BitVec 32)
    (hrow : ∀ b, row b = 0#32 ∨ row b = 1#32 ∨ row b = 2#32 ∨ row b = 3#32 ∨ row b = 4#32)
    (col : Fin 5 → EReal) :
    rowPos row col
      = (∑ b : Fin 64, (if row b = 0#32 then (1 : EReal) else 0)) * col 0
        + (∑ b : Fin 64, (if row b = 1#32 then (1 : EReal) else 0)) * col 1
        + (∑ b : Fin 64, (if row b = 2#32 then (1 : EReal) else 0)) * col 2
        + (∑ b : Fin 64, (if row b = 3#32 then (1 : EReal) else 0)) * col 3
        + (∑ b : Fin 64, (if row b = 4#32 then (1 : EReal) else 0)) * col 4 := by
  rw [rowPos_eq row hrow col, Fin.sum_univ_five]
  rfl

end Cert.RowLaw

end
-- ==== Proof.LibGatherRows.lean ====
/-
  Reading a row gather at an index.

  `x[idx]` of a matrix `x : [N, C]` at an integer vector `idx : [E]` lowers to a gather with the start indices
  laid out as `[E, 1]`: offset axis 1, collapsed axis 0, the start index map `[0]`, slices of one whole row.
  The element `(e, k)` of the result is the operand's element `(r, k)`, where the row `r` is the start index
  `idx[e, 0]` read as a signed integer and clamped into `[0, N - 1]`. In particular the row depends on `e` only and
  the column is kept, which is what a row-wise reduction of gathered rows needs.
-/
import Idealize.ShloMosaic.Lib.ValueIdx

noncomputable section

namespace Idealize.ShloMosaic.GatherRows

open Idealize.ShloMosaic Idealize.ShloMosaic.ValueIdx

variable {α : Type}

/-- The dimension numbers of a row gather: operand `[N, C]`, start indices `[E, 1]`, result `[E, C]`. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that edge `e` selects: its start index read signed, clamped into `[0, N - 1]`. -/
def rowOf {N E w : Nat} (hN : 0 < N) (idx : IVec ⟨2, ![E, 1]⟩ w) (e : Fin E) : Fin N :=
  ⟨min (idx (ix2 e (0 : Fin 1))).toInt.toNat (N - 1), by omega⟩

/-- On the row axis the slice starts at the clamped start index. -/
theorem rowDims_start_row {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).start (ix2 e k) idx (0 : Fin 2) = min (idx (ix2 e (0 : Fin 1))).toInt.toNat (N - 1) := by
  unfold GatherDims.start
  rw [dif_pos (show (0 : Fin 2) ∈ (rowDims N E C wf).startIndexMap from List.mem_singleton.mpr rfl)]
  have hsi : (rowDims N E C wf).siIdx (ix2 e k) ⟨List.idxOf (0 : Fin 2) (rowDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the slice starts at zero: the start index map does not name it. -/
theorem rowDims_start_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).start (ix2 e k) idx (1 : Fin 2) = 0 := by
  unfold GatherDims.start
  rw [dif_neg (fun h => absurd (congrArg Fin.val (List.mem_singleton.mp h)) Nat.one_ne_zero)]

/-- The offset coordinate on the column axis is the result's column. -/
theorem rowDims_off_col {N E C : Nat}
    (wf : GatherDims.WF ⟨2, ![N, C]⟩ ⟨2, ![E, 1]⟩ ⟨2, ![E, C]⟩ [1] [0] [] [0] [] 1 ![1, C])
    (e : Fin E) (k : Fin C) :
    (rowDims N E C wf).offCoord (ix2 e k) (1 : Fin 2) = k.val := by
  unfold GatherDims.offCoord
  rw [dif_pos ((GatherDims.mem_sKept _ _).mpr ⟨fun h => absurd (congrArg Fin.val (List.mem_singleton.mp h)) Nat.one_ne_zero, List.not_mem_nil⟩)]
  rfl

/-- The operand index of result element `(e, k)` is `(rowOf e, k)`. -/
theorem rowDims_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).operandIdx (ix2 e k) idx = ix2 (rowOf hN idx e) k := by
  funext a
  refine Fin.ext ?_
  match a with
  | ⟨0, _⟩ =>
    show (rowDims N E C wf).start (ix2 e k) idx (0 : Fin 2) + (rowDims N E C wf).batchCoord (ix2 e k) (0 : Fin 2)
      + (rowDims N E C wf).offCoord (ix2 e k) (0 : Fin 2) = min (idx (ix2 e (0 : Fin 1))).toInt.toNat (N - 1)
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero, rowDims_start_row]
  | ⟨1, _⟩ =>
    show (rowDims N E C wf).start (ix2 e k) idx (1 : Fin 2) + (rowDims N E C wf).batchCoord (ix2 e k) (1 : Fin 2)
      + (rowDims N E C wf).offCoord (ix2 e k) (1 : Fin 2) = k.val
    rw [GatherDims.batchCoord_eq_zero _ _ _ List.not_mem_nil, Nat.add_zero, rowDims_start_col, Nat.zero_add,
      rowDims_off_col]

/-- THE ROW GATHER READ AT `(e, k)`: the operand's element `(rowOf e, k)`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N E C wf) x idx (ix2 e k) = x (ix2 (rowOf hN idx e) k) := by
  unfold Host.gather
  rw [rowDims_operandIdx hN wf idx e k]

end Idealize.ShloMosaic.GatherRows

end
-- ==== Proof.LibGatherCols.lean ====
/-
  Reading a column gather at an index.

  `x[:, idx]` of a matrix `x : [B, N]` at an integer vector `idx : [E]` lowers to a gather with the start indices
  laid out as `[E, 1]`: offset axis 0, collapsed axis 1, the start index map `[1]`, slices of one whole column.
  The element `(b, e)` of the result is the operand's element `(b, c)`, where the column `c` is the start index
  `idx[e, 0]` read as a signed integer and clamped into `[0, N - 1]`: the same clamped index that a row gather of an
  `[N, C]` operand at the same start indices selects as its row.
-/
import proofs.«153181_j23888608100655_2_alg».proof.Proof.LibGatherRows

noncomputable section

namespace Idealize.ShloMosaic.GatherCols

open Idealize.ShloMosaic Idealize.ShloMosaic.ValueIdx

variable {α : Type}

/-- The dimension numbers of a column gather: operand `[B, N]`, start indices `[E, 1]`, result `[B, E]`. -/
abbrev colDims (B N E : Nat)
    (wf : GatherDims.WF ⟨2, ![B, N]⟩ ⟨2, ![E, 1]⟩ ⟨2, ![B, E]⟩ [0] [1] [] [1] [] 1 ![B, 1]) :
    GatherDims ⟨2, ![B, N]⟩ ⟨2, ![E, 1]⟩ ⟨2, ![B, E]⟩ where
  offsetDims := [0]
  collapsedSliceDims := [1]
  operandBatchingDims := []
  startIndicesBatchingDims := []
  startIndexMap := [1]
  indexVectorDim := 1
  sliceSizes := ![B, 1]
  wf := wf

/-- On the column axis the slice starts at the clamped start index. -/
theorem colDims_start_col {B N E w : Nat}
    (wf : GatherDims.WF ⟨2, ![B, N]⟩ ⟨2, ![E, 1]⟩ ⟨2, ![B, E]⟩ [0] [1] [] [1] [] 1 ![B, 1])
    (idx : IVec ⟨2, ![E, 1]⟩ w) (b : Fin B) (e : Fin E) :
    (colDims B N E wf).start (ix2 b e) idx (1 : Fin 2) = min (idx (ix2 e (0 : Fin 1))).toInt.toNat (N - 1) := by
  unfold GatherDims.start
  rw [dif_pos (show (1 : Fin 2) ∈ (colDims B N E wf).startIndexMap from List.mem_singleton.mpr rfl)]
  have hsi : (colDims B N E wf).siIdx (ix2 b e) ⟨List.idxOf (1 : Fin 2) (colDims B N E wf).startIndexMap,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]
  rfl

/-- On the row axis the slice starts at zero: the start index map does not name it. -/
theorem colDims_start_row {B N E w : Nat}
    (wf : GatherDims.WF ⟨2, ![B, N]⟩ ⟨2, ![E, 1]⟩ ⟨2, ![B, E]⟩ [0] [1] [] [1] [] 1 ![B, 1])
    (idx : IVec ⟨2, ![E, 1]⟩ w) (b : Fin B) (e : Fin E) :
    (colDims B N E wf).start (ix2 b e) idx (0 : Fin 2) = 0 := by
  unfold GatherDims.start
  rw [dif_neg (fun h => absurd (congrArg Fin.val (List.mem_singleton.mp h)) Nat.zero_ne_one)]

/-- The offset coordinate on the row axis is the result's row. -/
theorem colDims_off_row {B N E : Nat}
    (wf : GatherDims.WF ⟨2, ![B, N]⟩ ⟨2, ![E, 1]⟩ ⟨2, ![B, E]⟩ [0] [1] [] [1] [] 1 ![B, 1])
    (b : Fin B) (e : Fin E) :
    (colDims B N E wf).offCoord (ix2 b e) (0 : Fin 2) = b.val := by
  unfold GatherDims.offCoord
  rw [dif_pos ((GatherDims.mem_sKept _ _).mpr ⟨fun h => absurd (congrArg Fin.val (List.mem_singleton.mp h)) Nat.zero_ne_one, List.not_mem_nil⟩)]
  rfl

/-- The operand index of result element `(b, e)` is `(b, rowOf e)`. -/
theorem colDims_operandIdx {B N E w : Nat} (hN : 0 < N)
    (wf : GatherDims.WF ⟨2, ![B, N]⟩ ⟨2, ![E, 1]⟩ ⟨2, ![B, E]⟩ [0] [1] [] [1] [] 1 ![B, 1])
    (idx : IVec ⟨2, ![E, 1]⟩ w) (b : Fin B) (e : Fin E) :
    (colDims B N E wf).operandIdx (ix2 b e) idx = ix2 b (GatherRows.rowOf hN idx e) := by
  funext a
  refine Fin.ext ?_
  match a with
  | ⟨0, _⟩ =>
    show (colDims B N E wf).start (ix2 b e) idx (0 : Fin 2) + (colDims B N E wf).batchCoord (ix2 b e) (0 : Fin 2)
      + (colDims B N E wf).offCoord (ix2 b e) (0 : Fin 2) = b.val
    rw [GatherDims.batchCoord_eq_zero _ _ _ List.not_mem_nil, Nat.add_zero, colDims_start_row, Nat.zero_add,
      colDims_off_row]
  | ⟨1, _⟩ =>
    show (colDims B N E wf).start (ix2 b e) idx (1 : Fin 2) + (colDims B N E wf).batchCoord (ix2 b e) (1 : Fin 2)
      + (colDims B N E wf).offCoord (ix2 b e) (1 : Fin 2) = min (idx (ix2 e (0 : Fin 1))).toInt.toNat (N - 1)
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero, colDims_start_col]

/-- THE COLUMN GATHER READ AT `(b, e)`: the operand's element `(b, rowOf e)`. -/
theorem gather_cols_apply {B N E w : Nat} (hN : 0 < N)
    (wf : GatherDims.WF ⟨2, ![B, N]⟩ ⟨2, ![E, 1]⟩ ⟨2, ![B, E]⟩ [0] [1] [] [1] [] 1 ![B, 1])
    (x : (⟨2, ![B, N]⟩ : Shape).Idx → α) (idx : IVec ⟨2, ![E, 1]⟩ w) (b : Fin B) (e : Fin E) :
    Host.gather (colDims B N E wf) x idx (ix2 b e) = x (ix2 b (GatherRows.rowOf hN idx e)) := by
  unfold Host.gather
  rw [colDims_operandIdx hN wf idx b e]

end Idealize.ShloMosaic.GatherCols

end
-- ==== Proof.LibScatterPoints.lean ====
/-
  Point scatters into a matrix, and two facts about scatters read as folds.

  A scatter runs over the update indices in row-major order; each update replaces the element of the running
  result at its result index (when that index is inside the operand) by the combining function applied to that
  element and the update. Two consequences of this fold shape, for any dimension numbers:

  * a "set" scatter (the combining function returns the update) leaves every element either the operand's
    element there or one of the updates;
  * two scatters whose result indices correspond under an injective map of the operand indices, run on operands
    that correspond under the same map, give results that correspond under it.

  The second is instantiated for POINT scatters `x.at[rows, cols].op(upd)` into a rank-2 operand: `K` scalar
  updates, the scatter indices laid out `[K, 2]`, both operand axes inserted. The result index of update `k` is
  the pair `(idx[k, 0], idx[k, 1])` read signed and not clamped, kept when both components are inside. Swapping the
  two components of every index pair and transposing the operand transposes the result, whatever the combining
  function is, because the fold visits the updates in the same order on both sides.
-/
import Idealize.ShloMosaic.Lib.ValueIdx

noncomputable section

namespace Idealize.ShloMosaic.ScatterPoints

open Idealize.ShloMosaic Idealize.ShloMosaic.ValueIdx

variable {α : Type}

section Fold

variable {s si u : Shape} {w : Nat}

/-- One step of a scatter's fold: update number `n` (in row-major order) applied to the running result `r`. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- A scatter is the left fold of its steps over the update numbers. -/
theorem scatter_eq_foldl (d : ScatterDims s si u) (f : α → α → α) (x : s.Idx → α) (idx : IVec si w)
    (upd : u.Idx → α) :
    Host.scatter d f x idx upd = (List.finRange u.numel).foldl (step d f idx upd) x := rfl

/-- A dropped update leaves the running result as it is. -/
theorem step_none (d : ScatterDims s si u) (f : α → α → α) (idx : IVec si w) (upd : u.Idx → α)
    (r : s.Idx → α) (n : Fin u.numel) (h : d.resultIdx? (u.rowMajor.symm n) idx = none) :
    step d f idx upd r n = r := by
  unfold step; rw [h]

/-- An update landing at `i` changes the running result at `i` only. -/
theorem step_some_apply (d : ScatterDims s si u) (f : α → α → α) (idx : IVec si w) (upd : u.Idx → α)
    (r : s.Idx → α) (n : Fin u.numel) (i : s.Idx) (h : d.resultIdx? (u.rowMajor.symm n) idx = some i)
    (i' : s.Idx) :
    step d f idx upd r n i' = if i' = i then f (r i) (upd (u.rowMajor.symm n)) else r i' := by
  unfold step; rw [h]

/-- THE RANGE OF A SET SCATTER: every element of the result is the operand's element there or one of the updates. -/
theorem scatter_set_mem (d : ScatterDims s si u) (x : s.Idx → α) (idx : IVec si w) (upd : u.Idx → α)
    (i : s.Idx) :
    Host.scatter d (fun _ b => b) x idx upd i = x i ∨
      ∃ j, Host.scatter d (fun _ b => b) x idx upd i = upd j := by
  rw [scatter_eq_foldl]
  have key : ∀ (l : List (Fin u.numel)) (r : s.Idx → α), (∀ i, r i = x i ∨ ∃ j, r i = upd j) →
      ∀ i, l.foldl (step d (fun _ b => b) idx upd) r i = x i ∨
        ∃ j, l.foldl (step d (fun _ b => b) idx upd) r i = upd j := by
    intro l
    induction l with
    | nil => intro r hr; exact hr
    | cons n l ih =>
      intro r hr
      rw [List.foldl_cons]
      refine ih _ (fun i' => ?_)
      cases h : d.resultIdx? (u.rowMajor.symm n) idx with
      | none => rw [step_none d _ idx upd r n h]; exact hr i'
      | some i0 =>
        rw [step_some_apply d _ idx upd r n i0 h]
        by_cases hi : i' = i0
        · rw [if_pos hi]; exact Or.inr ⟨u.rowMajor.symm n, rfl⟩
        · rw [if_neg hi]; exact hr i'
  exact key _ x (fun i => Or.inl rfl) i

/-- TWO SCATTERS THAT CORRESPOND UNDER A MAP OF THE OPERAND INDICES: when `σ` is injective, the operands satisfy
    `x' (σ i) = x i` and every update's result index on the second side is `σ` of its result index on the first
    (dropped on both sides or on neither), the results satisfy the same relation. The fold runs over the same update
    numbers on both sides; the relation between the running results is kept by every step. -/
theorem scatter_map {s' : Shape} (d : ScatterDims s si u) (d' : ScatterDims s' si u) (σ : s.Idx → s'.Idx)
    (hσ : Function.Injective σ) (f : α → α → α) (x : s.Idx → α) (x' : s'.Idx → α) (idx idx' : IVec si w)
    (upd : u.Idx → α) (hx : ∀ i, x' (σ i) = x i)
    (hres : ∀ j, d'.resultIdx? j idx' = (d.resultIdx? j idx).map σ) (i : s.Idx) :
    Host.scatter d' f x' idx' upd (σ i) = Host.scatter d f x idx upd i := by
  rw [scatter_eq_foldl, scatter_eq_foldl]
  have key : ∀ (l : List (Fin u.numel)) (r : s.Idx → α) (r' : s'.Idx → α), (∀ i, r' (σ i) = r i) →
      ∀ i, l.foldl (step d' f idx' upd) r' (σ i) = l.foldl (step d f idx upd) r i := by
    intro l
    induction l with
    | nil => intro r r' h; exact h
    | cons n l ih =>
      intro r r' h
      rw [List.foldl_cons, List.foldl_cons]
      refine ih _ _ (fun i' => ?_)
      have hr := hres (u.rowMajor.symm n)
      cases hd : d.resultIdx? (u.rowMajor.symm n) idx with
      | none =>
        rw [hd] at hr
        rw [step_none d f idx upd r n hd, step_none d' f idx' upd r' n hr]; exact h i'
      | some i0 =>
        rw [hd] at hr
        rw [step_some_apply d f idx upd r n i0 hd, step_some_apply d' f idx' upd r' n (σ i0) hr]
        by_cases hi : i' = i0
        · rw [if_pos hi, if_pos (congrArg σ hi), h i0]
        · rw [if_neg hi, if_neg (fun e => hi (hσ e)), h i']
  exact key _ x x' hx i

end Fold

section Points

/-- The dimension numbers of a point scatter into a matrix: operand `[A, B]`, scatter indices `[K, 2]`, `K` scalar
    updates; both operand axes are inserted window axes and the index pair names them in order. -/
abbrev pointDims (A B K : Nat)
    (wf : ScatterDims.WF ⟨2, ![A, B]⟩ ⟨2, ![K, 2]⟩ ⟨1, ![K]⟩ [] [0, 1] [0, 1] 1) :
    ScatterDims ⟨2, ![A, B]⟩ ⟨2, ![K, 2]⟩ ⟨1, ![K]⟩ where
  updateWindowDims := []
  insertedWindowDims := [0, 1]
  scatterDimsToOperandDims := [0, 1]
  indexVectorDim := 1
  wf := wf

/-- On the row axis the start of update `k` is the first component of its index pair, read signed. -/
theorem pointDims_start_row {A B K w : Nat}
    (wf : ScatterDims.WF ⟨2, ![A, B]⟩ ⟨2, ![K, 2]⟩ ⟨1, ![K]⟩ [] [0, 1] [0, 1] 1)
    (idx : IVec ⟨2, ![K, 2]⟩ w) (k : Fin K) :
    (pointDims A B K wf).start (ix1 k) idx (0 : Fin 2) = (idx (ix2 k (0 : Fin 2))).toInt := by
  unfold ScatterDims.start
  rw [dif_pos (show (0 : Fin 2) ∈ (pointDims A B K wf).scatterDimsToOperandDims from
    List.mem_cons.mpr (Or.inl rfl))]
  have hsi : (pointDims A B K wf).siIdx (ix1 k) ⟨List.idxOf (0 : Fin 2) (pointDims A B K wf).scatterDimsToOperandDims,
      List.idxOf_lt_length_iff.2 (List.mem_cons.mpr (Or.inl rfl))⟩ = ix2 k (0 : Fin 2) := by
    funext b; refine Fin.ext ?_
    match b with
    | ⟨0, _⟩ => rfl
    | ⟨1, _⟩ => rfl
  rw [hsi]

/-- On the column axis the start of update `k` is the second component of its index pair, read signed. -/
theorem pointDims_start_col {A B K w : Nat}
    (wf : ScatterDims.WF ⟨2, ![A, B]⟩ ⟨2, ![K, 2]⟩ ⟨1, ![K]⟩ [] [0, 1] [0, 1] 1)
    (idx : IVec ⟨2, ![K, 2]⟩ w) (k : Fin K) :
    (pointDims A B K wf).start (ix1 k) idx (1 : Fin 2) = (idx (ix2 k (1 : Fin 2))).toInt := by
  unfold ScatterDims.start
  rw [dif_pos (show (1 : Fin 2) ∈ (pointDims A B K wf).scatterDimsToOperandDims from
    List.mem_cons.mpr (Or.inr (List.mem_singleton.mpr rfl)))]
  have hsi : (pointDims A B K wf).siIdx (ix1 k) ⟨List.idxOf (1 : Fin 2) (pointDims A B K wf).scatterDimsToOperandDims,
      List.idxOf_lt_length_iff.2 (List.mem_cons.mpr (Or.inr (List.mem_singleton.mpr rfl)))⟩ = ix2 k (1 : Fin 2) := by
    funext b; refine Fin.ext ?_
    match b with
    | ⟨0, _⟩ => rfl
    | ⟨1, _⟩ => rfl
  rw [hsi]

/-- A point scatter has no window: both operand axes are inserted. -/
theorem pointDims_window {A B K : Nat}
    (wf : ScatterDims.WF ⟨2, ![A, B]⟩ ⟨2, ![K, 2]⟩ ⟨1, ![K]⟩ [] [0, 1] [0, 1] 1) (k : Fin K) (a : Fin 2) :
    (pointDims A B K wf).window (ix1 k) a = 0 := by
  match a with
  | ⟨0, _⟩ => rfl
  | ⟨1, _⟩ => rfl

/-- The point `(r, c)`, given by signed integers, as an index of an `[A, B]` matrix: kept when both components are
    inside, dropped when one is not. -/
def pointAt (A B : Nat) (r c : Int) : Option (⟨2, ![A, B]⟩ : Shape).Idx :=
  if h : (0 ≤ r ∧ r < (A : Int)) ∧ (0 ≤ c ∧ c < (B : Int)) then
    some (ix2 (⟨r.toNat, by omega⟩ : Fin A) (⟨c.toNat, by omega⟩ : Fin B))
  else none

/-- The result index of update `k` of a point scatter: the point its index pair names. -/
theorem pointDims_resultIdx {A B K w : Nat}
    (wf : ScatterDims.WF ⟨2, ![A, B]⟩ ⟨2, ![K, 2]⟩ ⟨1, ![K]⟩ [] [0, 1] [0, 1] 1)
    (idx : IVec ⟨2, ![K, 2]⟩ w) (k : Fin K) :
    (pointDims A B K wf).resultIdx? (ix1 k) idx =
      pointAt A B (idx (ix2 k (0 : Fin 2))).toInt (idx (ix2 k (1 : Fin 2))).toInt := by
  have h0 : (pointDims A B K wf).start (ix1 k) idx (0 : Fin 2) + (((pointDims A B K wf).window (ix1 k) (0 : Fin 2) : Nat) : Int)
      = (idx (ix2 k (0 : Fin 2))).toInt := by
    rw [pointDims_start_row, pointDims_window]; exact Int.add_zero _
  have h1 : (pointDims A B K wf).start (ix1 k) idx (1 : Fin 2) + (((pointDims A B K wf).window (ix1 k) (1 : Fin 2) : Nat) : Int)
      = (idx (ix2 k (1 : Fin 2))).toInt := by
    rw [pointDims_start_col, pointDims_window]; exact Int.add_zero _
  unfold ScatterDims.resultIdx? pointAt
  by_cases h : (0 ≤ (idx (ix2 k (0 : Fin 2))).toInt ∧ (idx (ix2 k (0 : Fin 2))).toInt < (A : Int)) ∧
      (0 ≤ (idx (ix2 k (1 : Fin 2))).toInt ∧ (idx (ix2 k (1 : Fin 2))).toInt < (B : Int))
  · have h' : ∀ a : Fin 2, 0 ≤ (pointDims A B K wf).start (ix1 k) idx a + (((pointDims A B K wf).window (ix1 k) a : Nat) : Int) ∧
        (pointDims A B K wf).start (ix1 k) idx a + (((pointDims A B K wf).window (ix1 k) a : Nat) : Int)
          < (((⟨2, ![A, B]⟩ : Shape).size a : Nat) : Int) := by
      intro a
      match a with
      | ⟨0, _⟩ =>
        show 0 ≤ (pointDims A B K wf).start (ix1 k) idx (0 : Fin 2) + (((pointDims A B K wf).window (ix1 k) (0 : Fin 2) : Nat) : Int) ∧
          (pointDims A B K wf).start (ix1 k) idx (0 : Fin 2) + (((pointDims A B K wf).window (ix1 k) (0 : Fin 2) : Nat) : Int) < (A : Int)
        rw [h0]; exact h.1
      | ⟨1, _⟩ =>
        show 0 ≤ (pointDims A B K wf).start (ix1 k) idx (1 : Fin 2) + (((pointDims A B K wf).window (ix1 k) (1 : Fin 2) : Nat) : Int) ∧
          (pointDims A B K wf).start (ix1 k) idx (1 : Fin 2) + (((pointDims A B K wf).window (ix1 k) (1 : Fin 2) : Nat) : Int) < (B : Int)
        rw [h1]; exact h.2
    rw [dif_pos h', dif_pos h]
    refine congrArg some ?_
    funext a
    refine Fin.ext ?_
    match a with
    | ⟨0, _⟩ =>
      show ((pointDims A B K wf).start (ix1 k) idx (0 : Fin 2) + (((pointDims A B K wf).window (ix1 k) (0 : Fin 2) : Nat) : Int)).toNat
        = (idx (ix2 k (0 : Fin 2))).toInt.toNat
      rw [h0]
    | ⟨1, _⟩ =>
      show ((pointDims A B K wf).start (ix1 k) idx (1 : Fin 2) + (((pointDims A B K wf).window (ix1 k) (1 : Fin 2) : Nat) : Int)).toNat
        = (idx (ix2 k (1 : Fin 2))).toInt.toNat
      rw [h1]
  · have h' : ¬ ∀ a : Fin 2, 0 ≤ (pointDims A B K wf).start (ix1 k) idx a + (((pointDims A B K wf).window (ix1 k) a : Nat) : Int) ∧
        (pointDims A B K wf).start (ix1 k) idx a + (((pointDims A B K wf).window (ix1 k) a : Nat) : Int)
          < (((⟨2, ![A, B]⟩ : Shape).size a : Nat) : Int) := by
      intro hall
      refine h ⟨?_, ?_⟩
      · have := hall (0 : Fin 2); rw [h0] at this; exact this
      · have := hall (1 : Fin 2); rw [h1] at this; exact this
    rw [dif_neg h', dif_neg h]

/-- The coordinate swap of matrix indices. -/
def swapIdx (A B : Nat) (i : (⟨2, ![A, B]⟩ : Shape).Idx) : (⟨2, ![B, A]⟩ : Shape).Idx := ix2 (i 1) (i 0)

theorem swapIdx_ix2 {A B : Nat} (a : Fin A) (b : Fin B) : swapIdx A B (ix2 a b) = ix2 b a := rfl

theorem swapIdx_injective (A B : Nat) : Function.Injective (swapIdx A B) := by
  intro i i' h
  rw [eq_ix2 i, eq_ix2 i']
  have h0 : i 1 = i' 1 := congrFun h (0 : Fin 2)
  have h1 : i 0 = i' 0 := congrFun h (1 : Fin 2)
  rw [h0, h1]

/-- Swapping the two components of a point swaps its index, and keeps whether it is inside. -/
theorem pointAt_swap (A B : Nat) (r c : Int) : pointAt B A c r = (pointAt A B r c).map (swapIdx A B) := by
  unfold pointAt
  by_cases h : (0 ≤ r ∧ r < (A : Int)) ∧ (0 ≤ c ∧ c < (B : Int))
  · rw [dif_pos h, dif_pos (And.symm h)]; rfl
  · rw [dif_neg h, dif_neg (fun h' => h (And.symm h'))]; rfl

/-- THE POINT SCATTER OF THE TRANSPOSED PROBLEM IS THE TRANSPOSE: the same updates scattered into the transposed
    operand at the index pairs with their components swapped give the transposed result, for any combining function. -/
theorem scatter_points_transpose {A B K w : Nat}
    (wf₁ : ScatterDims.WF ⟨2, ![A, B]⟩ ⟨2, ![K, 2]⟩ ⟨1, ![K]⟩ [] [0, 1] [0, 1] 1)
    (wf₂ : ScatterDims.WF ⟨2, ![B, A]⟩ ⟨2, ![K, 2]⟩ ⟨1, ![K]⟩ [] [0, 1] [0, 1] 1)
    (f : α → α → α)
    (x : (⟨2, ![A, B]⟩ : Shape).Idx → α) (x' : (⟨2, ![B, A]⟩ : Shape).Idx → α)
    (idx idx' : IVec ⟨2, ![K, 2]⟩ w) (upd : (⟨1, ![K]⟩ : Shape).Idx → α)
    (hx : ∀ (a : Fin A) (b : Fin B), x' (ix2 b a) = x (ix2 a b))
    (hidx : ∀ j : Fin K, idx' (ix2 j (0 : Fin 2)) = idx (ix2 j (1 : Fin 2)) ∧
      idx' (ix2 j (1 : Fin 2)) = idx (ix2 j (0 : Fin 2))) :
    ∀ (a : Fin A) (b : Fin B),
      Host.scatter (pointDims B A K wf₂) f x' idx' upd (ix2 b a) =
        Host.scatter (pointDims A B K wf₁) f x idx upd (ix2 a b) := by
  intro a b
  refine scatter_map (pointDims A B K wf₁) (pointDims B A K wf₂) (swapIdx A B) (swapIdx_injective A B) f x x' idx idx' upd
    ?_ ?_ (ix2 a b)
  · intro i
    obtain ⟨a', b', rfl⟩ : ∃ a' b', i = ix2 a' b' := ⟨_, _, eq_ix2 i⟩
    exact hx a' b'
  · intro j
    obtain ⟨k, rfl⟩ : ∃ k : Fin K, j = ix1 k := ⟨_, eq_ix1 j⟩
    rw [pointDims_resultIdx, pointDims_resultIdx, (hidx k).1, (hidx k).2]
    exact pointAt_swap A B _ _

end Points

end Idealize.ShloMosaic.ScatterPoints

end
-- ==== Proof.Bfs.lean ====
/-
  The two breadth-first computations are one computation in two layouts.

  The kernel's host prefix keeps the reached mask and the distances node-major, [100000, 64]; the reference keeps them
  source-major, [64, 100000]. Element (n, b) of the one is element (b, n) of the other at every stage:
  at the start both are the diagonal; in a round, the kernel gathers the row of an edge's tail node where the
  reference gathers the column of the same node and transposes, so the per-edge messages agree as whole arrays, the
  maxima over incoming edges are then the same scatter, and the rest of the round is pointwise.
  Every distance is one of 0, 1, 2, 3, 4: it is the start value (0 or the cap 4) or a round's number.
-/
import proofs.«153181_j23888608100655_2_alg».proof.Proof.KHost
import proofs.«153181_j23888608100655_2_alg».proof.Proof.RHost
import proofs.«153181_j23888608100655_2_alg».proof.Proof.LibGatherRows
import proofs.«153181_j23888608100655_2_alg».proof.Proof.LibGatherCols
import proofs.«153181_j23888608100655_2_alg».proof.Proof.LibScatterPoints

noncomputable section

namespace Cert.Bfs

open Idealize.ShloMosaic Idealize.ShloMosaic.ValueIdx

/-- The mask types of the two layouts. -/
abbrev MaskK := IVec (⟨2, ![100000, 64]⟩ : Shape) 1
abbrev MaskR := IVec (⟨2, ![64, 100000]⟩ : Shape) 1
abbrev Edges := IVec (⟨1, ![1600000]⟩ : Shape) 32

/-- Two arrays in the two layouts hold the same values. -/
def Transposed {α : Type} (k : (⟨2, ![100000, 64]⟩ : Shape).Idx → α) (r : (⟨2, ![64, 100000]⟩ : Shape).Idx → α) : Prop :=
  ∀ (n : Fin 100000) (b : Fin 64), k (ix2 n b) = r (ix2 b n)

/-- A scalar broadcast reads the scalar at every index. -/
theorem bcast0 {α : Type} {t : Shape} (h : (⟨0, ![]⟩ : Shape).BroadcastsInDim t ![]) (k : (⟨0, ![]⟩ : Shape).Idx → α) (j : t.Idx) :
    broadcastInDim t ![] h k j = k ix0 :=
  broadcastInDim_apply _ h k j ix0 (fun a => a.elim0)

/-- The two programs wrap the tail nodes in the same way. -/
theorem srcIdx_eq (x2 : Edges) : Cert.KernelIdeal.KHost.srcIdx x2 = Cert.ReferenceIdeal.RHost.srcIdx x2 := rfl
theorem dstIdx_eq (x3 : Edges) : Cert.KernelIdeal.KHost.dstIdx x3 = Cert.ReferenceIdeal.RHost.dstIdx x3 := rfl

/-- The per-edge messages agree as whole arrays: row `e` is the tail node's row of the one mask, the tail node's
    column of the other. -/
theorem msgs_eq (rK : MaskK) (rR : MaskR) (h : Transposed rK rR) (x2 : Edges) :
    Cert.KernelIdeal.KHost.msgs rK x2 = Cert.ReferenceIdeal.RHost.msgsT rR x2 := by
  funext i
  obtain ⟨e, b, rfl⟩ : ∃ (e : Fin 1600000) (b : Fin 64), i = ix2 e b := ⟨i 0, i 1, eq_ix2 i⟩
  have hK : Cert.KernelIdeal.KHost.msgs rK x2 (ix2 e b)
      = (rK (ix2 (GatherRows.rowOf (N := 100000) (by decide) (Cert.KernelIdeal.KHost.srcIdx x2) e) b)).setWidth 32 :=
    congrArg (fun v : BitVec 1 => v.setWidth 32)
      (GatherRows.gather_rows_apply (N := 100000) (E := 1600000) (C := 64) (by decide) _ rK (Cert.KernelIdeal.KHost.srcIdx x2) e b)
  have hR : Cert.ReferenceIdeal.RHost.msgsT rR x2 (ix2 e b)
      = (rR (ix2 b (GatherRows.rowOf (N := 100000) (by decide) (Cert.ReferenceIdeal.RHost.srcIdx x2) e))).setWidth 32 :=
    (transpose_apply [1, 0] _ Cert.ReferenceIdeal.Gen.transposes_S64x1600000_S1600000x64_1_0 (ix2 e b) (ix2 b e)
      (fun a => match a with
        | ⟨0, _⟩ => rfl
        | ⟨1, _⟩ => rfl)).trans
      (congrArg (fun v : BitVec 1 => v.setWidth 32)
        (GatherCols.gather_cols_apply (B := 64) (N := 100000) (E := 1600000) (by decide) _ rR (Cert.ReferenceIdeal.RHost.srcIdx x2) b e))
  rw [hK, hR, h, srcIdx_eq]

/-- So the maxima over incoming edges are one array. -/
theorem agg_eq (rK : MaskK) (rR : MaskR) (h : Transposed rK rR) (x2 x3 : Edges) :
    Cert.KernelIdeal.KHost.agg rK x2 x3 = Cert.ReferenceIdeal.RHost.aggN rR x2 x3 := by
  unfold Cert.KernelIdeal.KHost.agg Cert.ReferenceIdeal.RHost.aggN
  rw [msgs_eq rK rR h x2, dstIdx_eq]
  rfl

/-- A round keeps the two masks transposed. -/
theorem step_T (rK : MaskK) (rR : MaskR) (h : Transposed rK rR) (x2 x3 : Edges) :
    Transposed (Cert.KernelIdeal.KHost.step rK x2 x3) (Cert.ReferenceIdeal.RHost.step rR x2 x3) := by
  intro n b
  have hT : transpose Cert.ReferenceIdeal.S64x100000 [1, 0] (Cert.ReferenceIdeal.RHost.aggN rR x2 x3) Cert.ReferenceIdeal.Gen.transposes_S100000x64_S64x100000_1_0 (ix2 b n)
      = Cert.ReferenceIdeal.RHost.aggN rR x2 x3 (ix2 n b) :=
    transpose_apply [1, 0] _ Cert.ReferenceIdeal.Gen.transposes_S100000x64_S64x100000_1_0 (ix2 b n) (ix2 n b)
      (fun a => match a with
        | ⟨0, _⟩ => rfl
        | ⟨1, _⟩ => rfl)
  have e1 : Cert.KernelIdeal.KHost.step rK x2 x3 (ix2 n b) = IntOp.ori (rK (ix2 n b)) (IntOp.cmpi .sgt (Cert.KernelIdeal.KHost.agg rK x2 x3 (ix2 n b))
      (broadcastInDim Cert.KernelIdeal.S100000x64 ![] Cert.KernelIdeal.Gen.bcast_S_S100000x64 (constantI Cert.KernelIdeal.S_ 32 0#32) (ix2 n b))) := rfl
  have e2 : Cert.ReferenceIdeal.RHost.step rR x2 x3 (ix2 b n) = IntOp.ori (rR (ix2 b n)) (IntOp.cmpi .sgt
      (transpose Cert.ReferenceIdeal.S64x100000 [1, 0] (Cert.ReferenceIdeal.RHost.aggN rR x2 x3) Cert.ReferenceIdeal.Gen.transposes_S100000x64_S64x100000_1_0 (ix2 b n))
      (broadcastInDim Cert.ReferenceIdeal.S64x100000 ![] Cert.ReferenceIdeal.Gen.bcast_S_S64x100000 (constantI Cert.ReferenceIdeal.S_ 32 0#32) (ix2 b n))) := rfl
  rw [e1, e2, hT, agg_eq rK rR h x2 x3, h, bcast0, bcast0]

/-- … and the newly reached pairs. -/
theorem fresh_T (rK : MaskK) (rR : MaskR) (h : Transposed rK rR) (x2 x3 : Edges) :
    Transposed (Cert.KernelIdeal.KHost.fresh rK x2 x3) (Cert.ReferenceIdeal.RHost.fresh rR x2 x3) := by
  intro n b
  show IntOp.andi (Cert.KernelIdeal.KHost.step rK x2 x3 (ix2 n b)) (~~~(rK (ix2 n b)))
    = IntOp.andi (Cert.ReferenceIdeal.RHost.step rR x2 x3 (ix2 b n)) (~~~(rR (ix2 b n)))
  rw [step_T rK rR h x2 x3 n b, h]

/-- Writing a round's number where transposed conditions hold keeps transposed distances transposed. -/
theorem mark_T (cK : MaskK) (cR : MaskR) (hc : Transposed cK cR) (k : IVec (⟨0, ![]⟩ : Shape) 32)
    (dK : IVec (⟨2, ![100000, 64]⟩ : Shape) 32) (dR : IVec (⟨2, ![64, 100000]⟩ : Shape) 32) (hd : Transposed dK dR) :
    Transposed (Cert.KernelIdeal.KHost.mark cK k dK) (Cert.ReferenceIdeal.RHost.mark cR k dR) := by
  intro n b
  have e1 : Cert.KernelIdeal.KHost.mark cK k dK (ix2 n b) = Scalar.select (cK (ix2 n b))
      (broadcastInDim Cert.KernelIdeal.S100000x64 ![] Cert.KernelIdeal.Gen.bcast_S_S100000x64 k (ix2 n b)) (dK (ix2 n b)) := rfl
  have e2 : Cert.ReferenceIdeal.RHost.mark cR k dR (ix2 b n) = Scalar.select (cR (ix2 b n))
      (broadcastInDim Cert.ReferenceIdeal.S64x100000 ![] Cert.ReferenceIdeal.Gen.bcast_S_S64x100000 k (ix2 b n)) (dR (ix2 b n)) := rfl
  rw [e1, e2, hc, hd, bcast0, bcast0]

/-- A marked distance is the round's number or the distance before. -/
theorem mark_mem (cK : MaskK) (k : IVec (⟨0, ![]⟩ : Shape) 32) (dK : IVec (⟨2, ![100000, 64]⟩ : Shape) 32)
    (i : (⟨2, ![100000, 64]⟩ : Shape).Idx) :
    Cert.KernelIdeal.KHost.mark cK k dK i = k ix0 ∨ Cert.KernelIdeal.KHost.mark cK k dK i = dK i := by
  have e1 : Cert.KernelIdeal.KHost.mark cK k dK i = Scalar.select (cK i)
      (broadcastInDim Cert.KernelIdeal.S100000x64 ![] Cert.KernelIdeal.Gen.bcast_S_S100000x64 k i) (dK i) := rfl
  rw [e1, bcast0]
  unfold Scalar.select
  split
  · left; rfl
  · right; rfl

/-! ## The start: the diagonal, in both layouts -/

/-- A pair of columns joined side by side, read at column 0 and at column 1. -/
theorem pair_left (a b : IVec (⟨2, ![64, 1]⟩ : Shape) 32)
    (h : Shape.Concatenates [(⟨2, ![64, 1]⟩ : Shape), (⟨2, ![64, 1]⟩ : Shape)] (⟨2, ![64, 2]⟩ : Shape) (1 : Fin 2)) (j : Fin 64) :
    concatenate (⟨2, ![64, 2]⟩ : Shape) (1 : Fin 2) [⟨(⟨2, ![64, 1]⟩ : Shape), a⟩, ⟨(⟨2, ![64, 1]⟩ : Shape), b⟩] h (ix2 j (0 : Fin 2))
      = a (ix2 j (0 : Fin 1)) :=
  concatenate_pair_apply_left (1 : Fin 2) a b h (ix2 j (0 : Fin 2)) rfl (ix2 j (0 : Fin 1))
    (fun c => match c with
      | ⟨0, _⟩ => rfl
      | ⟨1, _⟩ => rfl)
theorem pair_right (a b : IVec (⟨2, ![64, 1]⟩ : Shape) 32)
    (h : Shape.Concatenates [(⟨2, ![64, 1]⟩ : Shape), (⟨2, ![64, 1]⟩ : Shape)] (⟨2, ![64, 2]⟩ : Shape) (1 : Fin 2)) (j : Fin 64) :
    concatenate (⟨2, ![64, 2]⟩ : Shape) (1 : Fin 2) [⟨(⟨2, ![64, 1]⟩ : Shape), a⟩, ⟨(⟨2, ![64, 1]⟩ : Shape), b⟩] h (ix2 j (1 : Fin 2))
      = b (ix2 j (0 : Fin 1)) :=
  concatenate_pair_apply_right (1 : Fin 2) a b h (ix2 j (1 : Fin 2)) rfl rfl (ix2 j (0 : Fin 1))
    (fun c => match c with
      | ⟨0, _⟩ => fun _ => rfl
      | ⟨1, _⟩ => fun hc => absurd rfl hc)
    rfl

/-- The index `i`, `i < 64`, with the wrap of a negative index by `k`, as a column. -/
def wrapIota (k : BitVec 32) : IVec (⟨2, ![64, 1]⟩ : Shape) 32 :=
  broadcastInDim Cert.KernelIdeal.S64x1 ![0] Cert.KernelIdeal.Gen.bcast_S64_S64x1_0
    (select (cmpi .slt (iotaInDim Cert.KernelIdeal.S64 32 0) (broadcastInDim Cert.KernelIdeal.S64 ![] Cert.KernelIdeal.Gen.bcast_S_S64 (constantI Cert.KernelIdeal.S_ 32 0#32)))
      (addi (iotaInDim Cert.KernelIdeal.S64 32 0) (broadcastInDim Cert.KernelIdeal.S64 ![] Cert.KernelIdeal.Gen.bcast_S_S64 (constantI Cert.KernelIdeal.S_ 32 k))) (iotaInDim Cert.KernelIdeal.S64 32 0))

theorem diagK_eq : Cert.KernelIdeal.KHost.diagIdx
    = concatenate (⟨2, ![64, 2]⟩ : Shape) (1 : Fin 2) [⟨(⟨2, ![64, 1]⟩ : Shape), wrapIota 100000#32⟩, ⟨(⟨2, ![64, 1]⟩ : Shape), wrapIota 64#32⟩]
        Cert.KernelIdeal.Gen.concatenates_S64x1_S64x1_S64x2_d1 := rfl
theorem diagR_eq : Cert.ReferenceIdeal.Read.val_main_v14 (F := Ideal)
    = concatenate (⟨2, ![64, 2]⟩ : Shape) (1 : Fin 2) [⟨(⟨2, ![64, 1]⟩ : Shape), wrapIota 64#32⟩, ⟨(⟨2, ![64, 1]⟩ : Shape), wrapIota 100000#32⟩]
        Cert.ReferenceIdeal.Gen.concatenates_S64x1_S64x1_S64x2_d1 := rfl
theorem diagR'_eq : Cert.ReferenceIdeal.Read.val_main_v30 (F := Ideal)
    = concatenate (⟨2, ![64, 2]⟩ : Shape) (1 : Fin 2) [⟨(⟨2, ![64, 1]⟩ : Shape), wrapIota 64#32⟩, ⟨(⟨2, ![64, 1]⟩ : Shape), wrapIota 100000#32⟩]
        Cert.ReferenceIdeal.Gen.concatenates_S64x1_S64x1_S64x2_d1 := rfl

/-- The reference's index pairs are the kernel's with the two components swapped. -/
theorem diag_swap (j : Fin 64) :
    Cert.ReferenceIdeal.Read.val_main_v14 (F := Ideal) (ix2 j (0 : Fin 2)) = Cert.KernelIdeal.KHost.diagIdx (ix2 j (1 : Fin 2))
    ∧ Cert.ReferenceIdeal.Read.val_main_v14 (F := Ideal) (ix2 j (1 : Fin 2)) = Cert.KernelIdeal.KHost.diagIdx (ix2 j (0 : Fin 2)) := by
  rw [diagK_eq, diagR_eq, pair_left, pair_right, pair_left, pair_right]
  exact ⟨rfl, rfl⟩
theorem diag_swap' (j : Fin 64) :
    Cert.ReferenceIdeal.Read.val_main_v30 (F := Ideal) (ix2 j (0 : Fin 2)) = Cert.KernelIdeal.KHost.diagIdx (ix2 j (1 : Fin 2))
    ∧ Cert.ReferenceIdeal.Read.val_main_v30 (F := Ideal) (ix2 j (1 : Fin 2)) = Cert.KernelIdeal.KHost.diagIdx (ix2 j (0 : Fin 2)) := by
  rw [diagK_eq, diagR'_eq, pair_left, pair_right, pair_left, pair_right]
  exact ⟨rfl, rfl⟩

/-- Reached before any round: transposed. -/
theorem reached0_T : Transposed Cert.KernelIdeal.KHost.reached0 (Cert.ReferenceIdeal.Read.val_main_v16 (F := Ideal)) := by
  intro n b
  exact (ScatterPoints.scatter_points_transpose (A := 100000) (B := 64) (K := 64) _ _ (fun _ u => u)
    (broadcastInDim Cert.KernelIdeal.S100000x64 ![] Cert.KernelIdeal.Gen.bcast_S_S100000x64 (constantI Cert.KernelIdeal.S_ 1 0#1))
    (Cert.ReferenceIdeal.Read.val_main_v1 (F := Ideal)) Cert.KernelIdeal.KHost.diagIdx (Cert.ReferenceIdeal.Read.val_main_v14 (F := Ideal))
    (broadcastInDim Cert.KernelIdeal.S64 ![] Cert.KernelIdeal.Gen.bcast_S_S64 (constantI Cert.KernelIdeal.S_ 1 1#1))
    (fun _ _ => rfl) diag_swap n b).symm

/-- Distances before any round: transposed. -/
theorem dist0_T : Transposed Cert.KernelIdeal.KHost.dist0 (Cert.ReferenceIdeal.Read.val_main_v32 (F := Ideal)) := by
  intro n b
  exact (ScatterPoints.scatter_points_transpose (A := 100000) (B := 64) (K := 64) _ _ (fun _ u => u)
    (broadcastInDim Cert.KernelIdeal.S100000x64 ![] Cert.KernelIdeal.Gen.bcast_S_S100000x64 (constantI Cert.KernelIdeal.S_ 32 4#32))
    (Cert.ReferenceIdeal.Read.val_main_v17 (F := Ideal)) Cert.KernelIdeal.KHost.diagIdx (Cert.ReferenceIdeal.Read.val_main_v30 (F := Ideal))
    (broadcastInDim Cert.KernelIdeal.S64 ![] Cert.KernelIdeal.Gen.bcast_S_S64 (constantI Cert.KernelIdeal.S_ 32 0#32))
    (fun _ _ => rfl) diag_swap' n b).symm

/-! ## The four rounds -/

variable (x2 x3 : Edges)

theorem reached_T0 : Transposed (Cert.KernelIdeal.KHost.reached x2 x3 0) (Cert.ReferenceIdeal.Read.val_main_v16 (F := Ideal)) := reached0_T
theorem reached_T1 : Transposed (Cert.KernelIdeal.KHost.reached x2 x3 1) (Cert.ReferenceIdeal.Read.val_main_v48 (F := Ideal) x2 x3) := by
  rw [Cert.ReferenceIdeal.RHost.v48_eq]; exact step_T _ _ (reached_T0 x2 x3) x2 x3
theorem reached_T2 : Transposed (Cert.KernelIdeal.KHost.reached x2 x3 2) (Cert.ReferenceIdeal.Read.val_main_v67 (F := Ideal) x2 x3) := by
  rw [Cert.ReferenceIdeal.RHost.v67_eq]; exact step_T _ _ (reached_T1 x2 x3) x2 x3
theorem reached_T3 : Transposed (Cert.KernelIdeal.KHost.reached x2 x3 3) (Cert.ReferenceIdeal.Read.val_main_v86 (F := Ideal) x2 x3) := by
  rw [Cert.ReferenceIdeal.RHost.v86_eq]; exact step_T _ _ (reached_T2 x2 x3) x2 x3

/-- THE DISTANCES: the kernel's second window holds the reference's distances transposed. -/
theorem dist_T : Transposed (Cert.KernelIdeal.KHost.dist x2 x3) (Cert.ReferenceIdeal.Read.val_main_v108 (F := Ideal) x2 x3) := by
  rw [Cert.ReferenceIdeal.RHost.v108_eq, Cert.ReferenceIdeal.RHost.v107_eq, Cert.ReferenceIdeal.RHost.v89_eq, Cert.ReferenceIdeal.RHost.v88_eq, Cert.ReferenceIdeal.RHost.v70_eq, Cert.ReferenceIdeal.RHost.v69_eq,
    Cert.ReferenceIdeal.RHost.v51_eq, Cert.ReferenceIdeal.RHost.v50_eq]
  unfold Cert.KernelIdeal.KHost.dist
  exact mark_T _ _ (fresh_T _ _ (reached_T3 x2 x3) x2 x3) _ _ _
    (mark_T _ _ (fresh_T _ _ (reached_T2 x2 x3) x2 x3) _ _ _
      (mark_T _ _ (fresh_T _ _ (reached_T1 x2 x3) x2 x3) _ _ _
        (mark_T _ _ (fresh_T _ _ (reached_T0 x2 x3) x2 x3) _ _ _ dist0_T)))

/-- Every distance is one of the five values 0 … 4. -/
theorem dist_range (i : (⟨2, ![100000, 64]⟩ : Shape).Idx) :
    Cert.KernelIdeal.KHost.dist x2 x3 i = 0#32 ∨ Cert.KernelIdeal.KHost.dist x2 x3 i = 1#32 ∨ Cert.KernelIdeal.KHost.dist x2 x3 i = 2#32
      ∨ Cert.KernelIdeal.KHost.dist x2 x3 i = 3#32 ∨ Cert.KernelIdeal.KHost.dist x2 x3 i = 4#32 := by
  have h0 : Cert.KernelIdeal.KHost.dist0 i = 4#32 ∨ Cert.KernelIdeal.KHost.dist0 i = 0#32 := by
    rcases ScatterPoints.scatter_set_mem Cert.KernelIdeal.scatter_S100000x64_S64x2_S64_n_01_01_1
        (broadcastInDim Cert.KernelIdeal.S100000x64 ![] Cert.KernelIdeal.Gen.bcast_S_S100000x64 (constantI Cert.KernelIdeal.S_ 32 4#32)) Cert.KernelIdeal.KHost.diagIdx
        (broadcastInDim Cert.KernelIdeal.S64 ![] Cert.KernelIdeal.Gen.bcast_S_S64 (constantI Cert.KernelIdeal.S_ 32 0#32)) i with h | ⟨j, h⟩
    · left; exact h
    · right; exact h
  unfold Cert.KernelIdeal.KHost.dist
  rcases mark_mem (Cert.KernelIdeal.KHost.fresh (Cert.KernelIdeal.KHost.reached x2 x3 3) x2 x3) (constantI Cert.KernelIdeal.S_ 32 4#32) _ i with h4 | h4
  · right; right; right; right; exact h4
  rw [h4]
  rcases mark_mem (Cert.KernelIdeal.KHost.fresh (Cert.KernelIdeal.KHost.reached x2 x3 2) x2 x3) (constantI Cert.KernelIdeal.S_ 32 3#32) _ i with h3 | h3
  · right; right; right; left; exact h3
  rw [h3]
  rcases mark_mem (Cert.KernelIdeal.KHost.fresh (Cert.KernelIdeal.KHost.reached x2 x3 1) x2 x3) (constantI Cert.KernelIdeal.S_ 32 2#32) _ i with h2 | h2
  · right; right; left; exact h2
  rw [h2]
  rcases mark_mem (Cert.KernelIdeal.KHost.fresh (Cert.KernelIdeal.KHost.reached x2 x3 0) x2 x3) (constantI Cert.KernelIdeal.S_ 32 1#32) _ i with h1 | h1
  · right; left; exact h1
  rw [h1]
  rcases h0 with h | h
  · right; right; right; right; exact h
  · left; exact h

end Cert.Bfs

end
-- ==== Proof.RefOut.lean ====
/- The reference's output read at an index, at the ideal values.

   The reference ends by turning the label matrix (64 rows of labels per node) into a one-hot tensor, summing it over
   the 64 rows (a histogram of the five classes per node), multiplying the histogram with the 5 × 32 table, and
   appending the product to the node features. Read at an index: the first 128 columns of the output are the features,
   and column 128 + q of node n is the sum over the five classes k of (the number of rows b whose label at n is k)
   times the table's entry (k, q). The reduction starts from the constant zero, which adds nothing. -/
import proofs.«153181_j23888608100655_2_alg».proof.Proof.RefRead
import proofs.«153181_j23888608100655_2_alg».proof.Proof.Histogram

noncomputable section

namespace Cert.ReferenceIdeal.ROut

open Cert.ReferenceIdeal Cert.ReferenceIdeal.Gen Cert.ReferenceIdeal.Read Idealize.ShloMosaic Idealize.ShloMosaic.ValueIdx
open scoped BigOperators

variable (x0 : (⟨S100000x128, .f32⟩ : BufTy).Contents (Elt Ideal)) (x1 : (⟨S5x32, .f32⟩ : BufTy).Contents (Elt Ideal))
  (x2 x3 : (⟨S1600000, .i32⟩ : BufTy).Contents (Elt Ideal))

/-! ## The class constants and labels as classes -/

theorem ofNat_val_0 : BitVec.ofNat 32 (0 : Fin 5).val = 0#32 := rfl
theorem ofNat_val_1 : BitVec.ofNat 32 (1 : Fin 5).val = 1#32 := rfl
theorem ofNat_val_2 : BitVec.ofNat 32 (2 : Fin 5).val = 2#32 := rfl
theorem ofNat_val_3 : BitVec.ofNat 32 (3 : Fin 5).val = 3#32 := rfl
theorem ofNat_val_4 : BitVec.ofNat 32 (4 : Fin 5).val = 4#32 := rfl

/-- A word below 5 equals the word of class \`k\` exactly when, read as a class, it is \`k\`. -/
theorem eq_ofNat_iff (x : BitVec 32) (h : x.toNat < 5) (k : Fin 5) :
    x = BitVec.ofNat 32 k.val ↔ (⟨x.toNat, h⟩ : Fin 5) = k := by
  have hk : k.val % 2 ^ 32 = k.val := Nat.mod_eq_of_lt (by have := k.isLt; omega)
  constructor
  · intro e
    apply Fin.ext
    show x.toNat = k.val
    rw [e, BitVec.toNat_ofNat, hk]
  · intro e
    apply BitVec.eq_of_toNat_eq
    rw [BitVec.toNat_ofNat, hk]
    exact congrArg Fin.val e

/-! ## The one-hot tensor, its sum over the rows, and the product with the table -/

/-- The one-hot tensor at row \`b\`, node \`n\`, class \`k\`: 1 when the label is \`k\`, else 0. -/
theorem v109_ix3 (b : Fin 64) (n : Fin 100000) (k : Fin 5) :
    val_main_v109 (F := Ideal) x2 x3 (ix3 b n k)
      = if val_main_v108 (F := Ideal) x2 x3 (ix2 b n) = BitVec.ofNat 32 k.val then (1 : EReal) else 0 := by
  rw [val_main_v109_apply, val_main_call4_v4_apply, val_main_call4_v2_apply, val_main_call4_v0_apply,
    val_main_call4_v3_apply, val_main_call4_v1_apply]
  have e1 : idx_main_call4_v0 (idx_main_call4_v2 (ix3 b n k)) = ix2 b n :=
    funext fun a => Fin.ext (by match a with | ⟨0, _⟩ => rfl | ⟨1, _⟩ => rfl)
  rw [e1]
  exact Cert.Histogram.uitofp_cmpi_eq _ _

/-- The histogram at node \`n\`, class \`k\`: the number of rows whose label at \`n\` is \`k\` (the sum starts from zero). -/
theorem v110_ix2 (n : Fin 100000) (k : Fin 5) :
    val_main_v110 (F := Ideal) x2 x3 (ix2 n k)
      = ∑ b : Fin 64, (if val_main_v108 (F := Ideal) x2 x3 (ix2 b n) = BitVec.ofNat 32 k.val then (1 : EReal) else 0) := by
  rw [val_main_v110_apply, val_main_cst_apply, Ideal.ofBits_def, Ideal.ofBits_zero_f32, zero_add]
  refine Finset.sum_congr rfl fun b _ => ?_
  have e : idx_main_v110 (ix2 n k) b = ix3 b n k :=
    funext fun a => Fin.ext (by match a with | ⟨0, _⟩ => rfl | ⟨1, _⟩ => rfl | ⟨2, _⟩ => rfl)
  rw [e]
  exact v109_ix3 x2 x3 b n k

/-- The product of the histogram with the table at node \`n\`, column \`q\`. -/
theorem v111_ix2 (n : Fin 100000) (q : Fin 32) :
    val_main_v111 (F := Ideal) x1 x2 x3 (ix2 n q)
      = ∑ k : Fin 5, (∑ b : Fin 64, (if val_main_v108 (F := Ideal) x2 x3 (ix2 b n) = BitVec.ofNat 32 k.val
          then (1 : EReal) else 0)) * x1 (ix2 k q) := by
  rw [val_main_v111_apply]
  refine Finset.sum_congr rfl fun k _ => ?_
  have el : lidx_main_v111 (ix2 n q) k = ix2 n k :=
    funext fun a => Fin.ext (by match a with | ⟨0, _⟩ => rfl | ⟨1, _⟩ => rfl)
  have er : ridx_main_v111 (ix2 n q) k = ix2 k q :=
    funext fun a => Fin.ext (by match a with | ⟨0, _⟩ => rfl | ⟨1, _⟩ => rfl)
  rw [el, er, v110_ix2]

/-! ## The output -/

/-- The first 128 columns of the output are the node features. -/
theorem out_left (n : Fin 100000) (j : Fin 128) :
    val_main_v112 (F := Ideal) x0 x1 x2 x3 (ix2 n (⟨j.val, by omega⟩ : Fin 160)) = x0 (ix2 n j) := by
  unfold val_main_v112
  exact concatenate_pair_apply_left 1 x0 _ concatenates_S100000x128_S100000x32_S100000x160_d1 _ rfl (ix2 n j)
    (fun b => by
      match b with
      | ⟨0, _⟩ => rfl
      | ⟨1, _⟩ => rfl)

/-- Column \`128 + q\` of the output at node \`n\` is the histogram of the node's 64 labels weighted by column \`q\` of the
    table. -/
theorem out_right (n : Fin 100000) (q : Fin 32) :
    val_main_v112 (F := Ideal) x0 x1 x2 x3 (ix2 n (⟨128 + q.val, by omega⟩ : Fin 160))
      = ∑ k : Fin 5, (∑ b : Fin 64, (if val_main_v108 (F := Ideal) x2 x3 (ix2 b n) = BitVec.ofNat 32 k.val
          then (1 : EReal) else 0)) * x1 (ix2 k q) := by
  rw [← v111_ix2 x1 x2 x3 n q]
  unfold val_main_v112
  exact concatenate_pair_apply_right 1 x0 _ concatenates_S100000x128_S100000x32_S100000x160_d1 _ rfl rfl (ix2 n q)
    (fun b hb => by
      match b with
      | ⟨0, _⟩ => rfl
      | ⟨1, _⟩ => exact absurd rfl hb)
    (by show q.val + 128 = 128 + q.val; omega)

end Cert.ReferenceIdeal.ROut

end
-- ==== Proof.Bridge.lean ====
/-
  The reference's output array is the kernel's output function of the same arguments.

  Both arrays have 160 columns. On the first 128 both copy the node features. Column 128 + q of node n is, on the
  reference's side, the sum over the five classes k of (the number of the node's 64 labels equal to the word of k)
  times the table's entry (k, q), the labels read from the reference's source-major distance array; on the kernel's
  side it is the per-row formula applied to the node's row of the kernel's node-major distance array. Every entry of
  that row is one of the words 0 … 4, so the row law turns the formula into the same five-term sum over the kernel's
  row; and the two distance arrays hold the same values in transposed layouts, so the indicators agree term by term.
-/
import proofs.«153181_j23888608100655_2_alg».proof.Proof.KernelSpec
import proofs.«153181_j23888608100655_2_alg».proof.Proof.RowLaw
import proofs.«153181_j23888608100655_2_alg».proof.Proof.Bfs
import proofs.«153181_j23888608100655_2_alg».proof.Proof.RefOut

noncomputable section

open scoped BigOperators

namespace Cert.Bridge

open Idealize.ShloMosaic Idealize.ShloMosaic.ValueIdx

/-- A computed column's number is inside the output's 160 columns. -/
theorem right_lt (q : Fin 32) : 128 + q.val < 160 := by omega

/-- The five-term sums of the two sides agree: the label of node `n` in row `b` of the reference's array is the entry
    `(n, b)` of the kernel's. -/
theorem sums_eq (x1 : (⟨2, ![5, 32]⟩ : Shape).Idx → EReal) (x2 x3 : IVec (⟨1, ![1600000]⟩ : Shape) 32)
    (n : Fin 100000) (q : Fin 32) :
    (∑ k : Fin 5, (∑ b : Fin 64, (if Cert.ReferenceIdeal.Read.val_main_v108 (F := Ideal) x2 x3 (ix2 b n)
        = BitVec.ofNat 32 k.val then (1 : EReal) else 0)) * x1 (ix2 k q))
      = ∑ k : Fin 5, (∑ b : Fin 64, (if Cert.KernelIdeal.KHost.dist x2 x3 (ix2 n b)
        = BitVec.ofNat 32 k.val then (1 : EReal) else 0)) * x1 (ix2 k q) := by
  refine Finset.sum_congr rfl (fun k _ => ?_)
  refine congrArg (· * x1 (ix2 k q)) ?_
  refine Finset.sum_congr rfl (fun b _ => ?_)
  rw [Cert.Bfs.dist_T x2 x3 n b]

/-- THE BRIDGE: the reference's output array is the kernel's output function of the node features, the kernel's
    distance array and the table. -/
theorem out_eq (x0 : (⟨2, ![100000, 128]⟩ : Shape).Idx → EReal) (x1 : (⟨2, ![5, 32]⟩ : Shape).Idx → EReal)
    (x2 x3 : IVec (⟨1, ![1600000]⟩ : Shape) 32) :
    Cert.ReferenceIdeal.Read.val_main_v112 (F := Ideal) x0 x1 x2 x3
      = Cert.KernelIdeal.KValue.KOut x0 (Cert.KernelIdeal.KHost.dist x2 x3) x1 := by
  funext i
  obtain ⟨n, j, rfl⟩ : ∃ (n : Fin 100000) (j : Fin 160), i = ix2 n j := ⟨i 0, i 1, eq_ix2 i⟩
  by_cases h : j.val < 128
  · exact (Cert.ReferenceIdeal.ROut.out_left x0 x1 x2 x3 n ⟨j.val, h⟩).trans
      (Cert.KernelIdeal.KValue.KOut_left x0 (Cert.KernelIdeal.KHost.dist x2 x3) x1 n ⟨j.val, h⟩).symm
  · obtain ⟨q, rfl⟩ : ∃ q : Fin 32, j = (⟨128 + q.val, right_lt q⟩ : Fin 160) :=
      ⟨⟨j.val - 128, by omega⟩, Fin.ext (by show j.val = 128 + (j.val - 128); omega)⟩
    rw [Cert.ReferenceIdeal.ROut.out_right x0 x1 x2 x3 n q,
      Cert.KernelIdeal.KValue.KOut_right x0 (Cert.KernelIdeal.KHost.dist x2 x3) x1 n q,
      Cert.RowLaw.rowPos_eq _ (fun b => Cert.Bfs.dist_range x2 x3 (ix2 n b)) _]
    exact sums_eq x1 x2 x3 n q

end Cert.Bridge

end
-- ==== Proof.lean ====
/-
  The certificate: a one-hot histogram of breadth-first distances, contracted with a small table and joined to x.

  Both programs compute, for the 64 sources 0 … 63 of a directed graph on 100000 nodes, the hop count from each
  source to each node capped at 4 (four rounds of a frontier expansion along the 1600000 edges), then for every node n
  the row  out[n] = x[n] ++ Σ_b emb[dist(b, n)]  of width 128 + 32.

  The reference keeps the distances source-major, expands them one-hot over the five values, sums over the sources
  and multiplies the [100000, 5] histogram with the table. The kernel's host prefix keeps the distances node-major
  (the same rounds, without the reference's transposes), and its body counts, per node, the sources at distance
  0, 1, 2, 3 by four lane sums, takes the count at distance 4 as 64 minus those, and adds the five count × row products.

  The two agree on the extended reals because (1) the two distance arrays are transposes of each other at every stage
  (Proof/Bfs.lean), (2) every distance is one of 0 … 4, so the five counts add up to 64 and the complement IS the fifth
  count — an identity between finite reals, the counts being natural numbers — (Proof/Histogram.lean, Proof/RowLaw.lean), and
  (3) the rest is commutativity and associativity of the extended reals' addition; no distributive law is used, so
  the table's entries may be infinite and the precondition is never opened.
  The kernel's array after the run is read off the generated blockwise value leg (Proof/KernelPoint.lean,
  Proof/KernelArray.lean) and its second window off the host prefix (Proof/KHost.lean); the reference's result is its
  operation list run in stretches (Proof/RefChain.lean) and read at an index (Proof/RefOut.lean); Proof/Bridge.lean
  joins the two whole-array functions.
-/
import proofs.«153181_j23888608100655_2_alg».proof.Defs
import proofs.«153181_j23888608100655_2_alg».proof.Proof.Gen.Kernel
import proofs.«153181_j23888608100655_2_alg».proof.Proof.Gen.Kernel.Frame
import proofs.«153181_j23888608100655_2_alg».proof.Proof.Gen.KernelIdeal
import proofs.«153181_j23888608100655_2_alg».proof.Proof.Gen.KernelIdeal.Frame
import proofs.«153181_j23888608100655_2_alg».proof.Proof.Gen.ReferenceIdeal
import proofs.«153181_j23888608100655_2_alg».proof.Proof.Gen.Pre_finite_inputs
import proofs.«153181_j23888608100655_2_alg».proof.Proof.KernelArray
import proofs.«153181_j23888608100655_2_alg».proof.Proof.KHost
import proofs.«153181_j23888608100655_2_alg».proof.Proof.RefChain
import proofs.«153181_j23888608100655_2_alg».proof.Proof.Bridge
import Idealize.ShloMosaic.Adequacy
import Idealize.ShloMosaic.Init

noncomputable section

namespace Cert.Proof

open Idealize.ShloMosaic Idealize.ShloMosaic.TcCoe Idealize.SL.Sem

/-- The reference's run at the ideal instance: it ends with its result at the last stage of the four arguments and the
    arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v112)
        = Cert.ReferenceIdeal.Read.val_main_v112 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono (fun r h c =>
      ⟨(h c Cert.ReferenceIdeal.main_v112).trans (Cert.ReferenceIdeal.RChain.after_ops_v112 _),
       (h c Cert.ReferenceIdeal.main_arg0).trans (Cert.ReferenceIdeal.RChain.after_ops_arg0 _),
       (h c Cert.ReferenceIdeal.main_arg1).trans (Cert.ReferenceIdeal.RChain.after_ops_arg1 _),
       (h c Cert.ReferenceIdeal.main_arg2).trans (Cert.ReferenceIdeal.RChain.after_ops_arg2 _),
       (h c Cert.ReferenceIdeal.main_arg3).trans (Cert.ReferenceIdeal.RChain.after_ops_arg3 _)⟩)
    (Cert.ReferenceIdeal.Value.run_after (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run (Cert.ReferenceIdeal.defs (F := Ideal)) _ _).mono (fun _ h c => (h c).2) (ref_run m ρ)

/-- The ideal pass rewrote nothing: the idealization is the kernel's own text read on the extended reals. -/
theorem preserves : Cert.preserves_Kernel_KernelIdeal := trivial

/-- Both runs end with the same array: x joined with the histogram of the capped distances contracted with the table. -/
theorem algebraic : Cert.algebraic_KernelIdeal_ReferenceIdeal := by
  intro m ρ m' ρ' _ hagree
  refine ⟨fun c => Cert.KernelIdeal.KValue.KOut (m ((c.tc : Thread Cert.KernelIdeal.nD Cert.KernelIdeal.τ).loc Cert.KernelIdeal.main_arg0))
      (Cert.KernelIdeal.KHost.dist (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)), ?_, ?_⟩
  · refine (θ_run (Cert.KernelIdeal.defs (F := Ideal)) _ _).mono (fun r h c => ⟨(h c).1.trans ?_, (h c).2⟩) (Cert.KernelIdeal.KValue.kernel_run m ρ)
    rw [Cert.KernelIdeal.Gen.V_main_arg0, Cert.KernelIdeal.KHost.V_dist, Cert.KernelIdeal.Gen.V_main_arg1]
  · refine (θ_run (Cert.ReferenceIdeal.defs (F := Ideal)) _ _).mono (fun r h c => ⟨(h c).1.trans ?_, (h c).2⟩) (ref_run m' ρ')
    rw [(hagree c).1, (hagree c).2.1, (hagree c).2.2.1, (hagree c).2.2.2]
    exact Cert.Bridge.out_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
